-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v320) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128x2 : Shape := ⟨2, ![128, 2]⟩
abbrev S128x256x1600 : Shape := ⟨3, ![128, 256, 1600]⟩
abbrev S72x256 : Shape := ⟨2, ![72, 256]⟩
abbrev S72 : Shape := ⟨1, ![72]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S128x2 : S_.BroadcastsInDim S128x2 (![] : Fin 0 → Fin S128x2.rank)
  reducesTo_S128x2_S_d0_1 : S128x2.ReducesTo [0, 1] S_
  bcast_S_S128x256x1600 : S_.BroadcastsInDim S128x256x1600 (![] : Fin 0 → Fin S128x256x1600.rank)
  reducesTo_S128x256x1600_S_d0_1_2 : S128x256x1600.ReducesTo [0, 1, 2] S_
  bcast_S_S72x256 : S_.BroadcastsInDim S72x256 (![] : Fin 0 → Fin S72x256.rank)
  reducesTo_S72x256_S_d0_1 : S72x256.ReducesTo [0, 1] S_
  bcast_S_S72 : S_.BroadcastsInDim S72 (![] : Fin 0 → Fin S72.rank)
  reducesTo_S72_S_d0 : S72.ReducesTo [0] S_

variable [Facts]

def fn_part1 {F : FTy → Type} [FloatOps F] (main_arg4 : FVec F S72x256 .f32) (main_arg5 : FVec F S72 .f32) (main_v13 : IVec S_ 1) (main_v16 : IVec S128x256x1600 1) : IVec S_ 1 :=
  let main_c_5 : IVec S_ 1 := constantI S_ 1 1#1
  let main_v17 : IVec S_ 1 := (fun x v => Host.reduce IntOp.andi x v reducesTo_S128x256x1600_S_d0_1_2 h_S_) main_v16 main_c_5
  let main_v18 : IVec S_ 1 := andi main_v13 main_v17
  let main_v19 : FVec F S72x256 .f32 := Host.absf main_arg4
  let main_cst_6 : FVec F S_ .f32 := constant S_ .f32 0x7F800000#32
  let main_v20 : FVec F S72x256 .f32 := broadcastInDim S72x256 ![] bcast_S_S72x256 main_cst_6
  let main_v21 : IVec S72x256 1 := cmpf .olt main_v19 main_v20
  let main_c_7 : IVec S_ 1 := constantI S_ 1 1#1
  let main_v22 : IVec S_ 1 := (fun x v => Host.reduce IntOp.andi x v reducesTo_S72x256_S_d0_1 h_S_) main_v21 main_c_7
  let main_v23 : IVec S_ 1 := andi main_v18 main_v22
  let main_v24 : FVec F S72 .f32 := Host.absf main_arg5
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  main_v28

def fn {F : FTy → Type} [FloatOps F] (main_arg0 : FVec F S128x256 .f32) (main_arg1 : FVec F S128x2 .f32) (main_arg2 : FVec F S128x256x1600 .f32) (main_arg3 : FVec F S128x256x1600 .f32) (main_arg4 : FVec F S72x256 .f32) (main_arg5 : FVec F S72 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S128x256x1600 .f32 := Host.absf main_arg2
  let main_cst_2 : FVec F S_ .f32 := constant S_ .f32 0x7F800000#32
  let main_v10 : FVec F S128x256x1600 .f32 := broadcastInDim S128x256x1600 ![] bcast_S_S128x256x1600 main_cst_2
  let main_v11 : IVec S128x256x1600 1 := cmpf .olt main_v9 main_v10
  let main_c_3 : IVec S_ 1 := constantI S_ 1 1#1
  let main_v12 : IVec S_ 1 := (fun x v => Host.reduce IntOp.andi x v reducesTo_S128x256x1600_S_d0_1_2 h_S_) main_v11 main_c_3
  let main_v13 : IVec S_ 1 := andi main_v8 main_v12
  let main_v14 : FVec F S128x256x1600 .f32 := Host.absf main_arg3
  let main_cst_4 : FVec F S_ .f32 := constant S_ .f32 0x7F800000#32
  let main_v15 : FVec F S128x256x1600 .f32 := broadcastInDim S128x256x1600 ![] bcast_S_S128x256x1600 main_cst_4
  let main_v16 : IVec S128x256x1600 1 := cmpf .olt main_v14 main_v15
  fn_part1 (F := F) main_arg4 main_arg5 main_v13 main_v16
-- ==== Kernel.lean ====
abbrev S128x256 : Shape := ⟨2, ![128, 256]⟩
abbrev S128x2 : Shape := ⟨2, ![128, 2]⟩
abbrev S128x256x1600 : Shape := ⟨3, ![128, 256, 1600]⟩
abbrev S72x256 : Shape := ⟨2, ![72, 256]⟩
abbrev S72 : Shape := ⟨1, ![72]⟩
abbrev S256x72 : Shape := ⟨2, ![256, 72]⟩
abbrev S128x72 : Shape := ⟨2, ![128, 72]⟩
abbrev S1x72 : Shape := ⟨2, ![1, 72]⟩
abbrev S128x36x2 : Shape := ⟨3, ![128, 36, 2]⟩
abbrev S128x1x2 : Shape := ⟨3, ![128, 1, 2]⟩
abbrev S_ : Shape := ⟨0, ![]⟩
abbrev S128x36x1 : Shape := ⟨3, ![128, 36, 1]⟩
abbrev S128x36 : Shape := ⟨2, ![128, 36]⟩
abbrev S40 : Shape := ⟨1, ![40]⟩
abbrev S1x1x40 : Shape := ⟨3, ![1, 1, 40]⟩
abbrev S128x36x40 : Shape := ⟨3, ![128, 36, 40]⟩
abbrev S128x36x40x1 : Shape := ⟨4, ![128, 36, 40, 1]⟩
abbrev S128x36x1x40 : Shape := ⟨4, ![128, 36, 1, 40]⟩
abbrev S128x36x40x40 : Shape := ⟨4, ![128, 36, 40, 40]⟩
abbrev S128x36x1600 : Shape := ⟨3, ![128, 36, 1600]⟩
abbrev S128x36x256 : Shape := ⟨3, ![128, 36, 256]⟩
abbrev S1x256x1600 : Shape := ⟨3, ![1, 256, 1600]⟩
abbrev S1x36x1600 : Shape := ⟨3, ![1, 36, 1600]⟩
abbrev S1x36x256 : Shape := ⟨3, ![1, 36, 256]⟩
abbrev S256x1600 : Shape := ⟨2, ![256, 1600]⟩
abbrev S36x1600 : Shape := ⟨2, ![36, 1600]⟩
abbrev S36x256 : Shape := ⟨2, ![36, 256]⟩
abbrev S128x256x36 : Shape := ⟨3, ![128, 256, 36]⟩

abbrev nBuf : Space → Nat
  | .hbm => 139
  | .vmem => 10
  | .smem => 0
  | _ => 0

abbrev hbmTy0_0 (i : Nat) : BufTy := match i % 128 with
  | 0 => ⟨S128x256, .f32⟩
  | 1 => ⟨S128x2, .f32⟩
  | 2 => ⟨S128x256x1600, .f32⟩
  | 3 => ⟨S128x256x1600, .f32⟩
  | 4 => ⟨S72x256, .f32⟩
  | 5 => ⟨S72, .f32⟩
  | 6 => ⟨S256x72, .f32⟩
  | 7 => ⟨S128x72, .f32⟩
  | 8 => ⟨S1x72, .f32⟩
  | 9 => ⟨S128x72, .f32⟩
  | 10 => ⟨S128x72, .f32⟩
  | 11 => ⟨S128x36x2, .f32⟩
  | 12 => ⟨S128x1x2, .f32⟩
  | 13 => ⟨S128x36x2, .f32⟩
  | 14 => ⟨S128x36x2, .f32⟩
  | 15 => ⟨S_, .f32⟩
  | 16 => ⟨S128x36x2, .f32⟩
  | 17 => ⟨S128x36x2, .f32⟩
  | 18 => ⟨S_, .f32⟩
  | 19 => ⟨S128x36x2, .f32⟩
  | 20 => ⟨S128x36x2, .f32⟩
  | 21 => ⟨S128x36x1, .f32⟩
  | 22 => ⟨S128x36, .f32⟩
  | 23 => ⟨S128x36x1, .f32⟩
  | 24 => ⟨S128x36, .f32⟩
  | 25 => ⟨S_, .f32⟩
  | 26 => ⟨S128x36, .f32⟩
  | 27 => ⟨S128x36, .f32⟩
  | 28 => ⟨S_, .f32⟩
  | 29 => ⟨S128x36, .f32⟩
  | 30 => ⟨S128x36, .f32⟩
  | 31 => ⟨S_, .f32⟩
  | 32 => ⟨S128x36, .f32⟩
  | 33 => ⟨S128x36, .f32⟩
  | 34 => ⟨S_, .f32⟩
  | 35 => ⟨S128x36, .f32⟩
  | 36 => ⟨S128x36, .f32⟩
  | 37 => ⟨S_, .f32⟩
  | 38 => ⟨S128x36, .f32⟩
  | 39 => ⟨S128x36, .f32⟩
  | 40 => ⟨S_, .f32⟩
  | 41 => ⟨S128x36, .f32⟩
  | 42 => ⟨S128x36, .f32⟩
  | 43 => ⟨S_, .f32⟩
  | 44 => ⟨S128x36, .f32⟩
  | 45 => ⟨S128x36, .f32⟩
  | 46 => ⟨S_, .f32⟩
  | 47 => ⟨S128x36, .f32⟩
  | 48 => ⟨S128x36, .f32⟩
  | 49 => ⟨S_, .f32⟩
  | 50 => ⟨S_, .f32⟩
  | 51 => ⟨S_, .f32⟩
  | 52 => ⟨S128x36, .f32⟩
  | 53 => ⟨S128x36, .f32⟩
  | 54 => ⟨S_, .f32⟩
  | 55 => ⟨S128x36, .f32⟩
  | 56 => ⟨S128x36, .f32⟩
  | 57 => ⟨S_, .f32⟩
  | 58 => ⟨S_, .f32⟩
  | 59 => ⟨S_, .f32⟩
  | 60 => ⟨S128x36, .f32⟩
  | 61 => ⟨S128x36, .f32⟩
  | 62 => ⟨S_, .f32⟩
  | 63 => ⟨S128x36, .f32⟩
  | 64 => ⟨S128x36, .f32⟩
  | 65 => ⟨S128x36, .f32⟩
  | 66 => ⟨S128x36, .f32⟩
  | 67 => ⟨S128x36, .f32⟩
  | 68 => ⟨S128x36, .f32⟩
  | 69 => ⟨S128x36, .i32⟩
  | 70 => ⟨S128x36, .i32⟩
  | 71 => ⟨S_, .i32⟩
  | 72 => ⟨S128x36, .i32⟩
  | 73 => ⟨S128x36, .i32⟩
  | 74 => ⟨S_, .i32⟩
  | 75 => ⟨S128x36, .i32⟩
  | 76 => ⟨S128x36, .i32⟩
  | 77 => ⟨S_, .i32⟩
  | 78 => ⟨S128x36, .i32⟩
  | 79 => ⟨S128x36, .i32⟩
  | 80 => ⟨S_, .i32⟩
  | 81 => ⟨S128x36, .i32⟩
  | 82 => ⟨S128x36, .i32⟩
  | 83 => ⟨S40, .i32⟩
  | 84 => ⟨S40, .i32⟩
  | 85 => ⟨S1x1x40, .i32⟩
  | 86 => ⟨S128x36x1, .i32⟩
  | 87 => ⟨S128x36x40, .i32⟩
  | 88 => ⟨S128x36x40, .i32⟩
  | 89 => ⟨S128x36x40, .i1⟩
  | 90 => ⟨S128x36x40, .f32⟩
  | 91 => ⟨S1x1x40, .i32⟩
  | 92 => ⟨S128x36x1, .i32⟩
  | 93 => ⟨S128x36x40, .i32⟩
  | 94 => ⟨S128x36x40, .i32⟩
  | 95 => ⟨S128x36x40, .i1⟩
  | 96 => ⟨S128x36x40, .f32⟩
  | 97 => ⟨S1x1x40, .i32⟩
  | 98 => ⟨S128x36x1, .i32⟩
  | 99 => ⟨S128x36x40, .i32⟩
  | 100 => ⟨S128x36x40, .i32⟩
  | 101 => ⟨S128x36x40, .i1⟩
  | 102 => ⟨S128x36x40, .f32⟩
  | 103 => ⟨S1x1x40, .i32⟩
  | 104 => ⟨S128x36x1, .i32⟩
  | 105 => ⟨S128x36x40, .i32⟩
  | 106 => ⟨S128x36x40, .i32⟩
  | 107 => ⟨S128x36x40, .i1⟩
  | 108 => ⟨S128x36x40, .f32⟩
  | 109 => ⟨S_, .f32⟩
  | 110 => ⟨S128x36, .f32⟩
  | 111 => ⟨S128x36, .f32⟩
  | 112 => ⟨S128x36x1, .f32⟩
  | 113 => ⟨S128x36x40, .f32⟩
  | 114 => ⟨S128x36x40, .f32⟩
  | 115 => ⟨S128x36x1, .f32⟩
  | 116 => ⟨S128x36x40, .f32⟩
  | 117 => ⟨S128x36x40, .f32⟩
  | 118 => ⟨S128x36x40, .f32⟩
  | 119 => ⟨S_, .f32⟩
  | 120 => ⟨S128x36, .f32⟩
  | 121 => ⟨S128x36, .f32⟩
  | 122 => ⟨S128x36x1, .f32⟩
  | 123 => ⟨S128x36x40, .f32⟩
  | 124 => ⟨S128x36x40, .f32⟩
  | 125 => ⟨S128x36x1, .f32⟩
  | 126 => ⟨S128x36x40, .f32⟩
  | 127 => ⟨S128x36x40, .f32⟩
  | _ => ⟨S128x256, .f32⟩

abbrev hbmTy0_1 (i : Nat) : BufTy := match i % 128 with
  | 0 => ⟨S128x36x40, .f32⟩
  | 1 => ⟨S128x36x40x1, .f32⟩
  | 2 => ⟨S128x36x1x40, .f32⟩
  | 3 => ⟨S128x36x40x40, .f32⟩
  | 4 => ⟨S128x36x40x40, .f32⟩
  | 5 => ⟨S128x36x40x40, .f32⟩
  | 6 => ⟨S128x36x1600, .f32⟩
  | 7 => ⟨S128x36x256, .f32⟩
  | 8 => ⟨S128x36x256, .f32⟩
  | 9 => ⟨S128x256x36, .f32⟩
  | 10 => ⟨S128x256x36, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | .local _ .vmem, ⟨0, _⟩ => ⟨S1x256x1600, .f32⟩
  | .local _ .vmem, ⟨1, _⟩ => ⟨S1x256x1600, .f32⟩
  | .local _ .vmem, ⟨2, _⟩ => ⟨S1x256x1600, .f32⟩
  | .local _ .vmem, ⟨3, _⟩ => ⟨S1x256x1600, .f32⟩
  | .local _ .vmem, ⟨4, _⟩ => ⟨S1x36x1600, .f32⟩
  | .local _ .vmem, ⟨5, _⟩ => ⟨S1x36x1600, .f32⟩
  | .local _ .vmem, ⟨6, _⟩ => ⟨S1x36x256, .f32⟩
  | .local _ .vmem, ⟨7, _⟩ => ⟨S1x36x256, .f32⟩
  | .local _ .vmem, ⟨8, _⟩ => ⟨S1x36x256, .f32⟩
  | .local _ .vmem, ⟨9, _⟩ => ⟨S1x36x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_cst_10 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v33 : Ref sig .tc := ⟨.hbm, 56, rfl⟩
abbrev main_cst_11 : Ref sig .tc := ⟨.hbm, 57, rfl⟩
abbrev main_cst_12 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c : Ref sig .tc := ⟨.hbm, 71, rfl⟩
abbrev main_v41 : Ref sig .tc := ⟨.hbm, 72, rfl⟩
abbrev main_v42 : Ref sig .tc := ⟨.hbm, 73, rfl⟩
abbrev main_c_13 : Ref sig .tc := ⟨.hbm, 74, rfl⟩
abbrev main_v43 : Ref sig .tc := ⟨.hbm, 75, rfl⟩
abbrev main_v44 : Ref sig .tc := ⟨.hbm, 76, rfl⟩
abbrev main_c_14 : Ref sig .tc := ⟨.hbm, 77, rfl⟩
abbrev main_v45 : Ref sig .tc := ⟨.hbm, 78, rfl⟩
abbrev main_v46 : Ref sig .tc := ⟨.hbm, 79, rfl⟩
abbrev main_c_15 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99_0 : Ref sig .tc := ⟨.hbm, 135, rfl⟩
abbrev main_v99_1 : Ref sig .tc := ⟨.hbm, 136, rfl⟩
abbrev main_v100 : Ref sig .tc := ⟨.hbm, 137, rfl⟩
abbrev main_v101 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x36x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x36x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x36x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S72x256_S256x72_1_0 : S72x256.Transposes [1, 0] S256x72
  bcast_S72_S1x72_1 : S72.BroadcastsInDim S1x72 (![1] : Fin 1 → Fin S1x72.rank)
  bcast_S1x72_S128x72_0_1 : S1x72.BroadcastsInDim S128x72 (![0, 1] : Fin 2 → Fin S128x72.rank)
  shapeCasts_S128x72_S128x36x2 : S128x72.ShapeCasts S128x36x2
  bcast_S128x2_S128x1x2_0_2 : S128x2.BroadcastsInDim S128x1x2 (![0, 2] : Fin 2 → Fin S128x1x2.rank)
  bcast_S128x1x2_S128x36x2_0_1_2 : S128x1x2.BroadcastsInDim S128x36x2 (![0, 1, 2] : Fin 3 → Fin S128x36x2.rank)
  bcast_S_S128x36x2 : S_.BroadcastsInDim S128x36x2 (![] : Fin 0 → Fin S128x36x2.rank)
  slices_S128x36x2_S128x36x1_0_0_0 : S128x36x2.Slices ![0, 0, 0] S128x36x1
  shapeCasts_S128x36x1_S128x36 : S128x36x1.ShapeCasts S128x36
  slices_S128x36x2_S128x36x1_0_0_1 : S128x36x2.Slices ![0, 0, 1] S128x36x1
  bcast_S_S128x36 : S_.BroadcastsInDim S128x36 (![] : Fin 0 → Fin S128x36.rank)
  bcast_S40_S1x1x40_2 : S40.BroadcastsInDim S1x1x40 (![2] : Fin 1 → Fin S1x1x40.rank)
  bcast_S128x36_S128x36x1_0_1 : S128x36.BroadcastsInDim S128x36x1 (![0, 1] : Fin 2 → Fin S128x36x1.rank)
  bcast_S1x1x40_S128x36x40_0_1_2 : S1x1x40.BroadcastsInDim S128x36x40 (![0, 1, 2] : Fin 3 → Fin S128x36x40.rank)
  bcast_S128x36x1_S128x36x40_0_1_2 : S128x36x1.BroadcastsInDim S128x36x40 (![0, 1, 2] : Fin 3 → Fin S128x36x40.rank)
  bcast_S128x36x40_S128x36x40x1_0_1_2 : S128x36x40.BroadcastsInDim S128x36x40x1 (![0, 1, 2] : Fin 3 → Fin S128x36x40x1.rank)
  bcast_S128x36x40_S128x36x1x40_0_1_3 : S128x36x40.BroadcastsInDim S128x36x1x40 (![0, 1, 3] : Fin 3 → Fin S128x36x1x40.rank)
  bcast_S128x36x40x1_S128x36x40x40_0_1_2_3 : S128x36x40x1.BroadcastsInDim S128x36x40x40 (![0, 1, 2, 3] : Fin 4 → Fin S128x36x40x40.rank)
  bcast_S128x36x1x40_S128x36x40x40_0_1_2_3 : S128x36x1x40.BroadcastsInDim S128x36x40x40 (![0, 1, 2, 3] : Fin 4 → Fin S128x36x40x40.rank)
  shapeCasts_S128x36x40x40_S128x36x1600 : S128x36x40x40.ShapeCasts S128x36x1600
  inb_S1x256x1600_S1x256x1600_0_0_0 : ∀ a, (![0, 0, 0] : Fin 3 → Nat) a + S1x256x1600.size a ≤ S1x256x1600.size a
  h_S1x256x1600 : 0 < S1x256x1600.numel
  shapeCasts_S1x256x1600_S256x1600 : S1x256x1600.ShapeCasts S256x1600
  bitsLt_bf16_f32 : FTy.bits .bf16 < FTy.bits .f32
  inb_S1x36x1600_S1x36x1600_0_0_0 : ∀ a, (![0, 0, 0] : Fin 3 → Nat) a + S1x36x1600.size a ≤ S1x36x1600.size a
  h_S1x36x1600 : 0 < S1x36x1600.numel
  shapeCasts_S1x36x1600_S36x1600 : S1x36x1600.ShapeCasts S36x1600
  inb_S1x36x256_S1x36x256_0_0_0 : ∀ a, (![0, 0, 0] : Fin 3 → Nat) a + S1x36x256.size a ≤ S1x36x256.size a
  h_S1x36x256 : 0 < S1x36x256.numel
  shapeCasts_S1x36x256_S36x256 : S1x36x256.ShapeCasts S36x256
  shapeCasts_S36x256_S1x36x256 : S36x256.ShapeCasts S1x36x256
  transposes_S128x36x256_S128x256x36_0_2_1 : S128x36x256.Transposes [0, 2, 1] S128x256x36
  dot_S128x256_S256x72_S128x72_1_0_0_1_n_n_wf : DotDims.WF S128x256 S256x72 S128x72 [1] [0] [0] [1] [] []
  dot_S36x1600_S256x1600_S36x256_1_1_0_0_n_n_wf : DotDims.WF S36x1600 S256x1600 S36x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1600.size a ≤ S128x256x1600.size a
  hwx0_0 : ∀ i : grid0.Coords, EltTy.bits .f32 = 32 ∨ (Rect.block (s := S128x256x1600) S1x256x1600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1600.size a ≤ S128x256x1600.size a
  hwx0_1 : ∀ i : grid0.Coords, EltTy.bits .f32 = 32 ∨ (Rect.block (s := S128x256x1600) S1x256x1600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x36x1600.size a ≤ S128x36x1600.size a
  hwx0_2 : ∀ i : grid0.Coords, EltTy.bits .f32 = 32 ∨ (Rect.block (s := S128x36x1600) S1x36x1600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x36x256.size a ≤ S128x36x256.size a
  hwx0_3 : ∀ i : grid0.Coords, EltTy.bits .f32 = 32 ∨ (Rect.block (s := S128x36x256) S1x36x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x36x256.size a ≤ S128x36x256.size a
  hwx0_4 : ∀ i : grid0.Coords, EltTy.bits .f32 = 32 ∨ (Rect.block (s := S128x36x256) S1x36x256.size (cc0_transform_4 i) (hinb0_4 i)).WholeWords (EltTy.packing .f32)

variable [Facts₀]

def dot_S128x256_S256x72_S128x72_1_0_0_1_n_n : DotDims S128x256 S256x72 S128x72 where
  lhsContracting := [1]
  rhsContracting := [0]
  lhsNonContracting := [0]
  rhsNonContracting := [1]
  lhsBatch := []
  rhsBatch := []
  wf := dot_S128x256_S256x72_S128x72_1_0_0_1_n_n_wf
def dot_S36x1600_S256x1600_S36x256_1_1_0_0_n_n : DotDims S36x1600 S256x1600 S36x256 where
  lhsContracting := [1]
  rhsContracting := [1]
  lhsNonContracting := [0]
  rhsNonContracting := [0]
  lhsBatch := []
  rhsBatch := []
  wf := dot_S36x1600_S256x1600_S36x256_1_1_0_0_n_n_wf

abbrev win0_0 : Pipeline.Window sig grid0 :=
  Pipeline.Window.ofSpec (Memref.whole main_arg2) S1x256x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x1600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S1x36x1600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99_0) S1x36x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v99_1) S1x36x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x256 : Shape := ⟨2, ![128, 256]⟩
abbrev S128x2 : Shape := ⟨2, ![128, 2]⟩
abbrev S128x256x1600 : Shape := ⟨3, ![128, 256, 1600]⟩
abbrev S72x256 : Shape := ⟨2, ![72, 256]⟩
abbrev S72 : Shape := ⟨1, ![72]⟩
abbrev S256x72 : Shape := ⟨2, ![256, 72]⟩
abbrev S128x72 : Shape := ⟨2, ![128, 72]⟩
abbrev S1x72 : Shape := ⟨2, ![1, 72]⟩
abbrev S128x36x2 : Shape := ⟨3, ![128, 36, 2]⟩
abbrev S128x1x2 : Shape := ⟨3, ![128, 1, 2]⟩
abbrev S128x256x40x40 : Shape := ⟨4, ![128, 256, 40, 40]⟩
abbrev S_ : Shape := ⟨0, ![]⟩
abbrev S128x36x1 : Shape := ⟨3, ![128, 36, 1]⟩
abbrev S128x36 : Shape := ⟨2, ![128, 36]⟩
abbrev S128x40x40x256 : Shape := ⟨4, ![128, 40, 40, 256]⟩
abbrev S128 : Shape := ⟨1, ![128]⟩
abbrev S128x1 : Shape := ⟨2, ![128, 1]⟩
abbrev S128x36x3 : Shape := ⟨3, ![128, 36, 3]⟩
abbrev S128x36x256 : Shape := ⟨3, ![128, 36, 256]⟩
abbrev S128x256x36 : Shape := ⟨3, ![128, 256, 36]⟩

abbrev nBuf : Space → Nat
  | .hbm => 437
  | .vmem => 0
  | .smem => 0
  | _ => 0

abbrev hbmTy0_0 (i : Nat) : BufTy := match i % 128 with
  | 0 => ⟨S128x256, .f32⟩
  | 1 => ⟨S128x2, .f32⟩
  | 2 => ⟨S128x256x1600, .f32⟩
  | 3 => ⟨S128x256x1600, .f32⟩
  | 4 => ⟨S72x256, .f32⟩
  | 5 => ⟨S72, .f32⟩
  | 6 => ⟨S256x72, .f32⟩
  | 7 => ⟨S128x72, .f32⟩
  | 8 => ⟨S1x72, .f32⟩
  | 9 => ⟨S128x72, .f32⟩
  | 10 => ⟨S128x72, .f32⟩
  | 11 => ⟨S128x36x2, .f32⟩
  | 12 => ⟨S128x1x2, .f32⟩
  | 13 => ⟨S128x36x2, .f32⟩
  | 14 => ⟨S128x36x2, .f32⟩
  | 15 => ⟨S128x256x40x40, .f32⟩
  | 16 => ⟨S128x256x40x40, .f32⟩
  | 17 => ⟨S_, .f32⟩
  | 18 => ⟨S128x36x2, .f32⟩
  | 19 => ⟨S128x36x2, .f32⟩
  | 20 => ⟨S_, .f32⟩
  | 21 => ⟨S128x36x2, .f32⟩
  | 22 => ⟨S128x36x2, .f32⟩
  | 23 => ⟨S128x36x1, .f32⟩
  | 24 => ⟨S128x36, .f32⟩
  | 25 => ⟨S_, .f32⟩
  | 26 => ⟨S128x36, .f32⟩
  | 27 => ⟨S128x36, .f32⟩
  | 28 => ⟨S_, .f32⟩
  | 29 => ⟨S128x36, .f32⟩
  | 30 => ⟨S128x36, .f32⟩
  | 31 => ⟨S_, .f32⟩
  | 32 => ⟨S128x36, .f32⟩
  | 33 => ⟨S128x36, .f32⟩
  | 34 => ⟨S_, .f32⟩
  | 35 => ⟨S128x36, .f32⟩
  | 36 => ⟨S128x36, .f32⟩
  | 37 => ⟨S128x36x1, .f32⟩
  | 38 => ⟨S128x36, .f32⟩
  | 39 => ⟨S_, .f32⟩
  | 40 => ⟨S128x36, .f32⟩
  | 41 => ⟨S128x36, .f32⟩
  | 42 => ⟨S_, .f32⟩
  | 43 => ⟨S128x36, .f32⟩
  | 44 => ⟨S128x36, .f32⟩
  | 45 => ⟨S_, .f32⟩
  | 46 => ⟨S128x36, .f32⟩
  | 47 => ⟨S128x36, .f32⟩
  | 48 => ⟨S_, .f32⟩
  | 49 => ⟨S128x36, .f32⟩
  | 50 => ⟨S128x36, .f32⟩
  | 51 => ⟨S_, .f32⟩
  | 52 => ⟨S_, .f32⟩
  | 53 => ⟨S_, .f32⟩
  | 54 => ⟨S128x36, .f32⟩
  | 55 => ⟨S128x36, .f32⟩
  | 56 => ⟨S_, .f32⟩
  | 57 => ⟨S128x36, .f32⟩
  | 58 => ⟨S128x36, .f32⟩
  | 59 => ⟨S_, .f32⟩
  | 60 => ⟨S_, .f32⟩
  | 61 => ⟨S_, .f32⟩
  | 62 => ⟨S128x36, .f32⟩
  | 63 => ⟨S128x36, .f32⟩
  | 64 => ⟨S_, .f32⟩
  | 65 => ⟨S128x36, .f32⟩
  | 66 => ⟨S128x36, .f32⟩
  | 67 => ⟨S128x36, .f32⟩
  | 68 => ⟨S128x36, .f32⟩
  | 69 => ⟨S128x36, .f32⟩
  | 70 => ⟨S128x36x1, .f32⟩
  | 71 => ⟨S128x36, .f32⟩
  | 72 => ⟨S128x36x1, .f32⟩
  | 73 => ⟨S128x36, .i32⟩
  | 74 => ⟨S128x36, .i32⟩
  | 75 => ⟨S_, .i32⟩
  | 76 => ⟨S128x36, .i32⟩
  | 77 => ⟨S128x36, .i32⟩
  | 78 => ⟨S_, .i32⟩
  | 79 => ⟨S128x36, .i32⟩
  | 80 => ⟨S128x36, .i32⟩
  | 81 => ⟨S_, .i32⟩
  | 82 => ⟨S128x36, .i32⟩
  | 83 => ⟨S128x36, .i32⟩
  | 84 => ⟨S_, .i32⟩
  | 85 => ⟨S128x36, .i32⟩
  | 86 => ⟨S128x36, .i32⟩
  | 87 => ⟨S128x40x40x256, .f32⟩
  | 88 => ⟨S128, .i32⟩
  | 89 => ⟨S128x1, .i32⟩
  | 90 => ⟨S_, .i32⟩
  | 91 => ⟨S128x1, .i32⟩
  | 92 => ⟨S128x1, .i1⟩
  | 93 => ⟨S_, .i32⟩
  | 94 => ⟨S128x1, .i32⟩
  | 95 => ⟨S128x1, .i32⟩
  | 96 => ⟨S128x1, .i32⟩
  | 97 => ⟨S_, .i32⟩
  | 98 => ⟨S128x36, .i32⟩
  | 99 => ⟨S128x36, .i1⟩
  | 100 => ⟨S_, .i32⟩
  | 101 => ⟨S128x36, .i32⟩
  | 102 => ⟨S128x36, .i32⟩
  | 103 => ⟨S128x36, .i32⟩
  | 104 => ⟨S_, .i32⟩
  | 105 => ⟨S128x36, .i32⟩
  | 106 => ⟨S128x36, .i1⟩
  | 107 => ⟨S_, .i32⟩
  | 108 => ⟨S128x36, .i32⟩
  | 109 => ⟨S128x36, .i32⟩
  | 110 => ⟨S128x36, .i32⟩
  | 111 => ⟨S128x36, .i32⟩
  | 112 => ⟨S128x36x1, .i32⟩
  | 113 => ⟨S128x36x1, .i32⟩
  | 114 => ⟨S128x36x1, .i32⟩
  | 115 => ⟨S128x36x3, .i32⟩
  | 116 => ⟨S128x36x256, .f32⟩
  | 117 => ⟨S_, .i32⟩
  | 118 => ⟨S128x1, .i32⟩
  | 119 => ⟨S128x1, .i1⟩
  | 120 => ⟨S_, .i32⟩
  | 121 => ⟨S128x1, .i32⟩
  | 122 => ⟨S128x1, .i32⟩
  | 123 => ⟨S128x1, .i32⟩
  | 124 => ⟨S_, .i32⟩
  | 125 => ⟨S128x36, .i32⟩
  | 126 => ⟨S128x36, .i1⟩
  | 127 => ⟨S_, .i32⟩
  | _ => ⟨S128x256, .f32⟩

abbrev hbmTy0_1 (i : Nat) : BufTy := match i % 128 with
  | 0 => ⟨S128x36, .i32⟩
  | 1 => ⟨S128x36, .i32⟩
  | 2 => ⟨S128x36, .i32⟩
  | 3 => ⟨S_, .i32⟩
  | 4 => ⟨S128x36, .i32⟩
  | 5 => ⟨S128x36, .i1⟩
  | 6 => ⟨S_, .i32⟩
  | 7 => ⟨S128x36, .i32⟩
  | 8 => ⟨S128x36, .i32⟩
  | 9 => ⟨S128x36, .i32⟩
  | 10 => ⟨S128x36, .i32⟩
  | 11 => ⟨S128x36x1, .i32⟩
  | 12 => ⟨S128x36x1, .i32⟩
  | 13 => ⟨S128x36x1, .i32⟩
  | 14 => ⟨S128x36x3, .i32⟩
  | 15 => ⟨S128x36x256, .f32⟩
  | 16 => ⟨S_, .i32⟩
  | 17 => ⟨S128x1, .i32⟩
  | 18 => ⟨S128x1, .i1⟩
  | 19 => ⟨S_, .i32⟩
  | 20 => ⟨S128x1, .i32⟩
  | 21 => ⟨S128x1, .i32⟩
  | 22 => ⟨S128x1, .i32⟩
  | 23 => ⟨S_, .i32⟩
  | 24 => ⟨S128x36, .i32⟩
  | 25 => ⟨S128x36, .i1⟩
  | 26 => ⟨S_, .i32⟩
  | 27 => ⟨S128x36, .i32⟩
  | 28 => ⟨S128x36, .i32⟩
  | 29 => ⟨S128x36, .i32⟩
  | 30 => ⟨S_, .i32⟩
  | 31 => ⟨S128x36, .i32⟩
  | 32 => ⟨S128x36, .i1⟩
  | 33 => ⟨S_, .i32⟩
  | 34 => ⟨S128x36, .i32⟩
  | 35 => ⟨S128x36, .i32⟩
  | 36 => ⟨S128x36, .i32⟩
  | 37 => ⟨S128x36, .i32⟩
  | 38 => ⟨S128x36x1, .i32⟩
  | 39 => ⟨S128x36x1, .i32⟩
  | 40 => ⟨S128x36x1, .i32⟩
  | 41 => ⟨S128x36x3, .i32⟩
  | 42 => ⟨S128x36x256, .f32⟩
  | 43 => ⟨S_, .i32⟩
  | 44 => ⟨S128x1, .i32⟩
  | 45 => ⟨S128x1, .i1⟩
  | 46 => ⟨S_, .i32⟩
  | 47 => ⟨S128x1, .i32⟩
  | 48 => ⟨S128x1, .i32⟩
  | 49 => ⟨S128x1, .i32⟩
  | 50 => ⟨S_, .i32⟩
  | 51 => ⟨S128x36, .i32⟩
  | 52 => ⟨S128x36, .i1⟩
  | 53 => ⟨S_, .i32⟩
  | 54 => ⟨S128x36, .i32⟩
  | 55 => ⟨S128x36, .i32⟩
  | 56 => ⟨S128x36, .i32⟩
  | 57 => ⟨S_, .i32⟩
  | 58 => ⟨S128x36, .i32⟩
  | 59 => ⟨S128x36, .i1⟩
  | 60 => ⟨S_, .i32⟩
  | 61 => ⟨S128x36, .i32⟩
  | 62 => ⟨S128x36, .i32⟩
  | 63 => ⟨S128x36, .i32⟩
  | 64 => ⟨S128x36, .i32⟩
  | 65 => ⟨S128x36x1, .i32⟩
  | 66 => ⟨S128x36x1, .i32⟩
  | 67 => ⟨S128x36x1, .i32⟩
  | 68 => ⟨S128x36x3, .i32⟩
  | 69 => ⟨S128x36x256, .f32⟩
  | 70 => ⟨S_, .f32⟩
  | 71 => ⟨S128x36x1, .f32⟩
  | 72 => ⟨S128x36x1, .f32⟩
  | 73 => ⟨S128x36x256, .f32⟩
  | 74 => ⟨S128x36x256, .f32⟩
  | 75 => ⟨S_, .f32⟩
  | 76 => ⟨S128x36x1, .f32⟩
  | 77 => ⟨S128x36x1, .f32⟩
  | 78 => ⟨S128x36x256, .f32⟩
  | 79 => ⟨S128x36x256, .f32⟩
  | 80 => ⟨S128x36x256, .f32⟩
  | 81 => ⟨S128x36x256, .f32⟩
  | 82 => ⟨S_, .f32⟩
  | 83 => ⟨S128x36x1, .f32⟩
  | 84 => ⟨S128x36x1, .f32⟩
  | 85 => ⟨S128x36x256, .f32⟩
  | 86 => ⟨S128x36x256, .f32⟩
  | 87 => ⟨S128x36x256, .f32⟩
  | 88 => ⟨S_, .f32⟩
  | 89 => ⟨S128x36x1, .f32⟩
  | 90 => ⟨S128x36x1, .f32⟩
  | 91 => ⟨S128x36x256, .f32⟩
  | 92 => ⟨S128x36x256, .f32⟩
  | 93 => ⟨S128x36x256, .f32⟩
  | 94 => ⟨S128x36x256, .f32⟩
  | 95 => ⟨S128x36x256, .f32⟩
  | 96 => ⟨S128x36x256, .f32⟩
  | 97 => ⟨S128x36x256, .f32⟩
  | 98 => ⟨S128x36x256, .f32⟩
  | 99 => ⟨S128x36x256, .f32⟩
  | 100 => ⟨S128x36x256, .f32⟩
  | 101 => ⟨S128x256x36, .f32⟩
  | 102 => ⟨S128x36x1, .f32⟩
  | 103 => ⟨S128x36, .f32⟩
  | 104 => ⟨S_, .f32⟩
  | 105 => ⟨S128x36, .f32⟩
  | 106 => ⟨S128x36, .f32⟩
  | 107 => ⟨S_, .f32⟩
  | 108 => ⟨S128x36, .f32⟩
  | 109 => ⟨S128x36, .f32⟩
  | 110 => ⟨S_, .f32⟩
  | 111 => ⟨S128x36, .f32⟩
  | 112 => ⟨S128x36, .f32⟩
  | 113 => ⟨S_, .f32⟩
  | 114 => ⟨S128x36, .f32⟩
  | 115 => ⟨S128x36, .f32⟩
  | 116 => ⟨S128x36x1, .f32⟩
  | 117 => ⟨S128x36, .f32⟩
  | 118 => ⟨S_, .f32⟩
  | 119 => ⟨S128x36, .f32⟩
  | 120 => ⟨S128x36, .f32⟩
  | 121 => ⟨S_, .f32⟩
  | 122 => ⟨S128x36, .f32⟩
  | 123 => ⟨S128x36, .f32⟩
  | 124 => ⟨S_, .f32⟩
  | 125 => ⟨S128x36, .f32⟩
  | 126 => ⟨S128x36, .f32⟩
  | 127 => ⟨S_, .f32⟩
  | _ => ⟨S128x256, .f32⟩

abbrev hbmTy0_2 (i : Nat) : BufTy := match i % 128 with
  | 0 => ⟨S128x36, .f32⟩
  | 1 => ⟨S128x36, .f32⟩
  | 2 => ⟨S_, .f32⟩
  | 3 => ⟨S_, .f32⟩
  | 4 => ⟨S_, .f32⟩
  | 5 => ⟨S128x36, .f32⟩
  | 6 => ⟨S128x36, .f32⟩
  | 7 => ⟨S_, .f32⟩
  | 8 => ⟨S128x36, .f32⟩
  | 9 => ⟨S128x36, .f32⟩
  | 10 => ⟨S_, .f32⟩
  | 11 => ⟨S_, .f32⟩
  | 12 => ⟨S_, .f32⟩
  | 13 => ⟨S128x36, .f32⟩
  | 14 => ⟨S128x36, .f32⟩
  | 15 => ⟨S_, .f32⟩
  | 16 => ⟨S128x36, .f32⟩
  | 17 => ⟨S128x36, .f32⟩
  | 18 => ⟨S128x36, .f32⟩
  | 19 => ⟨S128x36, .f32⟩
  | 20 => ⟨S128x36, .f32⟩
  | 21 => ⟨S128x36x1, .f32⟩
  | 22 => ⟨S128x36, .f32⟩
  | 23 => ⟨S128x36x1, .f32⟩
  | 24 => ⟨S128x36, .i32⟩
  | 25 => ⟨S128x36, .i32⟩
  | 26 => ⟨S_, .i32⟩
  | 27 => ⟨S128x36, .i32⟩
  | 28 => ⟨S128x36, .i32⟩
  | 29 => ⟨S_, .i32⟩
  | 30 => ⟨S128x36, .i32⟩
  | 31 => ⟨S128x36, .i32⟩
  | 32 => ⟨S_, .i32⟩
  | 33 => ⟨S128x36, .i32⟩
  | 34 => ⟨S128x36, .i32⟩
  | 35 => ⟨S_, .i32⟩
  | 36 => ⟨S128x36, .i32⟩
  | 37 => ⟨S128x36, .i32⟩
  | 38 => ⟨S128x40x40x256, .f32⟩
  | 39 => ⟨S128, .i32⟩
  | 40 => ⟨S128x1, .i32⟩
  | 41 => ⟨S_, .i32⟩
  | 42 => ⟨S128x1, .i32⟩
  | 43 => ⟨S128x1, .i1⟩
  | 44 => ⟨S_, .i32⟩
  | 45 => ⟨S128x1, .i32⟩
  | 46 => ⟨S128x1, .i32⟩
  | 47 => ⟨S128x1, .i32⟩
  | 48 => ⟨S_, .i32⟩
  | 49 => ⟨S128x36, .i32⟩
  | 50 => ⟨S128x36, .i1⟩
  | 51 => ⟨S_, .i32⟩
  | 52 => ⟨S128x36, .i32⟩
  | 53 => ⟨S128x36, .i32⟩
  | 54 => ⟨S128x36, .i32⟩
  | 55 => ⟨S_, .i32⟩
  | 56 => ⟨S128x36, .i32⟩
  | 57 => ⟨S128x36, .i1⟩
  | 58 => ⟨S_, .i32⟩
  | 59 => ⟨S128x36, .i32⟩
  | 60 => ⟨S128x36, .i32⟩
  | 61 => ⟨S128x36, .i32⟩
  | 62 => ⟨S128x36, .i32⟩
  | 63 => ⟨S128x36x1, .i32⟩
  | 64 => ⟨S128x36x1, .i32⟩
  | 65 => ⟨S128x36x1, .i32⟩
  | 66 => ⟨S128x36x3, .i32⟩
  | 67 => ⟨S128x36x256, .f32⟩
  | 68 => ⟨S_, .i32⟩
  | 69 => ⟨S128x1, .i32⟩
  | 70 => ⟨S128x1, .i1⟩
  | 71 => ⟨S_, .i32⟩
  | 72 => ⟨S128x1, .i32⟩
  | 73 => ⟨S128x1, .i32⟩
  | 74 => ⟨S128x1, .i32⟩
  | 75 => ⟨S_, .i32⟩
  | 76 => ⟨S128x36, .i32⟩
  | 77 => ⟨S128x36, .i1⟩
  | 78 => ⟨S_, .i32⟩
  | 79 => ⟨S128x36, .i32⟩
  | 80 => ⟨S128x36, .i32⟩
  | 81 => ⟨S128x36, .i32⟩
  | 82 => ⟨S_, .i32⟩
  | 83 => ⟨S128x36, .i32⟩
  | 84 => ⟨S128x36, .i1⟩
  | 85 => ⟨S_, .i32⟩
  | 86 => ⟨S128x36, .i32⟩
  | 87 => ⟨S128x36, .i32⟩
  | 88 => ⟨S128x36, .i32⟩
  | 89 => ⟨S128x36, .i32⟩
  | 90 => ⟨S128x36x1, .i32⟩
  | 91 => ⟨S128x36x1, .i32⟩
  | 92 => ⟨S128x36x1, .i32⟩
  | 93 => ⟨S128x36x3, .i32⟩
  | 94 => ⟨S128x36x256, .f32⟩
  | 95 => ⟨S_, .i32⟩
  | 96 => ⟨S128x1, .i32⟩
  | 97 => ⟨S128x1, .i1⟩
  | 98 => ⟨S_, .i32⟩
  | 99 => ⟨S128x1, .i32⟩
  | 100 => ⟨S128x1, .i32⟩
  | 101 => ⟨S128x1, .i32⟩
  | 102 => ⟨S_, .i32⟩
  | 103 => ⟨S128x36, .i32⟩
  | 104 => ⟨S128x36, .i1⟩
  | 105 => ⟨S_, .i32⟩
  | 106 => ⟨S128x36, .i32⟩
  | 107 => ⟨S128x36, .i32⟩
  | 108 => ⟨S128x36, .i32⟩
  | 109 => ⟨S_, .i32⟩
  | 110 => ⟨S128x36, .i32⟩
  | 111 => ⟨S128x36, .i1⟩
  | 112 => ⟨S_, .i32⟩
  | 113 => ⟨S128x36, .i32⟩
  | 114 => ⟨S128x36, .i32⟩
  | 115 => ⟨S128x36, .i32⟩
  | 116 => ⟨S128x36, .i32⟩
  | 117 => ⟨S128x36x1, .i32⟩
  | 118 => ⟨S128x36x1, .i32⟩
  | 119 => ⟨S128x36x1, .i32⟩
  | 120 => ⟨S128x36x3, .i32⟩
  | 121 => ⟨S128x36x256, .f32⟩
  | 122 => ⟨S_, .i32⟩
  | 123 => ⟨S128x1, .i32⟩
  | 124 => ⟨S128x1, .i1⟩
  | 125 => ⟨S_, .i32⟩
  | 126 => ⟨S128x1, .i32⟩
  | 127 => ⟨S128x1, .i32⟩
  | _ => ⟨S128x256, .f32⟩

abbrev hbmTy0_3 (i : Nat) : BufTy := match i % 128 with
  | 0 => ⟨S128x1, .i32⟩
  | 1 => ⟨S_, .i32⟩
  | 2 => ⟨S128x36, .i32⟩
  | 3 => ⟨S128x36, .i1⟩
  | 4 => ⟨S_, .i32⟩
  | 5 => ⟨S128x36, .i32⟩
  | 6 => ⟨S128x36, .i32⟩
  | 7 => ⟨S128x36, .i32⟩
  | 8 => ⟨S_, .i32⟩
  | 9 => ⟨S128x36, .i32⟩
  | 10 => ⟨S128x36, .i1⟩
  | 11 => ⟨S_, .i32⟩
  | 12 => ⟨S128x36, .i32⟩
  | 13 => ⟨S128x36, .i32⟩
  | 14 => ⟨S128x36, .i32⟩
  | 15 => ⟨S128x36, .i32⟩
  | 16 => ⟨S128x36x1, .i32⟩
  | 17 => ⟨S128x36x1, .i32⟩
  | 18 => ⟨S128x36x1, .i32⟩
  | 19 => ⟨S128x36x3, .i32⟩
  | 20 => ⟨S128x36x256, .f32⟩
  | 21 => ⟨S_, .f32⟩
  | 22 => ⟨S128x36x1, .f32⟩
  | 23 => ⟨S128x36x1, .f32⟩
  | 24 => ⟨S128x36x256, .f32⟩
  | 25 => ⟨S128x36x256, .f32⟩
  | 26 => ⟨S_, .f32⟩
  | 27 => ⟨S128x36x1, .f32⟩
  | 28 => ⟨S128x36x1, .f32⟩
  | 29 => ⟨S128x36x256, .f32⟩
  | 30 => ⟨S128x36x256, .f32⟩
  | 31 => ⟨S128x36x256, .f32⟩
  | 32 => ⟨S128x36x256, .f32⟩
  | 33 => ⟨S_, .f32⟩
  | 34 => ⟨S128x36x1, .f32⟩
  | 35 => ⟨S128x36x1, .f32⟩
  | 36 => ⟨S128x36x256, .f32⟩
  | 37 => ⟨S128x36x256, .f32⟩
  | 38 => ⟨S128x36x256, .f32⟩
  | 39 => ⟨S_, .f32⟩
  | 40 => ⟨S128x36x1, .f32⟩
  | 41 => ⟨S128x36x1, .f32⟩
  | 42 => ⟨S128x36x256, .f32⟩
  | 43 => ⟨S128x36x256, .f32⟩
  | 44 => ⟨S128x36x256, .f32⟩
  | 45 => ⟨S128x36x256, .f32⟩
  | 46 => ⟨S128x36x256, .f32⟩
  | 47 => ⟨S128x36x256, .f32⟩
  | 48 => ⟨S128x36x256, .f32⟩
  | 49 => ⟨S128x36x256, .f32⟩
  | 50 => ⟨S128x36x256, .f32⟩
  | 51 => ⟨S128x36x256, .f32⟩
  | 52 => ⟨S128x256x36, .f32⟩
  | _ => ⟨S128x256, .f32⟩

abbrev hbmTy (i : Nat) : BufTy := match i / 128 with
  | 0 => hbmTy0_0 i
  | 1 => hbmTy0_1 i
  | 2 => hbmTy0_2 i
  | 3 => hbmTy0_3 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_cst_10 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v35 : Ref sig .tc := ⟨.hbm, 58, rfl⟩
abbrev main_cst_11 : Ref sig .tc := ⟨.hbm, 59, rfl⟩
abbrev main_cst_12 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_c_15 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_16 : Ref sig .tc := ⟨.hbm, 90, rfl⟩
abbrev main_v56 : Ref sig .tc := ⟨.hbm, 91, rfl⟩
abbrev main_v57 : Ref sig .tc := ⟨.hbm, 92, rfl⟩
abbrev main_c_17 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_18 : Ref sig .tc := ⟨.hbm, 97, rfl⟩
abbrev main_v61 : Ref sig .tc := ⟨.hbm, 98, rfl⟩
abbrev main_v62 : Ref sig .tc := ⟨.hbm, 99, rfl⟩
abbrev main_c_19 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_20 : Ref sig .tc := ⟨.hbm, 104, rfl⟩
abbrev main_v66 : Ref sig .tc := ⟨.hbm, 105, rfl⟩
abbrev main_v67 : Ref sig .tc := ⟨.hbm, 106, rfl⟩
abbrev main_c_21 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_22 : Ref sig .tc := ⟨.hbm, 117, rfl⟩
abbrev main_v77 : Ref sig .tc := ⟨.hbm, 118, rfl⟩
abbrev main_v78 : Ref sig .tc := ⟨.hbm, 119, rfl⟩
abbrev main_c_23 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_24 : Ref sig .tc := ⟨.hbm, 124, rfl⟩
abbrev main_v82 : Ref sig .tc := ⟨.hbm, 125, rfl⟩
abbrev main_v83 : Ref sig .tc := ⟨.hbm, 126, rfl⟩
abbrev main_c_25 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_26 : Ref sig .tc := ⟨.hbm, 131, rfl⟩
abbrev main_v87 : Ref sig .tc := ⟨.hbm, 132, rfl⟩
abbrev main_v88 : Ref sig .tc := ⟨.hbm, 133, rfl⟩
abbrev main_c_27 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_28 : Ref sig .tc := ⟨.hbm, 144, rfl⟩
abbrev main_v98 : Ref sig .tc := ⟨.hbm, 145, rfl⟩
abbrev main_v99 : Ref sig .tc := ⟨.hbm, 146, rfl⟩
abbrev main_c_29 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_30 : Ref sig .tc := ⟨.hbm, 151, rfl⟩
abbrev main_v103 : Ref sig .tc := ⟨.hbm, 152, rfl⟩
abbrev main_v104 : Ref sig .tc := ⟨.hbm, 153, rfl⟩
abbrev main_c_31 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_32 : Ref sig .tc := ⟨.hbm, 158, rfl⟩
abbrev main_v108 : Ref sig .tc := ⟨.hbm, 159, rfl⟩
abbrev main_v109 : Ref sig .tc := ⟨.hbm, 160, rfl⟩
abbrev main_c_33 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_34 : Ref sig .tc := ⟨.hbm, 171, rfl⟩
abbrev main_v119 : Ref sig .tc := ⟨.hbm, 172, rfl⟩
abbrev main_v120 : Ref sig .tc := ⟨.hbm, 173, rfl⟩
abbrev main_c_35 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_c_36 : Ref sig .tc := ⟨.hbm, 178, rfl⟩
abbrev main_v124 : Ref sig .tc := ⟨.hbm, 179, rfl⟩
abbrev main_v125 : Ref sig .tc := ⟨.hbm, 180, rfl⟩
abbrev main_c_37 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_c_38 : Ref sig .tc := ⟨.hbm, 185, rfl⟩
abbrev main_v129 : Ref sig .tc := ⟨.hbm, 186, rfl⟩
abbrev main_v130 : Ref sig .tc := ⟨.hbm, 187, rfl⟩
abbrev main_c_39 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_40 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_41 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_42 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_43 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_44 : Ref sig .tc := ⟨.hbm, 232, rfl⟩
abbrev main_v170 : Ref sig .tc := ⟨.hbm, 233, rfl⟩
abbrev main_v171 : Ref sig .tc := ⟨.hbm, 234, rfl⟩
abbrev main_cst_45 : Ref sig .tc := ⟨.hbm, 235, rfl⟩
abbrev main_v172 : Ref sig .tc := ⟨.hbm, 236, rfl⟩
abbrev main_v173 : Ref sig .tc := ⟨.hbm, 237, rfl⟩
abbrev main_cst_46 : Ref sig .tc := ⟨.hbm, 238, rfl⟩
abbrev main_v174 : Ref sig .tc := ⟨.hbm, 239, rfl⟩
abbrev main_v175 : Ref sig .tc := ⟨.hbm, 240, rfl⟩
abbrev main_cst_47 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_cst_48 : Ref sig .tc := ⟨.hbm, 246, rfl⟩
abbrev main_v180 : Ref sig .tc := ⟨.hbm, 247, rfl⟩
abbrev main_v181 : Ref sig .tc := ⟨.hbm, 248, rfl⟩
abbrev main_cst_49 : Ref sig .tc := ⟨.hbm, 249, rfl⟩
abbrev main_v182 : Ref sig .tc := ⟨.hbm, 250, rfl⟩
abbrev main_v183 : Ref sig .tc := ⟨.hbm, 251, rfl⟩
abbrev main_cst_50 : Ref sig .tc := ⟨.hbm, 252, rfl⟩
abbrev main_v184 : Ref sig .tc := ⟨.hbm, 253, rfl⟩
abbrev main_v185 : Ref sig .tc := ⟨.hbm, 254, rfl⟩
abbrev main_cst_51 : Ref sig .tc := ⟨.hbm, 255, rfl⟩
abbrev main_v186 : Ref sig .tc := ⟨.hbm, 256, rfl⟩
abbrev main_v187 : Ref sig .tc := ⟨.hbm, 257, rfl⟩
abbrev main_cst_52 : Ref sig .tc := ⟨.hbm, 258, rfl⟩
abbrev main_cst_53 : Ref sig .tc := ⟨.hbm, 259, rfl⟩
abbrev main_call2_v0 : Ref sig .tc := ⟨.hbm, 260, rfl⟩
abbrev main_call2_v1 : Ref sig .tc := ⟨.hbm, 261, rfl⟩
abbrev main_call2_v2 : Ref sig .tc := ⟨.hbm, 262, rfl⟩
abbrev main_call2_v3 : Ref sig .tc := ⟨.hbm, 263, rfl⟩
abbrev main_call2_v4 : Ref sig .tc := ⟨.hbm, 264, rfl⟩
abbrev main_v188 : Ref sig .tc := ⟨.hbm, 265, rfl⟩
abbrev main_cst_54 : Ref sig .tc := ⟨.hbm, 266, rfl⟩
abbrev main_cst_55 : Ref sig .tc := ⟨.hbm, 267, rfl⟩
abbrev main_call3_v0 : Ref sig .tc := ⟨.hbm, 268, rfl⟩
abbrev main_call3_v1 : Ref sig .tc := ⟨.hbm, 269, rfl⟩
abbrev main_call3_v2 : Ref sig .tc := ⟨.hbm, 270, rfl⟩
abbrev main_call3_v3 : Ref sig .tc := ⟨.hbm, 271, rfl⟩
abbrev main_call3_v4 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_c_56 : Ref sig .tc := ⟨.hbm, 282, rfl⟩
abbrev main_v198 : Ref sig .tc := ⟨.hbm, 283, rfl⟩
abbrev main_v199 : Ref sig .tc := ⟨.hbm, 284, rfl⟩
abbrev main_c_57 : Ref sig .tc := ⟨.hbm, 285, rfl⟩
abbrev main_v200 : Ref sig .tc := ⟨.hbm, 286, rfl⟩
abbrev main_v201 : Ref sig .tc := ⟨.hbm, 287, rfl⟩
abbrev main_c_58 : Ref sig .tc := ⟨.hbm, 288, rfl⟩
abbrev main_v202 : Ref sig .tc := ⟨.hbm, 289, rfl⟩
abbrev main_v203 : Ref sig .tc := ⟨.hbm, 290, rfl⟩
abbrev main_c_59 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_c_60 : Ref sig .tc := ⟨.hbm, 297, rfl⟩
abbrev main_v209 : Ref sig .tc := ⟨.hbm, 298, rfl⟩
abbrev main_v210 : Ref sig .tc := ⟨.hbm, 299, rfl⟩
abbrev main_c_61 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_c_62 : Ref sig .tc := ⟨.hbm, 304, rfl⟩
abbrev main_v214 : Ref sig .tc := ⟨.hbm, 305, rfl⟩
abbrev main_v215 : Ref sig .tc := ⟨.hbm, 306, rfl⟩
abbrev main_c_63 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_c_64 : Ref sig .tc := ⟨.hbm, 311, rfl⟩
abbrev main_v219 : Ref sig .tc := ⟨.hbm, 312, rfl⟩
abbrev main_v220 : Ref sig .tc := ⟨.hbm, 313, rfl⟩
abbrev main_c_65 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_c_66 : Ref sig .tc := ⟨.hbm, 324, rfl⟩
abbrev main_v230 : Ref sig .tc := ⟨.hbm, 325, rfl⟩
abbrev main_v231 : Ref sig .tc := ⟨.hbm, 326, rfl⟩
abbrev main_c_67 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_c_68 : Ref sig .tc := ⟨.hbm, 331, rfl⟩
abbrev main_v235 : Ref sig .tc := ⟨.hbm, 332, rfl⟩
abbrev main_v236 : Ref sig .tc := ⟨.hbm, 333, rfl⟩
abbrev main_c_69 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_c_70 : Ref sig .tc := ⟨.hbm, 338, rfl⟩
abbrev main_v240 : Ref sig .tc := ⟨.hbm, 339, rfl⟩
abbrev main_v241 : Ref sig .tc := ⟨.hbm, 340, rfl⟩
abbrev main_c_71 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_c_72 : Ref sig .tc := ⟨.hbm, 351, rfl⟩
abbrev main_v251 : Ref sig .tc := ⟨.hbm, 352, rfl⟩
abbrev main_v252 : Ref sig .tc := ⟨.hbm, 353, rfl⟩
abbrev main_c_73 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_c_74 : Ref sig .tc := ⟨.hbm, 358, rfl⟩
abbrev main_v256 : Ref sig .tc := ⟨.hbm, 359, rfl⟩
abbrev main_v257 : Ref sig .tc := ⟨.hbm, 360, rfl⟩
abbrev main_c_75 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_c_76 : Ref sig .tc := ⟨.hbm, 365, rfl⟩
abbrev main_v261 : Ref sig .tc := ⟨.hbm, 366, rfl⟩
abbrev main_v262 : Ref sig .tc := ⟨.hbm, 367, rfl⟩
abbrev main_c_77 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_c_78 : Ref sig .tc := ⟨.hbm, 378, rfl⟩
abbrev main_v272 : Ref sig .tc := ⟨.hbm, 379, rfl⟩
abbrev main_v273 : Ref sig .tc := ⟨.hbm, 380, rfl⟩
abbrev main_c_79 : Ref sig .tc := ⟨.hbm, 381, rfl⟩
abbrev main_v274 : Ref sig .tc := ⟨.hbm, 382, rfl⟩
abbrev main_v275 : Ref sig .tc := ⟨.hbm, 383, rfl⟩
abbrev main_v276 : Ref sig .tc := ⟨.hbm, 384, rfl⟩
abbrev main_c_80 : Ref sig .tc := ⟨.hbm, 385, rfl⟩
abbrev main_v277 : Ref sig .tc := ⟨.hbm, 386, rfl⟩
abbrev main_v278 : Ref sig .tc := ⟨.hbm, 387, rfl⟩
abbrev main_c_81 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_c_82 : Ref sig .tc := ⟨.hbm, 392, rfl⟩
abbrev main_v282 : Ref sig .tc := ⟨.hbm, 393, rfl⟩
abbrev main_v283 : Ref sig .tc := ⟨.hbm, 394, rfl⟩
abbrev main_c_83 : Ref sig .tc := ⟨.hbm, 395, rfl⟩
abbrev main_v284 : Ref sig .tc := ⟨.hbm, 396, rfl⟩
abbrev main_v285 : Ref sig .tc := ⟨.hbm, 397, rfl⟩
abbrev main_v286 : Ref sig .tc := ⟨.hbm, 398, rfl⟩
abbrev main_v287 : Ref sig .tc := ⟨.hbm, 399, rfl⟩
abbrev main_v288 : Ref sig .tc := ⟨.hbm, 400, rfl⟩
abbrev main_v289 : Ref sig .tc := ⟨.hbm, 401, rfl⟩
abbrev main_v290 : Ref sig .tc := ⟨.hbm, 402, rfl⟩
abbrev main_v291 : Ref sig .tc := ⟨.hbm, 403, rfl⟩
abbrev main_v292 : Ref sig .tc := ⟨.hbm, 404, rfl⟩
abbrev main_cst_84 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_v296 : Ref sig .tc := ⟨.hbm, 409, rfl⟩
abbrev main_cst_85 : Ref sig .tc := ⟨.hbm, 410, rfl⟩
abbrev main_v297 : Ref sig .tc := ⟨.hbm, 411, rfl⟩
abbrev main_v298 : Ref sig .tc := ⟨.hbm, 412, rfl⟩
abbrev main_v299 : Ref sig .tc := ⟨.hbm, 413, rfl⟩
abbrev main_v300 : Ref sig .tc := ⟨.hbm, 414, rfl⟩
abbrev main_v301 : Ref sig .tc := ⟨.hbm, 415, rfl⟩
abbrev main_v302 : Ref sig .tc := ⟨.hbm, 416, rfl⟩
abbrev main_cst_86 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_cst_87 : Ref sig .tc := ⟨.hbm, 423, rfl⟩
abbrev main_v308 : Ref sig .tc := ⟨.hbm, 424, rfl⟩
abbrev main_v309 : Ref sig .tc := ⟨.hbm, 425, rfl⟩
abbrev main_v310 : Ref sig .tc := ⟨.hbm, 426, rfl⟩
abbrev main_v311 : Ref sig .tc := ⟨.hbm, 427, rfl⟩
abbrev main_v312 : Ref sig .tc := ⟨.hbm, 428, rfl⟩
abbrev main_v313 : Ref sig .tc := ⟨.hbm, 429, rfl⟩
abbrev main_v314 : Ref sig .tc := ⟨.hbm, 430, rfl⟩
abbrev main_v315 : Ref sig .tc := ⟨.hbm, 431, rfl⟩
abbrev main_v316 : Ref sig .tc := ⟨.hbm, 432, rfl⟩
abbrev main_v317 : Ref sig .tc := ⟨.hbm, 433, rfl⟩
abbrev main_v318 : Ref sig .tc := ⟨.hbm, 434, rfl⟩
abbrev main_v319 : Ref sig .tc := ⟨.hbm, 435, rfl⟩
abbrev main_v320 : Ref sig .tc := ⟨.hbm, 436, rfl⟩

abbrev nD : Nat := 1
abbrev τ : Topo := Topo.v7x

variable {F : FTy → Type} [FloatOps F]

class Facts₀ : Prop where
  transposes_S72x256_S256x72_1_0 : S72x256.Transposes [1, 0] S256x72
  bcast_S72_S1x72_1 : S72.BroadcastsInDim S1x72 (![1] : Fin 1 → Fin S1x72.rank)
  bcast_S1x72_S128x72_0_1 : S1x72.BroadcastsInDim S128x72 (![0, 1] : Fin 2 → Fin S128x72.rank)
  shapeCasts_S128x72_S128x36x2 : S128x72.ShapeCasts S128x36x2
  bcast_S128x2_S128x1x2_0_2 : S128x2.BroadcastsInDim S128x1x2 (![0, 2] : Fin 2 → Fin S128x1x2.rank)
  bcast_S128x1x2_S128x36x2_0_1_2 : S128x1x2.BroadcastsInDim S128x36x2 (![0, 1, 2] : Fin 3 → Fin S128x36x2.rank)
  shapeCasts_S128x256x1600_S128x256x40x40 : S128x256x1600.ShapeCasts S128x256x40x40
  bcast_S_S128x36x2 : S_.BroadcastsInDim S128x36x2 (![] : Fin 0 → Fin S128x36x2.rank)
  slices_S128x36x2_S128x36x1_0_0_0 : S128x36x2.Slices ![0, 0, 0] S128x36x1
  shapeCasts_S128x36x1_S128x36 : S128x36x1.ShapeCasts S128x36
  bcast_S_S128x36 : S_.BroadcastsInDim S128x36 (![] : Fin 0 → Fin S128x36.rank)
  slices_S128x36x2_S128x36x1_0_0_1 : S128x36x2.Slices ![0, 0, 1] S128x36x1
  bcast_S128x36_S128x36x1_0_1 : S128x36.BroadcastsInDim S128x36x1 (![0, 1] : Fin 2 → Fin S128x36x1.rank)
  transposes_S128x256x40x40_S128x40x40x256_0_2_3_1 : S128x256x40x40.Transposes [0, 2, 3, 1] S128x40x40x256
  bcast_S128_S128x1_0 : S128.BroadcastsInDim S128x1 (![0] : Fin 1 → Fin S128x1.rank)
  bcast_S_S128x1 : S_.BroadcastsInDim S128x1 (![] : Fin 0 → Fin S128x1.rank)
  bcast_S128x1_S128x36_0_1 : S128x1.BroadcastsInDim S128x36 (![0, 1] : Fin 2 → Fin S128x36.rank)
  concatenates_S128x36x1_S128x36x1_S128x36x1_S128x36x3_d2 : Shape.Concatenates [S128x36x1, S128x36x1, S128x36x1] S128x36x3 2
  bcast_S_S128x36x1 : S_.BroadcastsInDim S128x36x1 (![] : Fin 0 → Fin S128x36x1.rank)
  bcast_S128x36x1_S128x36x256_0_1_2 : S128x36x1.BroadcastsInDim S128x36x256 (![0, 1, 2] : Fin 3 → Fin S128x36x256.rank)
  transposes_S128x36x256_S128x256x36_0_2_1 : S128x36x256.Transposes [0, 2, 1] S128x256x36
  dot_S128x256_S256x72_S128x72_1_0_0_1_n_n_wf : DotDims.WF S128x256 S256x72 S128x72 [1] [0] [0] [1] [] []
  gather_S128x40x40x256_S128x36x3_S128x36x256_2_012_n_n_012_2_111256_wf : GatherDims.WF S128x40x40x256 S128x36x3 S128x36x256 [2] [0, 1, 2] [] [0, 1, 2] [] 2 ![1, 1, 1, 256]

variable [Facts₀]

def dot_S128x256_S256x72_S128x72_1_0_0_1_n_n : DotDims S128x256 S256x72 S128x72 where
  lhsContracting := [1]
  rhsContracting := [0]
  lhsNonContracting := [0]
  rhsNonContracting := [1]
  lhsBatch := []
  rhsBatch := []
  wf := dot_S128x256_S256x72_S128x72_1_0_0_1_n_n_wf
def gather_S128x40x40x256_S128x36x3_S128x36x256_2_012_n_n_012_2_111256 : GatherDims S128x40x40x256 S128x36x3 S128x36x256 where
  offsetDims := [2]
  collapsedSliceDims := [0, 1, 2]
  operandBatchingDims := []
  startIndicesBatchingDims := []
  startIndexMap := [0, 1, 2]
  indexVectorDim := 2
  sliceSizes := ![1, 1, 1, 256]
  wf := gather_S128x40x40x256_S128x36x3_S128x36x256_2_012_n_n_012_2_111256_wf

class Facts : Prop extends Facts₀ where

variable [Facts]
-- ==== Proof.RefRes.lean ====
import proofs.«137562_j58282706206954_1_alg».proof.Proof.RefRunP
import proofs.«137562_j58282706206954_1_alg».proof.Proof.RefReadP

/-!
# The reference's two results are the last stages

The reference's run names each result's composed term of the arguments; the stage-by-stage reading defines the same
terms one operation at a time. The two are the same term, by unfolding.
-/

noncomputable section

namespace Cert.ReferenceIdeal.Sample

open Cert.ReferenceIdeal Cert.ReferenceIdeal.Gen Cert.ReferenceIdeal.ReadP Idealize.ShloMosaic Idealize.ShloMosaic.TcCoe Idealize.SL.Sem

variable {F : FTy → Type} [FloatOps F]

/-- The first result's term is the stage of the last transpose. -/
theorem res0_eq (m : (ℓ : Loc nD τ sig) → Buf (Elt F) ℓ) (c : Dev nD) :
    Cert.ReferenceIdeal.ValueP.res_main_v167 m c = val_main_v167 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  unfold Cert.ReferenceIdeal.ValueP.res_main_v167; rfl

/-- The second result's likewise. -/
theorem res1_eq (m : (ℓ : Loc nD τ sig) → Buf (Elt F) ℓ) (c : Dev nD) :
    Cert.ReferenceIdeal.ValueP.res_main_v320 m c = val_main_v320 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  unfold Cert.ReferenceIdeal.ValueP.res_main_v320; rfl

end Cert.ReferenceIdeal.Sample

end
-- ==== Proof.FiniteImages.lean ====
import proofs.«137562_j58282706206954_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

/-!
# The precondition makes every pixel a real number

The precondition is the conjunction, over the six arguments, of `all (|x| < +∞)`. Among the extended reals `|x| < +∞`
says exactly that `x` is a real number (`|±∞| = +∞`). Only the two image arguments are needed downstream: the bilinear
identity moves the pixel values across sums, which the infinities do not allow; the sample coordinates are clipped to
`[0, 39]` and need no hypothesis.
-/

noncomputable section

namespace Cert.Sample

open Cert.Pre_finite_inputs Idealize.ShloMosaic Idealize.ShloMosaic.ValueIdx

instance : Subsingleton S_.Idx := ⟨fun a b => funext fun d => d.elim0⟩

/-- The infinity pattern denotes `+∞`. -/
theorem ofBits_inf : Ideal.ofBits .f32 0x7F800000#32 = (⊤ : EReal) := by simp [Ideal.ofBits, Ideal.ieee]

/-- An extended real whose absolute value compares below `+∞` is a real number. -/
theorem real_of_abs_lt_inf (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have hlt : max x (-x) < (⊤ : EReal) := by
    have h' : Ideal.cmp .olt (max x (-x)) (Ideal.ofBits .f32 0x7F800000#32) = 1#1 := h
    rw [ofBits_inf] at h'
    by_contra hn
    simp [Ideal.cmp, hn] at h'
  induction x using EReal.rec with
  | bot => simp at hlt
  | coe r => exact ⟨r, rfl⟩
  | top => simp at hlt

/-- Under the precondition every entry of the two images is a real number. -/
theorem images_real (a0 : FVec Ideal S128x256 .f32) (a1 : FVec Ideal S128x2 .f32) (a2 a3 : FVec Ideal S128x256x1600 .f32)
    (a4 : FVec Ideal S72x256 .f32) (a5 : FVec Ideal S72 .f32)
    (h : fn (F := Ideal) a0 a1 a2 a3 a4 a5 = fun _ => 1#1) :
    (∀ i, ∃ r : ℝ, a2 i = (r : EReal)) ∧ (∀ i, ∃ r : ℝ, a3 i = (r : EReal)) := by
  have h0 := congrFun h ix0
  dsimp only [fn, fn_part1] at h0
  -- the conjunction, outermost last: (((((all a0 ∧ all a1) ∧ all a2) ∧ all a3) ∧ all a4) ∧ all a5)
  obtain ⟨h01234, -⟩ := IntOp.andi_eq_one.1 h0
  obtain ⟨h0123, -⟩ := IntOp.andi_eq_one.1 h01234
  obtain ⟨h012, h3⟩ := IntOp.andi_eq_one.1 h0123
  obtain ⟨-, h2⟩ := IntOp.andi_eq_one.1 h012
  exact ⟨fun i => real_of_abs_lt_inf (a2 i) (Host.reduce_andi_all _ _ _ _ ix0 h2 i),
    fun i => real_of_abs_lt_inf (a3 i) (Host.reduce_andi_all _ _ _ _ ix0 h3 i)⟩

end Cert.Sample

end
-- ==== Proof.KernelPayload.lean ====
import proofs.«137562_j58282706206954_1_alg».proof.Proof.Gen.KernelIdeal.Skeleton
import Idealize.ShloMosaic.Lib.Pipeline.Value
import Idealize.ShloMosaic.Lib.ValueIdx
import Idealize.ShloMosaic.PureOps.Ideal.Laws

/-!
# The kernel body's arithmetic, read at one entry

For one batch element the body loads a block of the image, `v0 : [1, 256, 1600]` (channels × pixels), and the block of
interpolation weights, `v6 : [1, 36, 1600]` (sample points × pixels), drops the unit axis of each, multiplies the
weights by the transposed image on the matrix unit into a zero accumulator, and stores the `[36, 256]` product with a
unit axis put back. Read among the extended reals, where a change of float format is the identity, entry `(0, p, c)`
of what it stores is the sum over the 1600 pixels `k` of `weight (p, k) · image (c, k)`.
-/

noncomputable section

namespace Cert.KernelIdeal.Sample

open Cert.KernelIdeal Cert.KernelIdeal.Gen Idealize.ShloMosaic Idealize.ShloMosaic.ValueIdx
open scoped BigOperators

/-- The product's dimension numbers: both operands are contracted along their pixel axis. -/
abbrev dd : DotDims S36x1600 S256x1600 S36x256 := dot_S36x1600_S256x1600_S36x256_1_1_0_0_n_n

/-- The weight operand is read at the output's row … -/
theorem lhs_row (i : S36x256.Idx) (q : dd.contr.Idx) : (dd.lhsIdx i q 0).val = (i 0).val := by
  unfold DotDims.lhsIdx
  rw [dif_neg (show ¬(0 : Fin S36x1600.rank) ∈ dd.lhsBatch by decide),
    dif_pos (show (0 : Fin S36x1600.rank) ∈ dd.lhsNonContracting by decide)]
  rfl
/-- … and the contracted pixel. -/
theorem lhs_pix (i : S36x256.Idx) (q : dd.contr.Idx) : (dd.lhsIdx i q 1).val = (q ⟨0, by decide⟩).val :=
  dd.lhsIdx_val_of_single rfl i q
/-- The image operand is read at the output's column (the channel) … -/
theorem rhs_chan (i : S36x256.Idx) (q : dd.contr.Idx) : (dd.rhsIdx i q 0).val = (i 1).val := by
  unfold DotDims.rhsIdx
  rw [dif_neg (show ¬(0 : Fin S256x1600.rank) ∈ dd.rhsBatch by decide),
    dif_pos (show (0 : Fin S256x1600.rank) ∈ dd.rhsNonContracting by decide)]
  rfl
/-- … and the contracted pixel. -/
theorem rhs_pix (i : S36x256.Idx) (q : dd.contr.Idx) : (dd.rhsIdx i q 1).val = (q ⟨0, by decide⟩).val :=
  dd.rhsIdx_val_of_single rfl i q

/-- The product of a `[36, 1600]` by the transpose of a `[256, 1600]` array into zero, at `(p, c)`: the sum over
    the pixels of the products. -/
theorem product_apply (w : FVec Ideal S36x1600 .bf16) (x : FVec Ideal S256x1600 .bf16) (p : Fin 36) (c : Fin 256) :
    matmul dd none w x (constant S36x256 .f32 0x00000000#32) (ix2 p c)
      = ∑ k : Fin 1600, w (ix2 p k) * x (ix2 c k) := by
  simp only [matmul]
  rw [Ideal.matmul_constant_zero_apply, ← Equiv.sum_comp (contrEquiv1 dd 1600 rfl rfl).symm]
  refine Finset.sum_congr rfl fun k _ => ?_
  have hk := contrEquiv1_symm_val dd 1600 rfl rfl k
  have el : dd.lhsIdx (ix2 p c) ((contrEquiv1 dd 1600 rfl rfl).symm k) = ix2 p k := funext fun a => Fin.ext (by
    match a with
    | ⟨0, _⟩ => exact lhs_row _ _
    | ⟨1, _⟩ => exact (lhs_pix _ _).trans hk)
  have er : dd.rhsIdx (ix2 p c) ((contrEquiv1 dd 1600 rfl rfl).symm k) = ix2 c k := funext fun a => Fin.ext (by
    match a with
    | ⟨0, _⟩ => exact rhs_chan _ _
    | ⟨1, _⟩ => exact (rhs_pix _ _).trans hk)
  rw [el, er]

/-- Dropping the unit axis of a `[1, a, b]` block: entry `(r, k)` is entry `(0, r, k)`. -/
theorem drop_unit_w (v : Vec Ideal S1x36x1600 .f32) (r : Fin 36) (k : Fin 1600) :
    shapeCast S36x1600 v shapeCasts_S1x36x1600_S36x1600 (ix2 r k) = v (ix3 (0 : Fin 1) r k) :=
  shapeCast_apply v shapeCasts_S1x36x1600_S36x1600 (ix2 r k) (ix3 (0 : Fin 1) r k) (by
    rw [Shape.rowMajor_val_three, Shape.rowMajor_val_two]
    show (0 * 36 + r.val) * 1600 + k.val = r.val * 1600 + k.val
    omega)
theorem drop_unit_x (v : Vec Ideal S1x256x1600 .f32) (r : Fin 256) (k : Fin 1600) :
    shapeCast S256x1600 v shapeCasts_S1x256x1600_S256x1600 (ix2 r k) = v (ix3 (0 : Fin 1) r k) :=
  shapeCast_apply v shapeCasts_S1x256x1600_S256x1600 (ix2 r k) (ix3 (0 : Fin 1) r k) (by
    rw [Shape.rowMajor_val_three, Shape.rowMajor_val_two]
    show (0 * 256 + r.val) * 1600 + k.val = r.val * 1600 + k.val
    omega)
/-- Putting a unit axis in front of a `[36, 256]` array: entry `(0, p, c)` is entry `(p, c)`. -/
theorem add_unit (v : FVec Ideal S36x256 .f32) (p : Fin 36) (c : Fin 256) :
    shapeCast S1x36x256 v shapeCasts_S36x256_S1x36x256 (ix3 (0 : Fin 1) p c) = v (ix2 p c) :=
  shapeCast_apply v shapeCasts_S36x256_S1x36x256 (ix3 (0 : Fin 1) p c) (ix2 p c) (by
    rw [Shape.rowMajor_val_three, Shape.rowMajor_val_two]
    show p.val * 256 + c.val = (0 * 36 + p.val) * 256 + c.val
    omega)

/-- What the body stores for the first output, at `(0, p, c)`: the weighted sum over the pixels of the first image
    block's channel `c`. -/
theorem pay2_apply (v0 : Vec Ideal S1x256x1600 .f32) (v6 : Vec Ideal S1x36x1600 .f32) (p : Fin 36) (c : Fin 256) :
    k0_pay2 (F := Ideal) v0 v6 (ix3 (0 : Fin 1) p c)
      = ∑ k : Fin 1600, v6 (ix3 (0 : Fin 1) p k) * v0 (ix3 (0 : Fin 1) c k) := by
  unfold k0_pay2 k0_pay1
  refine (add_unit _ p c).trans ?_
  refine (product_apply _ _ p c).trans ?_
  refine Finset.sum_congr rfl fun k _ => ?_
  show shapeCast S36x1600 v6 shapeCasts_S1x36x1600_S36x1600 (ix2 p k)
      * shapeCast S256x1600 v0 shapeCasts_S1x256x1600_S256x1600 (ix2 c k) = _
  rw [drop_unit_w, drop_unit_x]

/-- The second output's store is the same expression of the second image block. -/
theorem pay3_apply (v3 : Vec Ideal S1x256x1600 .f32) (v6 : Vec Ideal S1x36x1600 .f32) (p : Fin 36) (c : Fin 256) :
    k0_pay3 (F := Ideal) v3 v6 (ix3 (0 : Fin 1) p c)
      = ∑ k : Fin 1600, v6 (ix3 (0 : Fin 1) p k) * v3 (ix3 (0 : Fin 1) c k) := by
  unfold k0_pay3 k0_pay1
  refine (add_unit _ p c).trans ?_
  refine (product_apply _ _ p c).trans ?_
  refine Finset.sum_congr rfl fun k _ => ?_
  show shapeCast S36x1600 v6 shapeCasts_S1x36x1600_S36x1600 (ix2 p k)
      * shapeCast S256x1600 v3 shapeCasts_S1x256x1600_S256x1600 (ix2 c k) = _
  rw [drop_unit_w, drop_unit_x]

end Cert.KernelIdeal.Sample

end
-- ==== Proof.KernelBlocks.lean ====
import proofs.«137562_j58282706206954_1_alg».proof.Proof.Gen.KernelIdeal.Frame
import proofs.«137562_j58282706206954_1_alg».proof.Proof.KernelPayload
import Idealize.ShloMosaic.Lib.Pipeline.Value
import Idealize.ShloMosaic.Lib.StableHlo.Run

/-!
# From one batch element's block to the whole output arrays

The grid has one point per batch element `t < 128`. At point `t` every window's block is the slab `t` of its array:
the image slab `[t, :, :]`, the weight slab `[t, :, :]` of the `[128, 36, 1600]` weights the host built before the
region, and the output slab `[t, :, :]` of a `[128, 36, 256]` array. So after the region the first output array holds,
at `(b, p, c)`, the sum over the 1600 pixels `k` of `weights (b, p, k) · image (b, c, k)` (`sampled`), the second
the same of the second image; the two host lines after the region swap the last two axes.
-/

noncomputable section

namespace Cert.KernelIdeal.Sample

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The weighted sums of an image's pixels: entry `(b, p, c)` is `∑ k, W (b, p, k) · A (b, c, k)`. -/
def sampled (W : S128x36x1600.Idx → EReal) (A : S128x256x1600.Idx → EReal) : S128x36x256.Idx → EReal :=
  fun i => ∑ k : Fin 1600, W (ix3 (⟨(i 0).val, (i 0).isLt⟩ : Fin 128) (⟨(i 1).val, (i 1).isLt⟩ : Fin 36) k)
    * A (ix3 (⟨(i 0).val, (i 0).isLt⟩ : Fin 128) (⟨(i 2).val, (i 2).isLt⟩ : Fin 256) k)

theorem hz3 : (![0, 0, 0] : Fin 3 → Nat) = fun _ => 0 := funext fun a => by fin_cases a <;> rfl

/-- The printed index maps, decided over the 128 points: every window's block at point `t` is slab `t`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 128 := Nat.lt_of_lt_of_eq t.isLt N_0

/-- The first image's block at point `t`, entry `(0, ch, k)`, is the image at `(t, ch, k)`. -/
theorem iblk0_apply (c : Dev nD) (t : Fin cfg0.N) (ch : Fin 256) (k : Fin 1600) :
    (iblk m c 0 t : Vec Ideal S1x256x1600 .f32) (ix3 (0 : Fin 1) ch k)
      = (V m c main_arg2 : S128x256x1600.Idx → EReal) (ix3 (⟨t.val, t_lt t⟩ : Fin 128) ch k) := by
  obtain ⟨e0, e1, e2, -⟩ := idx_facts t
  unfold iblk
  rw [View.read_apply]
  show V m c main_arg2 _ = V m c main_arg2 _
  congr 1
  funext a
  apply Fin.ext
  match a with
  | ⟨0, _⟩ => show win0_0.index t 0 * 1 + 1 * 0 = t.val; omega
  | ⟨1, _⟩ => show win0_0.index t 1 * 256 + 1 * ch.val = ch.val; omega
  | ⟨2, _⟩ => show win0_0.index t 2 * 1600 + 1 * k.val = k.val; omega

/-- The second image's block likewise. -/
theorem iblk1_apply (c : Dev nD) (t : Fin cfg0.N) (ch : Fin 256) (k : Fin 1600) :
    (iblk m c 1 t : Vec Ideal S1x256x1600 .f32) (ix3 (0 : Fin 1) ch k)
      = (V m c main_arg3 : S128x256x1600.Idx → EReal) (ix3 (⟨t.val, t_lt t⟩ : Fin 128) ch k) := by
  obtain ⟨-, -, -, e0, e1, e2, -⟩ := idx_facts t
  unfold iblk
  rw [View.read_apply]
  show V m c main_arg3 _ = V m c main_arg3 _
  congr 1
  funext a
  apply Fin.ext
  match a with
  | ⟨0, _⟩ => show win0_1.index t 0 * 1 + 1 * 0 = t.val; omega
  | ⟨1, _⟩ => show win0_1.index t 1 * 256 + 1 * ch.val = ch.val; omega
  | ⟨2, _⟩ => show win0_1.index t 2 * 1600 + 1 * k.val = k.val; omega

/-- The weights' block at point `t`, entry `(0, p, k)`, is the weight array at `(t, p, k)`. -/
theorem iblk2_apply (c : Dev nD) (t : Fin cfg0.N) (p : Fin 36) (k : Fin 1600) :
    (iblk m c 2 t : Vec Ideal S1x36x1600 .f32) (ix3 (0 : Fin 1) p k)
      = (V m c main_v98 : S128x36x1600.Idx → EReal) (ix3 (⟨t.val, t_lt t⟩ : Fin 128) p k) := by
  obtain ⟨-, -, -, -, -, -, e0, e1, e2, -⟩ := idx_facts t
  unfold iblk
  rw [View.read_apply]
  show V m c main_v98 _ = V m c main_v98 _
  congr 1
  funext a
  apply Fin.ext
  match a with
  | ⟨0, _⟩ => show win0_2.index t 0 * 1 + 1 * 0 = t.val; omega
  | ⟨1, _⟩ => show win0_2.index t 1 * 36 + 1 * p.val = p.val; omega
  | ⟨2, _⟩ => show win0_2.index t 2 * 1600 + 1 * k.val = k.val; omega

/-- One point's value: a store of the body over blocks that are slab `b` of the weights `W` and of an image `A` is
    slab `b` of `sampled W A`. -/
theorem point_value2 (x0 : Vec Ideal S1x256x1600 .f32) (x2 : Vec Ideal S1x36x1600 .f32)
    (W : S128x36x1600.Idx → EReal) (A : S128x256x1600.Idx → EReal) (b : Fin 128)
    (h0 : ∀ (ch : Fin 256) (k : Fin 1600), x0 (ix3 (0 : Fin 1) ch k) = A (ix3 b ch k))
    (h2 : ∀ (p : Fin 36) (k : Fin 1600), x2 (ix3 (0 : Fin 1) p k) = W (ix3 b p k))
    (j : S1x36x256.Idx) (i : S128x36x256.Idx)
    (hi0 : (i 0).val = b.val) (hi1 : (i 1).val = (j 1).val) (hi2 : (i 2).val = (j 2).val) :
    k0_pay2 (F := Ideal) x0 x2 j = sampled W A i := by
  obtain ⟨q, p, ch, rfl⟩ : ∃ (q : Fin 1) (p : Fin 36) (ch : Fin 256), j = ix3 q p ch := ⟨j 0, j 1, j 2, eq_ix3 j⟩
  obtain rfl : q = 0 := Subsingleton.elim _ _
  rw [pay2_apply]
  unfold sampled
  refine Finset.sum_congr rfl fun k _ => ?_
  rw [h2, h0]
  have e0 : (⟨(i 0).val, (i 0).isLt⟩ : Fin 128) = b := Fin.ext hi0
  have e1 : (⟨(i 1).val, (i 1).isLt⟩ : Fin 36) = p := Fin.ext hi1
  have e2 : (⟨(i 2).val, (i 2).isLt⟩ : Fin 256) = ch := Fin.ext hi2
  rw [e0, e1, e2]

/-- The same for the second output's store. -/
theorem point_value3 (x1 : Vec Ideal S1x256x1600 .f32) (x2 : Vec Ideal S1x36x1600 .f32)
    (W : S128x36x1600.Idx → EReal) (A : S128x256x1600.Idx → EReal) (b : Fin 128)
    (h1 : ∀ (ch : Fin 256) (k : Fin 1600), x1 (ix3 (0 : Fin 1) ch k) = A (ix3 b ch k))
    (h2 : ∀ (p : Fin 36) (k : Fin 1600), x2 (ix3 (0 : Fin 1) p k) = W (ix3 b p k))
    (j : S1x36x256.Idx) (i : S128x36x256.Idx)
    (hi0 : (i 0).val = b.val) (hi1 : (i 1).val = (j 1).val) (hi2 : (i 2).val = (j 2).val) :
    k0_pay3 (F := Ideal) x1 x2 j = sampled W A i := by
  obtain ⟨q, p, ch, rfl⟩ : ∃ (q : Fin 1) (p : Fin 36) (ch : Fin 256), j = ix3 q p ch := ⟨j 0, j 1, j 2, eq_ix3 j⟩
  obtain rfl : q = 0 := Subsingleton.elim _ _
  rw [pay3_apply]
  unfold sampled
  refine Finset.sum_congr rfl fun k _ => ?_
  rw [h2, h1]
  have e0 : (⟨(i 0).val, (i 0).isLt⟩ : Fin 128) = b := Fin.ext hi0
  have e1 : (⟨(i 1).val, (i 1).isLt⟩ : Fin 36) = p := Fin.ext hi1
  have e2 : (⟨(i 2).val, (i 2).isLt⟩ : Fin 256) = ch := Fin.ext hi2
  rw [e0, e1, e2]

/-- WHAT POINT `t` WRITES BACK to the first output is slab `t` of the weighted sums of the first image. -/
theorem flushed3_eq (c : Dev nD) (t : Fin cfg0.N) :
    (dats m 0 c).flushed 3 t
      = ((cfg0.win 3).blk t).view.read (Elt Ideal) (sampled (V m c main_v98) (V m c main_arg2)) := by
  show (cfg0.win 3).cut (grid0.coords t) ((dats m 0 c).after 3 t) = _
  rw [after0_3]
  unfold out0_3
  rw [View.canon_unit_zero hz3]
  simp only [View.ld_unit_zero (S := S1x256x1600) hz3, View.ld_unit_zero (S := S1x36x1600) hz3]
  obtain ⟨-, -, -, -, -, -, -, -, -, e0, e1, e2, -⟩ := idx_facts t
  funext j
  rw [View.read_apply]
  refine point_value2 (iblk m c 0 t) (iblk m c 2 t) (V m c main_v98) (V m c main_arg2) ⟨t.val, t_lt t⟩
    (fun ch k => iblk0_apply m c t ch k) (fun p k => iblk2_apply m c t p k) j _ ?_ ?_ ?_
  · show win0_3.index t 0 * 1 + 1 * (j 0).val = t.val
    have hj : (j 0).val < 1 := (j 0).isLt
    omega
  · show win0_3.index t 1 * 36 + 1 * (j 1).val = (j 1).val
    omega
  · show win0_3.index t 2 * 256 + 1 * (j 2).val = (j 2).val
    omega

/-- And to the second output, of the second image. -/
theorem flushed4_eq (c : Dev nD) (t : Fin cfg0.N) :
    (dats m 0 c).flushed 4 t
      = ((cfg0.win 4).blk t).view.read (Elt Ideal) (sampled (V m c main_v98) (V m c main_arg3)) := by
  show (cfg0.win 4).cut (grid0.coords t) ((dats m 0 c).after 4 t) = _
  rw [after0_4]
  unfold out0_4
  rw [View.canon_unit_zero hz3]
  simp only [View.ld_unit_zero (S := S1x256x1600) hz3, View.ld_unit_zero (S := S1x36x1600) hz3]
  obtain ⟨-, -, -, -, -, -, -, -, -, -, -, -, e0, e1, e2⟩ := idx_facts t
  funext j
  rw [View.read_apply]
  refine point_value3 (iblk m c 1 t) (iblk m c 2 t) (V m c main_v98) (V m c main_arg3) ⟨t.val, t_lt t⟩
    (fun ch k => iblk1_apply m c t ch k) (fun p k => iblk2_apply m c t p k) j _ ?_ ?_ ?_
  · show win0_4.index t 0 * 1 + 1 * (j 0).val = t.val
    have hj : (j 0).val < 1 := (j 0).isLt
    omega
  · show win0_4.index t 1 * 36 + 1 * (j 1).val = (j 1).val
    omega
  · show win0_4.index t 2 * 256 + 1 * (j 2).val = (j 2).val
    omega

/-- Every index `(b, p, c)` of an output array lies in the block of point `b`. -/
theorem cover3 (i : S128x36x256.Idx) :
    ∃ t : Fin cfg0.N, (cfg0.win 3).flush t = true ∧ i ∈ ((cfg0.win 3).blk t).view.set := by
  have hb : (i 0).val < cfg0.N := Nat.lt_of_lt_of_eq (i 0).isLt N_0.symm
  refine ⟨⟨(i 0).val, hb⟩, flush0_3 _, ?_⟩
  obtain ⟨-, -, -, -, -, -, -, -, -, e0', e1, e2, -⟩ := idx_facts ⟨(i 0).val, hb⟩
  have e0 : win0_3.index ⟨(i 0).val, hb⟩ 0 = (i 0).val := e0'
  show i ∈ ((View.whole main_v99_0).slice (win0_3.rect ⟨(i 0).val, hb⟩)).set
  rw [View.set_slice_whole, Rect.mem_set_unit]
  intro a
  have h1 : (i 1).val < 36 := (i 1).isLt
  have h2 : (i 2).val < 256 := (i 2).isLt
  match a with
  | ⟨0, _⟩ =>
    show win0_3.index ⟨(i 0).val, hb⟩ 0 * 1 ≤ (i 0).val ∧ (i 0).val < win0_3.index ⟨(i 0).val, hb⟩ 0 * 1 + 1
    rw [e0]; omega
  | ⟨1, _⟩ =>
    show win0_3.index ⟨(i 0).val, hb⟩ 1 * 36 ≤ (i 1).val ∧ (i 1).val < win0_3.index ⟨(i 0).val, hb⟩ 1 * 36 + 36
    rw [e1]; omega
  | ⟨2, _⟩ =>
    show win0_3.index ⟨(i 0).val, hb⟩ 2 * 256 ≤ (i 2).val ∧ (i 2).val < win0_3.index ⟨(i 0).val, hb⟩ 2 * 256 + 256
    rw [e2]; omega

theorem cover4 (i : S128x36x256.Idx) :
    ∃ t : Fin cfg0.N, (cfg0.win 4).flush t = true ∧ i ∈ ((cfg0.win 4).blk t).view.set := by
  have hb : (i 0).val < cfg0.N := Nat.lt_of_lt_of_eq (i 0).isLt N_0.symm
  refine ⟨⟨(i 0).val, hb⟩, flush0_4 _, ?_⟩
  obtain ⟨-, -, -, -, -, -, -, -, -, -, -, -, e0', e1, e2⟩ := idx_facts ⟨(i 0).val, hb⟩
  have e0 : win0_4.index ⟨(i 0).val, hb⟩ 0 = (i 0).val := e0'
  show i ∈ ((View.whole main_v99_1).slice (win0_4.rect ⟨(i 0).val, hb⟩)).set
  rw [View.set_slice_whole, Rect.mem_set_unit]
  intro a
  have h1 : (i 1).val < 36 := (i 1).isLt
  have h2 : (i 2).val < 256 := (i 2).isLt
  match a with
  | ⟨0, _⟩ =>
    show win0_4.index ⟨(i 0).val, hb⟩ 0 * 1 ≤ (i 0).val ∧ (i 0).val < win0_4.index ⟨(i 0).val, hb⟩ 0 * 1 + 1
    rw [e0]; omega
  | ⟨1, _⟩ =>
    show win0_4.index ⟨(i 0).val, hb⟩ 1 * 36 ≤ (i 1).val ∧ (i 1).val < win0_4.index ⟨(i 0).val, hb⟩ 1 * 36 + 36
    rw [e1]; omega
  | ⟨2, _⟩ =>
    show win0_4.index ⟨(i 0).val, hb⟩ 2 * 256 ≤ (i 2).val ∧ (i 2).val < win0_4.index ⟨(i 0).val, hb⟩ 2 * 256 + 256
    rw [e2]; omega

/-- THE OUTPUT ARRAYS after the region: the weighted sums of each image. -/
theorem final3 (c : Dev nD) :
    (dats m 0 c).arrAt 3 cfg0.N = sampled (V m c main_v98) (V m c main_arg2) :=
  (dats m 0 c).arrAt_eq_of_cover 3 (sampled (V m c main_v98) (V m c main_arg2)) (fun t _ => flushed3_eq m c t) cover3
theorem final4 (c : Dev nD) :
    (dats m 0 c).arrAt 4 cfg0.N = sampled (V m c main_v98) (V m c main_arg3) :=
  (dats m 0 c).arrAt_eq_of_cover 4 (sampled (V m c main_v98) (V m c main_arg3)) (fun t _ => flushed4_eq m c t) cover4

/-! ## The two host lines after the region -/

/-- The first result: the first output array with its last two axes swapped. -/
theorem tail100 (c : Dev nD) :
    Pipeline.afterTail₀ cfgs (dats m) 0 (V0 m) [hostOps1] c main_v100
      = transpose S128x256x36 [0, 2, 1] (sampled (V m c main_v98) (V m c main_arg2)) transposes_S128x36x256_S128x256x36_0_2_1 := by
  unfold Pipeline.afterTail₀
  show StableHlo.after hostOps1 _ (Proc.devRef .tc main_v100) = _
  after_results
  exact congrArg (fun x : S128x36x256.Idx → EReal => transpose S128x256x36 [0, 2, 1] x transposes_S128x36x256_S128x256x36_0_2_1)
    ((Pipeline.withArrays_arr spec0 launch0.win.arr_inj c _ _ 3).trans (final3 m c))

/-- The second result likewise. -/
theorem tail101 (c : Dev nD) :
    Pipeline.afterTail₀ cfgs (dats m) 0 (V0 m) [hostOps1] c main_v101
      = transpose S128x256x36 [0, 2, 1] (sampled (V m c main_v98) (V m c main_arg3)) transposes_S128x36x256_S128x256x36_0_2_1 := by
  unfold Pipeline.afterTail₀
  show StableHlo.after hostOps1 _ (Proc.devRef .tc main_v101) = _
  after_results
  exact congrArg (fun x : S128x36x256.Idx → EReal => transpose S128x256x36 [0, 2, 1] x transposes_S128x36x256_S128x256x36_0_2_1)
    ((Pipeline.withArrays_arr spec0 launch0.win.arr_inj c _ _ 4).trans (final4 m c))

end Cert.KernelIdeal.Sample

end
-- ==== Proof.LibPixelCoord.lean ====
import Idealize.ShloMosaic.PureOps.Ideal
import Idealize.ShloMosaic.PureOps.Ideal.Laws
import Idealize.ShloMosaic.Lib.IdealHost
import Idealize.ShloMosaic.Lib.Affine

/-!
# A pixel coordinate clipped to `[0, 39]`: its floor, its fraction and its index

A bilinear sampler reads an image of 40 rows (or columns) at a real coordinate. It first clips the
coordinate to the interval `[0, 39]`, then splits it into an integer part `⌊r⌋` (the index of the
pixel on the near side) and a fractional part `r - ⌊r⌋` (the weight of the pixel on the far side,
the near side getting `1 - (r - ⌊r⌋)`). The far pixel has index `min (⌊r⌋ + 1) 39`, so that at the
last pixel the two neighbours coincide.

This file proves those facts at the exact-real reading of float arithmetic, in which a float is an
extended real number and every operation is the exact one:

* the float literal `39.0` is the real number 39, and clipping any extended real (the infinities
  included) to `[0, 39]` leaves a real number `r` with `0 ≤ r ≤ 39`;
* the float floor of a real `r` is the integer `⌊r⌋`, `r` minus that floor is the fractional part
  `Int.fract r`, and one minus a real weight is the real `1 - w`;
* for `0 ≤ r ≤ 39` the floor, converted to a signed 32-bit integer, is the word of the natural
  number `⌊r⌋₊ ≤ 39`: the conversion's truncation and clamping change nothing;
* on 32-bit words, `min (n + 1) 39` computed with a wrapping addition and a signed minimum is the
  natural-number `min (n + 1) 39` for `n ≤ 39`; a word below `2 ^ 31` is not negative as a signed
  number, so the "add the length to a negative index" correction leaves it alone and its signed
  reading is `n` itself;
* the indicator "does index `h` equal index `n`", converted from a one-bit word to a float, is
  `1` when `h = n` and `0` otherwise.
-/

noncomputable section

namespace Cert.PixelCoord

open Idealize.ShloMosaic

/-! ## The clip to `[0, 39]` -/

/-- The f32 pattern `0x421C0000` has sign `0`, exponent field `132` and fraction field `0x1C0000`, so it
    denotes `(2 ^ 23 + 0x1C0000) * 2 ^ (132 - 127 - 23) = 10223616 / 2 ^ 18 = 39`. -/
theorem ofBits_39 : Ideal.ofBits .f32 0x421C0000#32 = ((39 : ℝ) : EReal) := by
  simp [Ideal.ofBits, Ideal.ieee, -EReal.coe_mul]; norm_num

/-- Among real numbers the extended-real maximum is the real maximum, because the inclusion of the
    reals in the extended reals is monotone. -/
theorem coe_max (a b : ℝ) : ((max a b : ℝ) : EReal) = max (a : EReal) (b : EReal) :=
  EReal.coe_strictMono.monotone.map_max

/-- Among real numbers the extended-real minimum is the real minimum, for the same reason. -/
theorem coe_min (a b : ℝ) : ((min a b : ℝ) : EReal) = min (a : EReal) (b : EReal) :=
  EReal.coe_strictMono.monotone.map_min

/-- Clipping an extended real `z` to `[0, 39]`, as `min 39 (max 0 z)`, always gives a real number in
    `[0, 39]`: `-∞` goes to `0`, `+∞` to `39`, and a real `r` to `min 39 (max 0 r)`. -/
theorem clip_real (z : EReal) : ∃ r : ℝ, 0 ≤ r ∧ r ≤ 39 ∧
    min (Ideal.ofBits .f32 0x421C0000#32) (max (Ideal.ofBits .f32 0x00000000#32) z) = (r : EReal) := by
  rw [ofBits_39, Ideal.ofBits_zero_f32]
  induction z using EReal.rec with
  | bot =>
    -- `max 0 (-∞) = 0`, and `min 39 0 = 0` because `0 ≤ 39`
    refine ⟨0, le_refl 0, by norm_num, ?_⟩
    rw [max_bot_right, EReal.coe_zero]
    exact min_eq_right (EReal.coe_nonneg.mpr (by norm_num))
  | top =>
    -- `max 0 (+∞) = +∞`, and `min 39 (+∞) = 39`
    refine ⟨39, by norm_num, le_refl 39, ?_⟩
    rw [max_top_right, min_top_right]
  | coe r =>
    -- among the reals the extended `min` and `max` are the real ones
    refine ⟨min 39 (max 0 r), le_min (by norm_num) (le_max_left 0 r), min_le_left 39 _, ?_⟩
    rw [coe_min, coe_max, EReal.coe_zero]

/-! ## Floor, fractional part and complementary weight -/

/-- The float floor of a real number `r` is the integer `⌊r⌋`, read back as a real. -/
theorem floor_coe (r : ℝ) : Ideal.liftRound Int.floor (r : EReal) = (((⌊r⌋ : ℤ) : ℝ) : EReal) :=
  Ideal.liftRound_coe r Int.floor

/-- A real number minus its float floor is its fractional part `Int.fract r = r - ⌊r⌋`. -/
theorem frac_coe (r : ℝ) :
    (r : EReal) - Ideal.liftRound Int.floor (r : EReal) = ((Int.fract r : ℝ) : EReal) := by
  rw [floor_coe, ← EReal.coe_sub, Int.self_sub_floor]

/-- The float literal `1.0` minus a real weight `w` is the real number `1 - w`. -/
theorem one_sub_coe (w : ℝ) : Ideal.ofBits .f32 0x3F800000#32 - (w : EReal) = ((1 - w : ℝ) : EReal) := by
  rw [Ideal.ofBits_one_f32, ← EReal.coe_one, ← EReal.coe_sub]

/-! ## The floor as a 32-bit index -/

/-- The natural-number floor of a real `r ≤ 39` is at most `39`. -/
theorem floor_toNat_le (r : ℝ) (h0 : 0 ≤ r) (h39 : r ≤ 39) : ⌊r⌋₊ ≤ 39 :=
  Nat.floor_le_of_le (by exact_mod_cast h39)

/-- For `0 ≤ r ≤ 39`, converting the float floor of `r` to a signed 32-bit integer gives the word of
    the natural number `⌊r⌋₊`: the floor is already an integer, so truncation toward zero leaves it,
    and it lies in `[0, 39]`, far inside `[-2 ^ 31, 2 ^ 31 - 1]`, so the clamp leaves it too. -/
theorem fptosi_floor (r : ℝ) (h0 : 0 ≤ r) (h39 : r ≤ 39) :
    Ideal.fptosi 32 (Ideal.liftRound Int.floor (r : EReal)) = BitVec.ofNat 32 ⌊r⌋₊ := by
  -- the integer floor is the cast of the natural floor, which is at most `39`
  have hcast : ((⌊r⌋₊ : ℕ) : ℤ) = ⌊r⌋ := Int.natCast_floor_eq_floor h0
  have hle : ⌊r⌋₊ ≤ 39 := floor_toNat_le r h0 h39
  -- truncation toward zero of an integer (its floor or its ceiling, by sign) is that integer
  have htrunc : (if (0 : ℝ) ≤ ((⌊r⌋ : ℤ) : ℝ) then ⌊((⌊r⌋ : ℤ) : ℝ)⌋ else ⌈((⌊r⌋ : ℤ) : ℝ)⌉) = ⌊r⌋ := by
    rw [Int.floor_intCast, Int.ceil_intCast, ite_self]
  -- the clamp to the signed 32-bit range is inactive
  have hclamp : max (-((2 ^ (32 - 1) : ℕ) : ℤ)) (min (((2 ^ (32 - 1) : ℕ) : ℤ) - 1) ⌊r⌋) = ⌊r⌋ := by
    rw [← hcast]; omega
  rw [floor_coe, Ideal.fptosi, Ideal.toIntClamped_coe, htrunc, hclamp, ← hcast, BitVec.ofInt_natCast]

/-! ## Index arithmetic on 32-bit words -/

/-- A natural number below `2 ^ 31`, written as a 32-bit word, reads back as itself when the word is
    read as a signed integer: its top bit is clear. -/
theorem toInt_ofNat_of_lt (n : ℕ) (hn : n < 2 ^ 31) : (BitVec.ofNat 32 n).toInt = (n : ℤ) := by
  rw [BitVec.toInt_eq_toNat_cond, BitVec.toNat_ofNat, Nat.mod_eq_of_lt (by omega)]
  rw [if_pos (by omega)]

/-- For `n ≤ 39` the neighbouring index `min (n + 1) 39`, computed on 32-bit words with a wrapping
    addition and a signed minimum, is the word of the natural number `min (n + 1) 39`: `n + 1 ≤ 40`
    does not wrap and is not negative as a signed number. -/
theorem next_index (n : ℕ) (hn : n ≤ 39) :
    IntOp.minsi (IntOp.addi (BitVec.ofNat 32 n) 1#32) 39#32 = BitVec.ofNat 32 (min (n + 1) 39) := by
  -- the wrapping sum of the words of `n` and `1` is the word of `n + 1`
  have hadd : IntOp.addi (BitVec.ofNat 32 n) 1#32 = BitVec.ofNat 32 (n + 1) := by
    rw [IntOp.addi, BitVec.ofNat_add]
  -- the signed comparison of the words of `n + 1` and `39` is the comparison of the numbers
  have hslt : (BitVec.ofNat 32 (n + 1)).slt 39#32 = true ↔ n + 1 < 39 := by
    rw [BitVec.slt_iff_toInt_lt, toInt_ofNat_of_lt (n + 1) (by omega), toInt_ofNat_of_lt 39 (by norm_num)]
    omega
  rw [hadd, IntOp.minsi]
  by_cases hlt : n + 1 < 39
  · rw [if_pos (hslt.mpr hlt), min_eq_left (le_of_lt hlt)]
  · rw [if_neg (fun hc => hlt (hslt.mp hc)), min_eq_right (by omega)]

/-- A word below `2 ^ 31` is not negative as a signed number, so the correction that adds `K` to a
    negative index (Python's wrap-around indexing) selects the word itself. -/
theorem no_wrap (n K : ℕ) (hn : n < 2 ^ 31) :
    Scalar.select (IntOp.cmpi .slt (BitVec.ofNat 32 n) 0#32)
      (IntOp.addi (BitVec.ofNat 32 n) (BitVec.ofNat 32 K)) (BitVec.ofNat 32 n) = BitVec.ofNat 32 n := by
  -- the comparison `n < 0` of signed readings is false, since the signed reading of the word is `n ≥ 0`
  have hnot : ¬ IntOp.cmpi .slt (BitVec.ofNat 32 n) 0#32 = 1 := by
    intro hc
    have hlt : (BitVec.ofNat 32 n).toInt < (0#32).toInt := IntOp.cmpi_slt.mp hc
    rw [toInt_ofNat_of_lt n hn, toInt_ofNat_of_lt 0 (by norm_num)] at hlt
    omega
  rw [Scalar.select, if_neg hnot]

/-- The signed reading of the word of a natural number `n < 2 ^ 31`, taken back to the natural
    numbers, is `n`. -/
theorem toInt_toNat (n : ℕ) (hn : n < 2 ^ 31) : (BitVec.ofNat 32 n).toInt.toNat = n := by
  rw [toInt_ofNat_of_lt n hn, Int.toNat_natCast]

/-! ## The one-hot indicator of an index -/

/-- The one-bit answer to "is the word of `h` equal to the word of `n`", read unsigned as a float, is
    the indicator of `h = n`: two natural numbers below `2 ^ 32` have the same 32-bit word only when
    they are equal, and the bit's unsigned readings `1` and `0` are the reals one and zero. -/
theorem onehot (n h : ℕ) (hn : n < 2 ^ 32) (hh : h < 2 ^ 32) :
    FloatOps.uitofp (F := Ideal) .f32 (IntOp.cmpi .eq (BitVec.ofNat 32 h) (BitVec.ofNat 32 n))
      = if h = n then (1 : EReal) else 0 := by
  -- the conversion is the unsigned reading of the bit, as a real
  show (((IntOp.cmpi .eq (BitVec.ofNat 32 h) (BitVec.ofNat 32 n)).toNat : ℝ) : EReal) = if h = n then 1 else 0
  by_cases hhn : h = n
  · -- equal numbers have equal words: the bit is `1`
    have hbit : IntOp.cmpi .eq (BitVec.ofNat 32 h) (BitVec.ofNat 32 n) = 1#1 := IntOp.cmpi_eq.mpr (by rw [hhn])
    rw [hbit, if_pos hhn]
    norm_num
  · -- different numbers below `2 ^ 32` have different words: the bit is not `1`, so it is `0`
    have hne : ¬ IntOp.cmpi .eq (BitVec.ofNat 32 h) (BitVec.ofNat 32 n) = 1#1 := by
      intro hc
      have hw : BitVec.ofNat 32 h = BitVec.ofNat 32 n := IntOp.cmpi_eq.mp hc
      have ht : (BitVec.ofNat 32 h).toNat = (BitVec.ofNat 32 n).toNat := by rw [hw]
      rw [BitVec.toNat_ofNat, BitVec.toNat_ofNat, Nat.mod_eq_of_lt hh, Nat.mod_eq_of_lt hn] at ht
      exact hhn ht
    have hbit : IntOp.cmpi .eq (BitVec.ofNat 32 h) (BitVec.ofNat 32 n) = 0#1 := by
      generalize IntOp.cmpi .eq (BitVec.ofNat 32 h) (BitVec.ofNat 32 n) = c at hne ⊢
      revert c; decide
    rw [hbit, if_neg hhn]
    norm_num

end Cert.PixelCoord

end
-- ==== Proof.LibBilinear.lean ====
import Mathlib

/-!
# Bilinear interpolation as a dense product with a four-corner weight row

A bilinear sample of a function on an H × W grid, stored row-major as f (W * h + w), is
the weighted sum of the four values at the corners (y0, x0), (y0, x1), (y1, x0), (y1, x1), the
weights being the products of the one-dimensional weights (1 - wy, wy) down and (1 - wx, wx)
across. The same number is obtained as a dense product: sum over ALL H * W grid points k of
(row weight of k) * f k, where the row weight of k = W * h + w is the product of a vertical
factor, (1 - wy) [h = y0] + wy [h = y1], and a horizontal factor, (1 - wx) [w = x0] + wx [w = x1],
the brackets being 1 when the equation inside holds and 0 otherwise. That weight vanishes
away from the four corners, so the dense sum collapses to the four-term one.

The proof goes through three elementary facts: a sum against a one-hot row selects one term
(sum_onehot), hence a sum against a two-hot row is a two-term combination (sum_twohot); and the
sum over a row-major index k < H * W, split as (k / W, k % W), is the double sum over rows and
columns (sum_grid). The identity is proved over the reals (bilinear_real) and then transported
to the extended reals (bilinear_ereal), where every quantity is the coercion of a real, using
that the coercion commutes with finite sums (coe_sum), sums and products.
-/

noncomputable section

namespace Cert.Bilinear

open scoped BigOperators

/-- The coercion ℝ → EReal commutes with finite sums: by induction on the index set, since it
sends 0 to 0 and a sum of two reals to the sum of their coercions. -/
theorem coe_sum {ι : Type} (s : Finset ι) (g : ι → ℝ) :
    ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- A one-hot row selects one term: in the sum of [h = a] * g h over h, every term with h ≠ a
vanishes and the term h = a is 1 * g a. -/
theorem sum_onehot {n : ℕ} (a : Fin n) (g : Fin n → ℝ) :
    ∑ h : Fin n, (if h.val = a.val then (1 : ℝ) else 0) * g h = g a := by
  rw [Finset.sum_eq_single a]
  · -- the term h = a
    rw [if_pos rfl, one_mul]
  · -- a term with h ≠ a: the indices differ as numbers too, so the indicator is 0
    intro b _ hb
    have hval : b.val ≠ a.val := fun h => hb (Fin.ext h)
    rw [if_neg hval, zero_mul]
  · -- a is one of the indices summed over
    intro ha
    exact absurd (Finset.mem_univ a) ha

/-- A two-hot row s [h = a] + t [h = b] gives the two-term combination s * g a + t * g b:
split the sum in two, pull the constants s and t out, and collapse each one-hot sum. -/
theorem sum_twohot {n : ℕ} (a b : Fin n) (s t : ℝ) (g : Fin n → ℝ) :
    ∑ h : Fin n, (s * (if h.val = a.val then (1 : ℝ) else 0)
        + t * (if h.val = b.val then (1 : ℝ) else 0)) * g h = s * g a + t * g b := by
  calc ∑ h : Fin n, (s * (if h.val = a.val then (1 : ℝ) else 0)
          + t * (if h.val = b.val then (1 : ℝ) else 0)) * g h
      = ∑ h : Fin n, (s * ((if h.val = a.val then (1 : ℝ) else 0) * g h)
          + t * ((if h.val = b.val then (1 : ℝ) else 0) * g h)) := by
        refine Finset.sum_congr rfl (fun h _ => ?_)
        ring
    _ = s * ∑ h : Fin n, (if h.val = a.val then (1 : ℝ) else 0) * g h
          + t * ∑ h : Fin n, (if h.val = b.val then (1 : ℝ) else 0) * g h := by
        rw [Finset.sum_add_distrib, Finset.mul_sum, Finset.mul_sum]
    _ = s * g a + t * g b := by rw [sum_onehot, sum_onehot]

/-- An index k < H * W of a row-major H × W grid, split into (k / W, k % W), as a sum over the
grid: k ↦ (k / W, k % W) is a bijection from the indices below H * W onto the pairs (h, w) with
h < H and w < W (its inverse is (h, w) ↦ w + W * h), and a sum over pairs is a double sum. -/
theorem sum_grid (H W : ℕ) (g : ℕ → ℕ → ℝ) :
    ∑ k : Fin (H * W), g (k.val / W) (k.val % W) = ∑ h : Fin H, ∑ w : Fin W, g h.val w.val := by
  calc ∑ k : Fin (H * W), g (k.val / W) (k.val % W)
      = ∑ p : Fin H × Fin W, g p.1.val p.2.val :=
        Fintype.sum_equiv finProdFinEquiv.symm _ _ (fun _ => rfl)
    _ = ∑ h : Fin H, ∑ w : Fin W, g h.val w.val :=
        Fintype.sum_prod_type' (fun (h : Fin H) (w : Fin W) => g h.val w.val)

/-- The identity over ℝ: the dense sum over the grid against the four-corner weight row equals
the four-term bilinear combination. Write k = W * (k / W) + k % W, turn the sum over k into a
double sum over rows h and columns w, collapse the inner (column) sum with the two-hot lemma,
then the outer (row) sum the same way, and reorder the products. -/
theorem bilinear_real (H W : ℕ) (y0 y1 : Fin H) (x0 x1 : Fin W) (wy wx : ℝ) (f : ℕ → ℝ) :
    ∑ k : Fin (H * W),
      (((1 - wy) * (if k.val / W = y0.val then (1 : ℝ) else 0)
          + wy * (if k.val / W = y1.val then (1 : ℝ) else 0))
        * ((1 - wx) * (if k.val % W = x0.val then (1 : ℝ) else 0)
          + wx * (if k.val % W = x1.val then (1 : ℝ) else 0)))
        * f k.val
    = f (W * y0.val + x0.val) * (1 - wx) * (1 - wy) + f (W * y0.val + x1.val) * wx * (1 - wy)
      + f (W * y1.val + x0.val) * (1 - wx) * wy + f (W * y1.val + x1.val) * wx * wy := by
  -- the summand as a function of the row h and the column w
  let G : ℕ → ℕ → ℝ := fun h w =>
    (((1 - wy) * (if h = y0.val then (1 : ℝ) else 0) + wy * (if h = y1.val then (1 : ℝ) else 0))
      * ((1 - wx) * (if w = x0.val then (1 : ℝ) else 0) + wx * (if w = x1.val then (1 : ℝ) else 0)))
      * f (W * h + w)
  calc ∑ k : Fin (H * W),
        (((1 - wy) * (if k.val / W = y0.val then (1 : ℝ) else 0)
            + wy * (if k.val / W = y1.val then (1 : ℝ) else 0))
          * ((1 - wx) * (if k.val % W = x0.val then (1 : ℝ) else 0)
            + wx * (if k.val % W = x1.val then (1 : ℝ) else 0)))
          * f k.val
      = ∑ k : Fin (H * W), G (k.val / W) (k.val % W) := by
        -- k = W * (k / W) + k % W
        refine Finset.sum_congr rfl (fun k _ => ?_)
        show _ = _ * f (W * (k.val / W) + k.val % W)
        rw [Nat.div_add_mod]
    _ = ∑ h : Fin H, ∑ w : Fin W, G h.val w.val := sum_grid H W G
    _ = ∑ h : Fin H,
          ((1 - wy) * (if h.val = y0.val then (1 : ℝ) else 0)
            + wy * (if h.val = y1.val then (1 : ℝ) else 0))
          * ∑ w : Fin W,
              ((1 - wx) * (if w.val = x0.val then (1 : ℝ) else 0)
                + wx * (if w.val = x1.val then (1 : ℝ) else 0)) * f (W * h.val + w.val) := by
        -- the vertical factor does not depend on the column
        refine Finset.sum_congr rfl (fun h _ => ?_)
        rw [Finset.mul_sum]
        refine Finset.sum_congr rfl (fun w _ => ?_)
        show _ * _ * _ = _ * (_ * _)
        rw [mul_assoc]
    _ = ∑ h : Fin H,
          ((1 - wy) * (if h.val = y0.val then (1 : ℝ) else 0)
            + wy * (if h.val = y1.val then (1 : ℝ) else 0))
          * ((1 - wx) * f (W * h.val + x0.val) + wx * f (W * h.val + x1.val)) := by
        -- interpolation across, in each row
        refine Finset.sum_congr rfl (fun h _ => ?_)
        rw [sum_twohot x0 x1 (1 - wx) wx (fun w => f (W * h.val + w.val))]
    _ = (1 - wy) * ((1 - wx) * f (W * y0.val + x0.val) + wx * f (W * y0.val + x1.val))
          + wy * ((1 - wx) * f (W * y1.val + x0.val) + wx * f (W * y1.val + x1.val)) :=
        -- interpolation down
        sum_twohot y0 y1 (1 - wy) wy
          (fun h => (1 - wx) * f (W * h.val + x0.val) + wx * f (W * h.val + x1.val))
    _ = f (W * y0.val + x0.val) * (1 - wx) * (1 - wy) + f (W * y0.val + x1.val) * wx * (1 - wy)
          + f (W * y1.val + x0.val) * (1 - wx) * wy + f (W * y1.val + x1.val) * wx * wy := by
        ring

/-- An indicator with values 1 and 0 in EReal is the coercion of the indicator with values
1 and 0 in ℝ. -/
theorem coe_indicator (c : Prop) [Decidable c] :
    (if c then (1 : EReal) else 0) = (((if c then (1 : ℝ) else 0) : ℝ) : EReal) := by
  split_ifs
  · rw [EReal.coe_one]
  · rw [EReal.coe_zero]

/-- The same identity among the extended reals, every quantity the coercion of a real: each
summand is the coercion of the real summand, so the left side is the coercion of the real sum;
apply the real identity and distribute the coercion over the sums and products on the right. -/
theorem bilinear_ereal (H W : ℕ) (y0 y1 : Fin H) (x0 x1 : Fin W) (wy wx : ℝ) (f : ℕ → ℝ) :
    ∑ k : Fin (H * W),
      (((((1 - wy : ℝ) : EReal)) * (if k.val / W = y0.val then (1 : EReal) else 0)
          + (wy : EReal) * (if k.val / W = y1.val then (1 : EReal) else 0))
        * ((((1 - wx : ℝ) : EReal)) * (if k.val % W = x0.val then (1 : EReal) else 0)
          + (wx : EReal) * (if k.val % W = x1.val then (1 : EReal) else 0)))
        * ((f k.val : ℝ) : EReal)
    = ((f (W * y0.val + x0.val) : ℝ) : EReal) * ((1 - wx : ℝ) : EReal) * ((1 - wy : ℝ) : EReal)
      + ((f (W * y0.val + x1.val) : ℝ) : EReal) * (wx : EReal) * ((1 - wy : ℝ) : EReal)
      + ((f (W * y1.val + x0.val) : ℝ) : EReal) * ((1 - wx : ℝ) : EReal) * (wy : EReal)
      + ((f (W * y1.val + x1.val) : ℝ) : EReal) * (wx : EReal) * (wy : EReal) := by
  -- each summand is the coercion of the corresponding real summand
  have hterm : ∀ k : Fin (H * W),
      (((((1 - wy : ℝ) : EReal)) * (if k.val / W = y0.val then (1 : EReal) else 0)
          + (wy : EReal) * (if k.val / W = y1.val then (1 : EReal) else 0))
        * ((((1 - wx : ℝ) : EReal)) * (if k.val % W = x0.val then (1 : EReal) else 0)
          + (wx : EReal) * (if k.val % W = x1.val then (1 : EReal) else 0)))
        * ((f k.val : ℝ) : EReal)
      = (((((1 - wy) * (if k.val / W = y0.val then (1 : ℝ) else 0)
            + wy * (if k.val / W = y1.val then (1 : ℝ) else 0))
          * ((1 - wx) * (if k.val % W = x0.val then (1 : ℝ) else 0)
            + wx * (if k.val % W = x1.val then (1 : ℝ) else 0)))
          * f k.val : ℝ) : EReal) := by
    intro k
    rw [coe_indicator (k.val / W = y0.val), coe_indicator (k.val / W = y1.val),
      coe_indicator (k.val % W = x0.val), coe_indicator (k.val % W = x1.val)]
    simp only [EReal.coe_mul, EReal.coe_add]
  rw [Finset.sum_congr rfl (fun k _ => hterm k), ← coe_sum, bilinear_real]
  simp only [EReal.coe_add, EReal.coe_mul]

end Cert.Bilinear

end
-- ==== Proof.SampleMath.lean ====
import proofs.«137562_j58282706206954_1_alg».proof.Proof.LibPixelCoord
import proofs.«137562_j58282706206954_1_alg».proof.Proof.LibBilinear

/-!
# One bilinear sample, two ways

Fix one sample point and one channel. From the point's clipped pixel coordinates `xc, yc ∈ [0, 39]` both programs form
the floor `⌊t⌋`, the fractional weight `t - ⌊t⌋`, the integer index of the floor and the neighbouring index
`min (⌊t⌋ + 1) 39` on each axis. The kernel turns them into a row of 1600 weights — the outer product of two rows of 40,
each `(1 - w) · [h = i₀] + w · [h = i₁]` — and takes its inner product with the channel's 1600 pixels
(`kernelSample`). The reference reads the four corner pixels `(i, j)` at position `40 i + j` and adds them with the
weights `(1 - wx)(1 - wy)`, `wx (1 - wy)`, `(1 - wx) wy`, `wx wy` (`refSample`). For real pixel values the two agree
(`kernel_eq_ref`): every factor is then a real number, the one-hot rows pick the corners out of the sum, and the rest is
the distributive law.
-/

noncomputable section

namespace Cert.Sample

open Idealize.ShloMosaic
open scoped BigOperators

/-- The float literal one. -/
def one : EReal := Ideal.ofBits .f32 0x3F800000#32
/-- The floor of a coordinate, as the host computes it. -/
def flo (t : EReal) : EReal := Ideal.liftRound Int.floor t
/-- The fractional weight `t - ⌊t⌋`. -/
def frac (t : EReal) : EReal := t - flo t
/-- The index of the floor, converted to a 32-bit integer. -/
def idx0 (t : EReal) : BitVec 32 := Ideal.fptosi 32 (flo t)
/-- The neighbouring index, kept inside the image: `min (i₀ + 1) 39`. -/
def idx1 (t : EReal) : BitVec 32 := IntOp.minsi (IntOp.addi (idx0 t) 1#32) 39#32
/-- The indicator of position `h` being the index `v`, as a float: the comparison's bit converted. -/
def hot (v : BitVec 32) (h : ℕ) : EReal := FloatOps.uitofp (F := Ideal) .f32 (IntOp.cmpi .eq (BitVec.ofNat 32 h) v)
/-- One axis' row of 40 interpolation weights at position `h`. -/
def row (t : EReal) (h : ℕ) : EReal := (one - frac t) * hot (idx0 t) h + frac t * hot (idx1 t) h
/-- The kernel's value: the inner product of the 1600 outer-product weights with the pixels. -/
def kernelSample (xc yc : EReal) (img : Fin 1600 → EReal) : EReal :=
  ∑ k : Fin 1600, (row yc (k.val / 40) * row xc (k.val % 40)) * img k

/-- A gather's treatment of an index: a negative one is moved up by the extent (never the case here) … -/
def wrap (v : BitVec 32) : BitVec 32 := Scalar.select (IntOp.cmpi .slt v 0#32) (IntOp.addi v 40#32) v
/-- … and the result is read signed and clamped into `[0, 39]`. -/
def clampIdx (v : BitVec 32) : ℕ := min (wrap v).toInt.toNat 39
theorem clampIdx_le (v : BitVec 32) : clampIdx v ≤ 39 := Nat.min_le_right _ _
/-- The pixel the reference gathers for the corner `(vy, vx)`: position `40 · row + column`. -/
def corner (img : Fin 1600 → EReal) (vy vx : BitVec 32) : EReal :=
  img ⟨40 * clampIdx vy + clampIdx vx, by have := clampIdx_le vy; have := clampIdx_le vx; omega⟩
/-- The reference's value: the four corners with their weights, added in the reference's order. -/
def refSample (xc yc : EReal) (img : Fin 1600 → EReal) : EReal :=
  ((corner img (idx0 yc) (idx0 xc) * (one - frac xc) * (one - frac yc)
      + corner img (idx0 yc) (idx1 xc) * frac xc * (one - frac yc))
    + corner img (idx1 yc) (idx0 xc) * (one - frac xc) * frac yc)
  + corner img (idx1 yc) (idx1 xc) * frac xc * frac yc

/-! ## The two values agree

On each axis, a clipped coordinate `r ∈ [0, 39]` yields a real weight `w = r - ⌊r⌋` and two indices
`i₀ = ⌊r⌋` and `i₁ = min (⌊r⌋ + 1) 39` below 40 (`axis_facts`). With these, the kernel's sum is literally the
dense side of the bilinear identity and the reference's four terms its four-corner side. -/

/-- The clamped gather index of the word of a natural number `n ≤ 39` is `n`: the word is not negative as
    a signed number, so it is not moved up, it reads back as `n`, and `min n 39 = n`. -/
theorem clampIdx_ofNat (n : ℕ) (hn : n ≤ 39) : clampIdx (BitVec.ofNat 32 n) = n := by
  have hw : wrap (BitVec.ofNat 32 n) = BitVec.ofNat 32 n := PixelCoord.no_wrap n 40 (by omega)
  rw [clampIdx, hw, PixelCoord.toInt_toNat n (by omega)]
  exact Nat.min_eq_left hn

/-- At a position `h < 40`, the indicator of the word of an index `n < 40` is `1` when `h = n` and `0`
    otherwise. -/
theorem hot_ofNat (n h : ℕ) (hn : n < 40) (hh : h < 40) :
    hot (BitVec.ofNat 32 n) h = if h = n then (1 : EReal) else 0 :=
  PixelCoord.onehot n h (by omega) (by omega)

/-- Everything one axis contributes, for a coordinate `t = r ∈ [0, 39]`: the weight `frac t` is the real
    `w = r - ⌊r⌋` and `one - frac t` the real `1 - w`; with `i₀ = ⌊r⌋` and `i₁ = min (⌊r⌋ + 1) 39`, both
    below 40, the row of weights is `(1 - w) · [h = i₀] + w · [h = i₁]` at every position `h < 40`, and the
    reference's gather indices are `i₀` and `i₁`. -/
theorem axis_facts (t : EReal) (ht : ∃ r : ℝ, 0 ≤ r ∧ r ≤ 39 ∧ t = (r : EReal)) :
    ∃ (w : ℝ) (i0 i1 : Fin 40),
      frac t = (w : EReal) ∧ one - frac t = ((1 - w : ℝ) : EReal)
      ∧ (∀ h : ℕ, h < 40 → row t h
          = ((1 - w : ℝ) : EReal) * (if h = i0.val then (1 : EReal) else 0)
            + (w : EReal) * (if h = i1.val then (1 : EReal) else 0))
      ∧ clampIdx (idx0 t) = i0.val ∧ clampIdx (idx1 t) = i1.val := by
  obtain ⟨r, h0, h39, rfl⟩ := ht
  -- the floor of `r`, as a natural number, is at most 39, and so is its neighbour
  have hn : ⌊r⌋₊ ≤ 39 := PixelCoord.floor_toNat_le r h0 h39
  have hn1 : min (⌊r⌋₊ + 1) 39 ≤ 39 := Nat.min_le_right _ _
  -- the weight and its complement are real numbers
  have hfrac : frac (r : EReal) = ((Int.fract r : ℝ) : EReal) := PixelCoord.frac_coe r
  have hone : one - frac (r : EReal) = ((1 - Int.fract r : ℝ) : EReal) := by
    rw [hfrac]; exact PixelCoord.one_sub_coe (Int.fract r)
  -- the two indices are the words of `⌊r⌋` and of `min (⌊r⌋ + 1) 39`
  have hidx0 : idx0 (r : EReal) = BitVec.ofNat 32 ⌊r⌋₊ := PixelCoord.fptosi_floor r h0 h39
  have hidx1 : idx1 (r : EReal) = BitVec.ofNat 32 (min (⌊r⌋₊ + 1) 39) := by
    rw [idx1, hidx0]; exact PixelCoord.next_index ⌊r⌋₊ hn
  refine ⟨Int.fract r, ⟨⌊r⌋₊, by omega⟩, ⟨min (⌊r⌋₊ + 1) 39, by omega⟩, hfrac, hone, ?_, ?_, ?_⟩
  · -- the row: both indicators are those of numbers below 40
    intro h hh
    rw [row, hone, hfrac, hidx0, hidx1, hot_ofNat ⌊r⌋₊ h (by omega) hh,
      hot_ofNat (min (⌊r⌋₊ + 1) 39) h (by omega) hh]
  · rw [hidx0]; exact clampIdx_ofNat ⌊r⌋₊ hn
  · rw [hidx1]; exact clampIdx_ofNat (min (⌊r⌋₊ + 1) 39) hn1

/-- When the pixels are the real numbers `F 0, …, F 1599`, the corner the reference gathers at indices
    that clamp to `i` and `j` is `F (40 i + j)`. -/
theorem corner_coe (img : Fin 1600 → EReal) (F : ℕ → ℝ)
    (hF : ∀ k : Fin 1600, img k = ((F k.val : ℝ) : EReal))
    (vy vx : BitVec 32) (i j : ℕ) (hi : clampIdx vy = i) (hj : clampIdx vx = j) :
    corner img vy vx = ((F (40 * i + j) : ℝ) : EReal) := by
  subst hi hj
  rw [corner, hF]

/-- For real pixel values the kernel's dense product and the reference's four-corner sum agree: with the
    per-axis facts, the kernel's sum is the dense side of the bilinear identity for a `40 × 40` grid with
    corners `(y₀, x₀), (y₀, x₁), (y₁, x₀), (y₁, x₁)` and weights `wy, wx`, and the reference's value is its
    four-corner side. -/
theorem kernel_eq_ref (xc yc : EReal)
    (hx : ∃ r : ℝ, 0 ≤ r ∧ r ≤ 39 ∧ xc = (r : EReal)) (hy : ∃ r : ℝ, 0 ≤ r ∧ r ≤ 39 ∧ yc = (r : EReal))
    (img : Fin 1600 → EReal) (himg : ∀ k, ∃ r : ℝ, img k = (r : EReal)) :
    kernelSample xc yc img = refSample xc yc img := by
  -- the weight, the two indices and the row of weights on each axis
  obtain ⟨wx, x0, x1, hfx, hox, hrowx, hcx0, hcx1⟩ := axis_facts xc hx
  obtain ⟨wy, y0, y1, hfy, hoy, hrowy, hcy0, hcy1⟩ := axis_facts yc hy
  -- the pixels as a real function of the position (extended by zero beyond the image)
  choose f hf using himg
  let F : ℕ → ℝ := fun k => if h : k < 1600 then f ⟨k, h⟩ else 0
  have hF : ∀ k : Fin 1600, img k = ((F k.val : ℝ) : EReal) := by
    intro k
    show img k = (((if h : k.val < 1600 then f ⟨k.val, h⟩ else 0 : ℝ)) : EReal)
    rw [dif_pos k.isLt]
    exact hf k
  calc kernelSample xc yc img
      = ∑ k : Fin 1600,
          (((((1 - wy : ℝ) : EReal)) * (if k.val / 40 = y0.val then (1 : EReal) else 0)
              + (wy : EReal) * (if k.val / 40 = y1.val then (1 : EReal) else 0))
            * ((((1 - wx : ℝ) : EReal)) * (if k.val % 40 = x0.val then (1 : EReal) else 0)
              + (wx : EReal) * (if k.val % 40 = x1.val then (1 : EReal) else 0)))
            * ((F k.val : ℝ) : EReal) := by
        -- position `k` of the image is row `k / 40 < 40`, column `k % 40 < 40`
        rw [kernelSample]
        refine Finset.sum_congr rfl (fun k _ => ?_)
        have hk := k.isLt
        rw [hrowy (k.val / 40) (by omega), hrowx (k.val % 40) (by omega), hF k]
    _ = ((F (40 * y0.val + x0.val) : ℝ) : EReal) * ((1 - wx : ℝ) : EReal) * ((1 - wy : ℝ) : EReal)
          + ((F (40 * y0.val + x1.val) : ℝ) : EReal) * (wx : EReal) * ((1 - wy : ℝ) : EReal)
          + ((F (40 * y1.val + x0.val) : ℝ) : EReal) * ((1 - wx : ℝ) : EReal) * (wy : EReal)
          + ((F (40 * y1.val + x1.val) : ℝ) : EReal) * (wx : EReal) * (wy : EReal) :=
        Bilinear.bilinear_ereal 40 40 y0 y1 x0 x1 wy wx F
    _ = refSample xc yc img := by
        rw [refSample, corner_coe img F hF _ _ _ _ hcy0 hcx0, corner_coe img F hF _ _ _ _ hcy0 hcx1,
          corner_coe img F hF _ _ _ _ hcy1 hcx0, corner_coe img F hF _ _ _ _ hcy1 hcx1,
          hox, hoy, hfx, hfy]

end Cert.Sample

end
-- ==== Proof.KernelWeights.lean ====
import proofs.«137562_j58282706206954_1_alg».proof.Proof.Gen.KernelIdeal.Frame
import proofs.«137562_j58282706206954_1_alg».proof.Proof.SampleMath
import Idealize.ShloMosaic.Lib.Pipeline.Value
import Idealize.ShloMosaic.Lib.ValueIdx
import Idealize.ShloMosaic.Lib.StableHlo.Run

/-!
# The interpolation weights the host builds before the region

From the two arrays of clipped pixel coordinates, `xc, yc : [128, 36]` (one entry per batch element and sample point),
the last stretch of host lines before the region forms, per axis, the fractional weight `t - ⌊t⌋`, the index of the
floor and its neighbour `min (i₀ + 1) 39`; compares each index with the positions `0 … 39` to get one-hot rows;
blends the two rows with the weights `1 - w` and `w`; takes the outer product of the `y` row and the `x` row; and
flattens the `40 × 40` grid to 1600 pixels, row-major. Read at `(b, p, k)` the result is
`row (yc (b, p)) (k / 40) · row (xc (b, p)) (k % 40)` — the weight of pixel `k` in `Cert.Sample.kernelSample`.
-/

noncomputable section

namespace Cert.KernelIdeal.Sample

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-! ## The stretch as one function of the clipped coordinates -/

/-- The fractional weight `t - ⌊t⌋`, entry by entry. -/
def fracs (t : FVec F S128x36 .f32) : FVec F S128x36 .f32 := subf t (Host.floor t)
/-- The index of the floor. -/
def lows (t : FVec F S128x36 .f32) : IVec S128x36 32 := fptosi 32 (Host.floor t)
/-- The neighbouring index `min (i₀ + 1) 39`. -/
def highs (t : FVec F S128x36 .f32) : IVec S128x36 32 :=
  minsi (addi (lows t) (broadcastInDim S128x36 ![] bcast_S_S128x36 (constantI S_ 32 1#32)))
    (broadcastInDim S128x36 ![] bcast_S_S128x36 (constantI S_ 32 39#32))
/-- A `[128, 36]` array repeated along a new last axis of 40. -/
def spread {α : Type} (w : S128x36.Idx → α) : S128x36x40.Idx → α :=
  broadcastInDim S128x36x40 ![0, 1, 2] bcast_S128x36x1_S128x36x40_0_1_2
    (broadcastInDim S128x36x1 ![0, 1] bcast_S128x36_S128x36x1_0_1 w)
/-- The positions `0 … 39` along the last axis. -/
def positions : IVec S128x36x40 32 :=
  broadcastInDim S128x36x40 ![0, 1, 2] bcast_S1x1x40_S128x36x40_0_1_2
    (broadcastInDim S1x1x40 ![2] bcast_S40_S1x1x40_2 (iotaInDim S40 32 0))
/-- The one-hot rows of an index array. -/
def hotRows (v : IVec S128x36 32) : FVec F S128x36x40 .f32 := uitofp .f32 (cmpi .eq positions (spread v))
/-- One axis' rows of 40 interpolation weights: `(1 - w) · [h = i₀] + w · [h = i₁]`. -/
def rows (t : FVec F S128x36 .f32) : FVec F S128x36x40 .f32 :=
  addf
    (mulf (spread (subf (broadcastInDim S128x36 ![] bcast_S_S128x36 (constant S_ .f32 0x3F800000#32)) (fracs t)))
      (hotRows (lows t)))
    (mulf (spread (fracs t)) (hotRows (highs t)))
/-- The outer product of the `y` rows and the `x` rows, flattened to 1600 pixels. -/
def weightsOf (xc yc : FVec F S128x36 .f32) : FVec F S128x36x1600 .f32 :=
  shapeCast S128x36x1600
    (mulf
      (broadcastInDim S128x36x40x40 ![0, 1, 2, 3] bcast_S128x36x40x1_S128x36x40x40_0_1_2_3
        (broadcastInDim S128x36x40x1 ![0, 1, 2] bcast_S128x36x40_S128x36x40x1_0_1_2 (rows yc)))
      (broadcastInDim S128x36x40x40 ![0, 1, 2, 3] bcast_S128x36x1x40_S128x36x40x40_0_1_2_3
        (broadcastInDim S128x36x1x40 ![0, 1, 3] bcast_S128x36x40_S128x36x1x40_0_1_3 (rows xc))))
    shapeCasts_S128x36x40x40_S128x36x1600

set_option maxHeartbeats 4000000 in
/-- The last stretch of host lines before the region leaves `weightsOf` of the clipped coordinates it found in the
    weights' buffer. -/
theorem stretch_weights (W : Valuation τ sig (Elt F)) :
    after (hostOps0_4 (F := F)) W (Proc.devRef .tc main_v98)
      = weightsOf (W (Proc.devRef .tc main_v33)) (W (Proc.devRef .tc main_v34)) := by
  unfold hostOps0_4
  after_results_simp
  rfl

/-! ## Read at an index, among the extended reals -/

theorem spread_apply {α : Type} (w : S128x36.Idx → α) (b : Fin 128) (p : Fin 36) (h : Fin 40) :
    spread w (ix3 b p h) = w (ix2 b p) := by
  unfold spread
  refine (broadcastInDim_apply _ bcast_S128x36x1_S128x36x40_0_1_2 _ (ix3 b p h) (ix3 b p (0 : Fin 1)) (fun a => match a with
    | ⟨0, _⟩ => by show b.val = if (128 : Nat) = 1 then 0 else b.val; rw [if_neg (by decide)]
    | ⟨1, _⟩ => by show p.val = if (36 : Nat) = 1 then 0 else p.val; rw [if_neg (by decide)]
    | ⟨2, _⟩ => by show 0 = if (1 : Nat) = 1 then 0 else h.val; rw [if_pos rfl])).trans ?_
  exact broadcastInDim_apply _ bcast_S128x36_S128x36x1_0_1 w (ix3 b p (0 : Fin 1)) (ix2 b p) (fun a => match a with
    | ⟨0, _⟩ => by show b.val = if (128 : Nat) = 1 then 0 else b.val; rw [if_neg (by decide)]
    | ⟨1, _⟩ => by show p.val = if (36 : Nat) = 1 then 0 else p.val; rw [if_neg (by decide)])

theorem positions_apply (b : Fin 128) (p : Fin 36) (h : Fin 40) : positions (ix3 b p h) = BitVec.ofNat 32 h.val := by
  unfold positions
  refine (broadcastInDim_apply _ bcast_S1x1x40_S128x36x40_0_1_2 _ (ix3 b p h) (ix3 (0 : Fin 1) (0 : Fin 1) h) (fun a => match a with
    | ⟨0, _⟩ => by show 0 = if (1 : Nat) = 1 then 0 else b.val; rw [if_pos rfl]
    | ⟨1, _⟩ => by show 0 = if (1 : Nat) = 1 then 0 else p.val; rw [if_pos rfl]
    | ⟨2, _⟩ => by show h.val = if (40 : Nat) = 1 then 0 else h.val; rw [if_neg (by decide)])).trans ?_
  refine (broadcastInDim_apply _ bcast_S40_S1x1x40_2 _ (ix3 (0 : Fin 1) (0 : Fin 1) h) (ix1 h) (fun a => match a with
    | ⟨0, _⟩ => by show h.val = if (40 : Nat) = 1 then 0 else h.val; rw [if_neg (by decide)])).trans ?_
  rfl

/-- One axis' rows at `(b, p, h)`: the row of the mathematical statement at the clipped coordinate `t (b, p)`. -/
theorem rows_apply (t : FVec Ideal S128x36 .f32) (b : Fin 128) (p : Fin 36) (h : Fin 40) :
    rows (F := Ideal) t (ix3 b p h) = Cert.Sample.row (t (ix2 b p)) h.val := by
  unfold rows hotRows
  show spread (subf (broadcastInDim S128x36 ![] bcast_S_S128x36 (constant S_ .f32 0x3F800000#32)) (fracs t)) (ix3 b p h)
        * FloatOps.uitofp (F := Ideal) .f32 (IntOp.cmpi .eq (positions (ix3 b p h)) (spread (lows t) (ix3 b p h)))
      + spread (fracs t) (ix3 b p h)
        * FloatOps.uitofp (F := Ideal) .f32 (IntOp.cmpi .eq (positions (ix3 b p h)) (spread (highs t) (ix3 b p h))) = _
  rw [spread_apply, spread_apply, spread_apply, spread_apply, positions_apply]
  rfl

/-- THE WEIGHT of pixel `k` for batch element `b` and sample point `p`. -/
theorem weightsOf_apply (xc yc : FVec Ideal S128x36 .f32) (b : Fin 128) (p : Fin 36) (k : Fin 1600) :
    weightsOf (F := Ideal) xc yc (ix3 b p k)
      = Cert.Sample.row (yc (ix2 b p)) (k.val / 40) * Cert.Sample.row (xc (ix2 b p)) (k.val % 40) := by
  have hq : k.val / 40 < 40 := by have := k.isLt; omega
  have hr : k.val % 40 < 40 := Nat.mod_lt _ (by decide)
  unfold weightsOf
  refine (shapeCast_apply _ shapeCasts_S128x36x40x40_S128x36x1600 (ix3 b p k)
    (ix4 b p (⟨k.val / 40, hq⟩ : Fin 40) (⟨k.val % 40, hr⟩ : Fin 40)) (by
      rw [Shape.rowMajor_val_four, Shape.rowMajor_val_three]
      show ((b.val * 36 + p.val) * 40 + k.val / 40) * 40 + k.val % 40 = (b.val * 36 + p.val) * 1600 + k.val
      omega)).trans ?_
  show broadcastInDim S128x36x40x40 ![0, 1, 2, 3] bcast_S128x36x40x1_S128x36x40x40_0_1_2_3
        (broadcastInDim S128x36x40x1 ![0, 1, 2] bcast_S128x36x40_S128x36x40x1_0_1_2 (rows yc)) (ix4 b p ⟨k.val / 40, hq⟩ ⟨k.val % 40, hr⟩)
      * broadcastInDim S128x36x40x40 ![0, 1, 2, 3] bcast_S128x36x1x40_S128x36x40x40_0_1_2_3
        (broadcastInDim S128x36x1x40 ![0, 1, 3] bcast_S128x36x40_S128x36x1x40_0_1_3 (rows xc)) (ix4 b p ⟨k.val / 40, hq⟩ ⟨k.val % 40, hr⟩) = _
  have ey : broadcastInDim S128x36x40x40 ![0, 1, 2, 3] bcast_S128x36x40x1_S128x36x40x40_0_1_2_3
        (broadcastInDim S128x36x40x1 ![0, 1, 2] bcast_S128x36x40_S128x36x40x1_0_1_2 (rows yc)) (ix4 b p ⟨k.val / 40, hq⟩ ⟨k.val % 40, hr⟩)
      = rows yc (ix3 b p ⟨k.val / 40, hq⟩) := by
    refine (broadcastInDim_apply _ bcast_S128x36x40x1_S128x36x40x40_0_1_2_3 _ _ (ix4 b p (⟨k.val / 40, hq⟩ : Fin 40) (0 : Fin 1)) (fun a => match a with
      | ⟨0, _⟩ => by show b.val = if (128 : Nat) = 1 then 0 else b.val; rw [if_neg (by decide)]
      | ⟨1, _⟩ => by show p.val = if (36 : Nat) = 1 then 0 else p.val; rw [if_neg (by decide)]
      | ⟨2, _⟩ => by show k.val / 40 = if (40 : Nat) = 1 then 0 else k.val / 40; rw [if_neg (by decide)]
      | ⟨3, _⟩ => by show 0 = if (1 : Nat) = 1 then 0 else k.val % 40; rw [if_pos rfl])).trans ?_
    exact broadcastInDim_apply _ bcast_S128x36x40_S128x36x40x1_0_1_2 (rows yc) _ (ix3 b p (⟨k.val / 40, hq⟩ : Fin 40)) (fun a => match a with
      | ⟨0, _⟩ => by show b.val = if (128 : Nat) = 1 then 0 else b.val; rw [if_neg (by decide)]
      | ⟨1, _⟩ => by show p.val = if (36 : Nat) = 1 then 0 else p.val; rw [if_neg (by decide)]
      | ⟨2, _⟩ => by show k.val / 40 = if (40 : Nat) = 1 then 0 else k.val / 40; rw [if_neg (by decide)])
  have ex : broadcastInDim S128x36x40x40 ![0, 1, 2, 3] bcast_S128x36x1x40_S128x36x40x40_0_1_2_3
        (broadcastInDim S128x36x1x40 ![0, 1, 3] bcast_S128x36x40_S128x36x1x40_0_1_3 (rows xc)) (ix4 b p ⟨k.val / 40, hq⟩ ⟨k.val % 40, hr⟩)
      = rows xc (ix3 b p ⟨k.val % 40, hr⟩) := by
    refine (broadcastInDim_apply _ bcast_S128x36x1x40_S128x36x40x40_0_1_2_3 _ _ (ix4 b p (0 : Fin 1) (⟨k.val % 40, hr⟩ : Fin 40)) (fun a => match a with
      | ⟨0, _⟩ => by show b.val = if (128 : Nat) = 1 then 0 else b.val; rw [if_neg (by decide)]
      | ⟨1, _⟩ => by show p.val = if (36 : Nat) = 1 then 0 else p.val; rw [if_neg (by decide)]
      | ⟨2, _⟩ => by show 0 = if (1 : Nat) = 1 then 0 else k.val / 40; rw [if_pos rfl]
      | ⟨3, _⟩ => by show k.val % 40 = if (40 : Nat) = 1 then 0 else k.val % 40; rw [if_neg (by decide)])).trans ?_
    exact broadcastInDim_apply _ bcast_S128x36x40_S128x36x1x40_0_1_3 (rows xc) _ (ix3 b p (⟨k.val % 40, hr⟩ : Fin 40)) (fun a => match a with
      | ⟨0, _⟩ => by show b.val = if (128 : Nat) = 1 then 0 else b.val; rw [if_neg (by decide)]
      | ⟨1, _⟩ => by show p.val = if (36 : Nat) = 1 then 0 else p.val; rw [if_neg (by decide)]
      | ⟨2, _⟩ => by show k.val % 40 = if (40 : Nat) = 1 then 0 else k.val % 40; rw [if_neg (by decide)])
  rw [ey, ex, rows_apply, rows_apply]

end Cert.KernelIdeal.Sample

end
-- ==== Proof.KernelValue.lean ====
import proofs.«137562_j58282706206954_1_alg».proof.Proof.Gen.KernelIdeal.Frame
import proofs.«137562_j58282706206954_1_alg».proof.Proof.KernelBlocks
import proofs.«137562_j58282706206954_1_alg».proof.Proof.KernelWeights

/-!
# What the kernel's program returns

The host lines before the region split in two: a first stretch that ends with the two clipped pixel-coordinate arrays
(`xcK`, `ycK`: one entry per batch element and sample point), and the last stretch, which turns them into the
interpolation weights (`weightsOf`). The region then leaves in each output array the weighted sums of an image
(`sampled`), and the two lines after it swap the last two axes. So the first result is, at `(b, c, p)`,
`∑ k, weightsOf xcK ycK (b, p, k) · image₁ (b, c, k)`, the second the same of the second image, and the arguments are
unchanged.
-/

noncomputable section

namespace Cert.KernelIdeal.Sample

open Cert.KernelIdeal Cert.KernelIdeal.Gen Idealize.ShloMosaic Idealize.ShloMosaic.TcCoe Idealize.SL.Sem
open Idealize.ShloMosaic.ValueIdx Idealize.ShloMosaic.StableHlo

/-- Running two lists of host lines one after the other is running their concatenation. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

variable (m : (ℓ : Loc nD τ sig) → Buf (Elt Ideal) ℓ) (ρ : Dev nD → PrngReg)

/-- The buffers' contents after the first stretch of host lines (up to and including the two clips). -/
def Vpre (c : Dev nD) : Valuation τ sig (Elt Ideal) :=
  after (hostOps0 ++ (hostOps0_1 ++ (hostOps0_2 ++ hostOps0_3))) (fun b => m (c, b))
/-- The clipped `x` pixel coordinates, one per batch element and sample point. -/
def xcK (c : Dev nD) : FVec Ideal S128x36 .f32 := Vpre m c (Proc.devRef .tc main_v33)
/-- The clipped `y` pixel coordinates. -/
def ycK (c : Dev nD) : FVec Ideal S128x36 .f32 := Vpre m c (Proc.devRef .tc main_v34)

/-- The contents the region finds are the last stretch run from the first stretch's. -/
theorem V0_split (c : Dev nD) : V0 m c = after hostOps0_4 (Vpre m c) := by
  show after (List.flatten [hostOps0, hostOps0_1, hostOps0_2, hostOps0_3, hostOps0_4]) (fun b => m (c, b)) = _
  rw [show List.flatten [hostOps0 (F := Ideal), hostOps0_1, hostOps0_2, hostOps0_3, hostOps0_4]
      = (hostOps0 ++ (hostOps0_1 ++ (hostOps0_2 ++ hostOps0_3))) ++ hostOps0_4 from by
        simp only [List.flatten_cons, List.flatten_nil, List.append_nil, List.append_assoc], after_append]
  rfl

/-- The weights the region finds are `weightsOf` of the clipped coordinates. -/
theorem weights_eq (c : Dev nD) :
    (V m c main_v98 : S128x36x1600.Idx → EReal) = weightsOf (xcK m c) (ycK m c) := by
  show V0 m c (Proc.devRef .tc main_v98) = _
  rw [V0_split, stretch_weights]
  rfl

/-- The first result in terms of the clipped coordinates and the first image. -/
theorem tail100' (c : Dev nD) :
    Pipeline.afterTail₀ cfgs (dats m) 0 (V0 m) [hostOps1] c main_v100
      = transpose S128x256x36 [0, 2, 1] (sampled (weightsOf (xcK m c) (ycK m c)) (m ((c.tc : Thread nD τ).loc main_arg2)))
          transposes_S128x36x256_S128x256x36_0_2_1 := by
  rw [tail100, weights_eq, V_main_arg2]
/-- The second result likewise. -/
theorem tail101' (c : Dev nD) :
    Pipeline.afterTail₀ cfgs (dats m) 0 (V0 m) [hostOps1] c main_v101
      = transpose S128x256x36 [0, 2, 1] (sampled (weightsOf (xcK m c) (ycK m c)) (m ((c.tc : Thread nD τ).loc main_arg3)))
          transposes_S128x36x256_S128x256x36_0_2_1 := by
  rw [tail101, weights_eq, V_main_arg3]

/-- THE RUN, READ: every weakly fair execution terminates with the two results at the weighted sums and the arguments
    unchanged. -/
theorem run : θ_run defs (onTc (τ := τ) (main (F := Ideal))) ⟨m, fun _ => 0, ρ⟩ fun r => ∀ c : Dev nD,
      r.2.mem ((c.tc : Thread nD τ).loc main_v100)
        = transpose S128x256x36 [0, 2, 1] (sampled (weightsOf (xcK m c) (ycK m c)) (m ((c.tc : Thread nD τ).loc main_arg2)))
            transposes_S128x36x256_S128x256x36_0_2_1
      ∧ r.2.mem ((c.tc : Thread nD τ).loc main_v101)
        = transpose S128x256x36 [0, 2, 1] (sampled (weightsOf (xcK m c) (ycK m c)) (m ((c.tc : Thread nD τ).loc main_arg3)))
            transposes_S128x36x256_S128x256x36_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v100 (Pipeline.mem_restRefs_of main_v100 (by decide) (by decide))).trans (tail100' m c),
      ((h c).2 main_v101 (Pipeline.mem_restRefs_of main_v101 (by decide) (by decide))).trans (tail101' m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Sample

end
-- ==== Proof.KernelPrefix.lean ====
import proofs.«137562_j58282706206954_1_alg».proof.Proof.KernelValue
import proofs.«137562_j58282706206954_1_alg».proof.Proof.RefReadP

/-!
# Both programs compute the clipped coordinates by the same operations

Up to the two clips the kernel's host lines and the reference's are the same operations on the same arguments, in the
same order: the offsets `query · Wᵀ + b` reshaped to `(x, y)` pairs, the reference point added, the map to pixel
coordinates `((2 s - 1 + 1) · 40 - 1) / 2`, and the clip to `[0, 39]`. So the kernel's clipped coordinate arrays ARE
the reference's stages `%35` and `%36` of the kernel's arguments: the two terms unfold to one.
-/

noncomputable section

namespace Cert.KernelIdeal.Sample

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The kernel's clipped `x` coordinates are the reference's stage `%35` of the same arguments. -/
theorem xcK_eq (c : Dev nD) :
    xcK m c = Cert.ReferenceIdeal.ReadP.val_main_v35 (F := Ideal) (m ((c.tc : Thread nD τ).loc main_arg0))
      (m ((c.tc : Thread nD τ).loc main_arg1)) (m ((c.tc : Thread nD τ).loc main_arg4)) (m ((c.tc : Thread nD τ).loc main_arg5)) := by
  unfold xcK Vpre
  simp only [hostOps0, hostOps0_1, hostOps0_2, hostOps0_3, List.cons_append, List.nil_append]
  after_results_simp
  rfl

set_option maxHeartbeats 4000000 in
/-- The kernel's clipped `y` coordinates are the reference's stage `%36`. -/
theorem ycK_eq (c : Dev nD) :
    ycK m c = Cert.ReferenceIdeal.ReadP.val_main_v36 (F := Ideal) (m ((c.tc : Thread nD τ).loc main_arg0))
      (m ((c.tc : Thread nD τ).loc main_arg1)) (m ((c.tc : Thread nD τ).loc main_arg4)) (m ((c.tc : Thread nD τ).loc main_arg5)) := by
  unfold ycK Vpre
  simp only [hostOps0, hostOps0_1, hostOps0_2, hostOps0_3, List.cons_append, List.nil_append]
  after_results_simp
  rfl

end Cert.KernelIdeal.Sample

end
-- ==== Proof.RefGather.lean ====
import proofs.«137562_j58282706206954_1_alg».proof.Proof.Gen.ReferenceIdeal
import Idealize.ShloMosaic.Lib.Pipeline.Value
import Idealize.ShloMosaic.Lib.ValueIdx

/-!
# Reading one channel vector of an image at a (batch, row, column) triple

The reference program samples a feature map `x` of shape `[128, 40, 40, 256]` (batch, row, column,
channel) at `36` points per batch element. For each of the four corners of a bilinear sample it
builds three integer arrays of shape `[128, 36, 1]` — the batch number, the row and the column of the
corner —, lays them side by side along the last axis into one array `idx` of shape `[128, 36, 3]`,
and gathers: result element `(b, p, c)` is channel `c` of the pixel whose (batch, row, column) triple
is `idx[b, p, 0 .. 2]`.

This file reads both steps at one index.

* **The concatenation.** Three arrays of extent `1` along the last axis, laid end to end, give an array
  of extent `3` whose coordinate `n` on that axis falls in piece `n` at position `0`:
  `concat [u0, u1, u2] (b, p, n) = u_n (b, p, 0)` (`triple_apply_0`, `_1`, `_2`).
* **The gather.** Its dimension numbers say: the start index of result `(b, p, c)` is the vector
  `idx[b, p, ·]` (the index vector runs along axis `2` of `idx`), whose component `k` addresses operand
  axis `k` for `k = 0, 1, 2`; those three operand axes are collapsed (the slice has extent `1` there and
  the axis disappears from the result), and operand axis `3`, of slice extent `256`, is the result's
  one offset axis, axis `2`. The gather reads every start component as a signed integer and clamps it
  so that the slice fits, that is into `[0, size - 1]` on a collapsed axis. So
  `gather x idx (b, p, c) = x (min idx[b,p,0] 127, min idx[b,p,1] 39, min idx[b,p,2] 39, c)`, with each
  `idx[b,p,k]` read signed and a negative one taken to `0` (`gather_apply`).
-/

noncomputable section

namespace Cert.ReferenceIdeal.Sample

open Cert.ReferenceIdeal Cert.ReferenceIdeal.Gen Idealize.ShloMosaic Idealize.ShloMosaic.ValueIdx

/-- The reference's gather dimension numbers, under a short name. -/
abbrev gd : GatherDims S128x40x40x256 S128x36x3 S128x36x256 :=
  gather_S128x40x40x256_S128x36x3_S128x36x256_2_012_n_n_012_2_111256

/-! ## The concatenation of three index arrays along the last axis -/

/-- Off the last axis, the index `(b, p, 0)` into a piece and the index `(b, p, n)` into the concatenation have
    the same coordinates, `b` and `p`: the condition under which the concatenation at the second reads a piece
    at the first. -/
theorem off_axis (b : Fin 128) (p : Fin 36) (n : Fin 3) (hr : S128x36x1.rank = S128x36x3.rank) :
    ∀ a : Fin S128x36x1.rank, a.cast hr ≠ (2 : Fin S128x36x3.rank) →
      ((ix3 b p (0 : Fin 1)) a).val = ((ix3 b p n) (a.cast hr)).val := by
  intro a ha
  match a, ha with
  | ⟨0, _⟩, _ => rfl
  | ⟨1, _⟩, _ => rfl
  | ⟨2, _⟩, ha => exact absurd rfl ha

/-- Coordinate `0` of the last axis lies in the first piece (no extent before it, `0 + 0 = 0`), at its position `0`. -/
theorem triple_apply_0 {α : Type} (u0 u1 u2 : S128x36x1.Idx → α) (b : Fin 128) (p : Fin 36) :
    concatenate S128x36x3 2 [⟨S128x36x1, u0⟩, ⟨S128x36x1, u1⟩, ⟨S128x36x1, u2⟩]
      concatenates_S128x36x1_S128x36x1_S128x36x1_S128x36x3_d2 (ix3 b p (0 : Fin 3)) = u0 (ix3 b p (0 : Fin 1)) :=
  concatenate_apply_piece 2 _ _ (ix3 b p (0 : Fin 3)) 0 (by show 0 < 3; decide) S128x36x1 u0 rfl rfl 0 rfl
    (ix3 b p (0 : Fin 1)) (off_axis b p 0 rfl) rfl

/-- Coordinate `1` of the last axis lies in the second piece (one piece of extent `1` before it, `1 + 0 = 1`), at
    its position `0`. -/
theorem triple_apply_1 {α : Type} (u0 u1 u2 : S128x36x1.Idx → α) (b : Fin 128) (p : Fin 36) :
    concatenate S128x36x3 2 [⟨S128x36x1, u0⟩, ⟨S128x36x1, u1⟩, ⟨S128x36x1, u2⟩]
      concatenates_S128x36x1_S128x36x1_S128x36x1_S128x36x3_d2 (ix3 b p (1 : Fin 3)) = u1 (ix3 b p (0 : Fin 1)) :=
  concatenate_apply_piece 2 _ _ (ix3 b p (1 : Fin 3)) 1 (by show 1 < 3; decide) S128x36x1 u1 rfl rfl 1 rfl
    (ix3 b p (0 : Fin 1)) (off_axis b p 1 rfl) rfl

/-- Coordinate `2` of the last axis lies in the third piece (two pieces of extent `1` before it, `2 + 0 = 2`), at
    its position `0`. -/
theorem triple_apply_2 {α : Type} (u0 u1 u2 : S128x36x1.Idx → α) (b : Fin 128) (p : Fin 36) :
    concatenate S128x36x3 2 [⟨S128x36x1, u0⟩, ⟨S128x36x1, u1⟩, ⟨S128x36x1, u2⟩]
      concatenates_S128x36x1_S128x36x1_S128x36x1_S128x36x3_d2 (ix3 b p (2 : Fin 3)) = u2 (ix3 b p (0 : Fin 1)) :=
  concatenate_apply_piece 2 _ _ (ix3 b p (2 : Fin 3)) 2 (by show 2 < 3; decide) S128x36x1 u2 rfl rfl 2 rfl
    (ix3 b p (0 : Fin 1)) (off_axis b p 2 rfl) rfl

/-! ## The gather -/

/-- Component `k` of the start index of result element `(b, p, c)` is read from the index array at `(b, p, k)`: the
    result's two batch coordinates `b`, `p` on the index array's axes `0` and `1`, and `k` on its axis `2`, the one
    the index vector runs along. -/
theorem siIdx_eq (b : Fin 128) (p : Fin 36) (c : Fin 256) (k : Fin 3) (hk : k.val < gd.startIndexMap.length) :
    gd.siIdx (ix3 b p c) ⟨k.val, hk⟩ = ix3 b p k := by
  funext a
  refine Fin.ext ?_
  match a with
  | ⟨0, _⟩ => rfl
  | ⟨1, _⟩ => rfl
  | ⟨2, _⟩ => rfl

/-- The clamped start on an operand axis `a` that the start index names with its component `k` (`a` stands at position
    `k` of the start index map): the entry `idx[b, p, k]`, read as a signed integer, a negative one taken to `0`, and
    capped at the last position where a slice of the gather's extent still fits on that axis. -/
theorem start_eq (idx : IVec S128x36x3 32) (b : Fin 128) (p : Fin 36) (c : Fin 256) (a : Fin S128x40x40x256.rank)
    (k : Fin 3) (ha : a ∈ gd.startIndexMap) (hk : List.idxOf a gd.startIndexMap = k.val) :
    gd.start (ix3 b p c) idx a
      = min (idx (ix3 b p k)).toInt.toNat (S128x40x40x256.size a - gd.sliceSizes a) := by
  -- the start index map has three entries, and the position of `a` in it is `k`
  have hlt : k.val < gd.startIndexMap.length := k.isLt
  have hpos : (⟨List.idxOf a gd.startIndexMap, List.idxOf_lt_length_iff.2 ha⟩ : Fin gd.startIndexMap.length)
      = ⟨k.val, hlt⟩ := Fin.ext hk
  unfold GatherDims.start
  rw [dif_pos ha, hpos, siIdx_eq b p c k hlt]

/-- THE GATHER READ AT `(b, p, c)`: channel `c` of the pixel at batch `idx[b,p,0]`, row `idx[b,p,1]`, column
    `idx[b,p,2]`, each read signed and clamped into the operand (`[0, 127]`, `[0, 39]`, `[0, 39]`). -/
theorem gather_apply {α : Type} (x : S128x40x40x256.Idx → α) (idx : IVec S128x36x3 32) (b : Fin 128) (p : Fin 36)
    (c : Fin 256) :
    Host.gather gd x idx (ix3 b p c)
      = x (ix4 (⟨min (idx (ix3 b p (0 : Fin 3))).toInt.toNat 127, by omega⟩ : Fin 128)
               (⟨min (idx (ix3 b p (1 : Fin 3))).toInt.toNat 39, by omega⟩ : Fin 40)
               (⟨min (idx (ix3 b p (2 : Fin 3))).toInt.toNat 39, by omega⟩ : Fin 40) c) := by
  -- the gather reads the operand at the operand index of `(b, p, c)`; compare the two operand indices axis by axis
  show x (gd.operandIdx (ix3 b p c) idx) = _
  refine congrArg x (funext fun a => Fin.ext ?_)
  -- on every axis the operand index is: clamped start + batching coordinate + offset coordinate
  match a with
  | ⟨0, _⟩ =>
    -- axis 0 (batch) is collapsed and named by start component 0: only the clamped start is left
    show gd.start (ix3 b p c) idx 0 + gd.batchCoord (ix3 b p c) 0 + gd.offCoord (ix3 b p c) 0
      = min (idx (ix3 b p (0 : Fin 3))).toInt.toNat 127
    rw [GatherDims.batchCoord_eq_zero gd _ _ (by decide), GatherDims.offCoord_eq_zero gd _ _ (by decide),
      Nat.add_zero, start_eq idx b p c 0 0 (by decide) rfl]
    rfl
  | ⟨1, _⟩ =>
    -- axis 1 (row) likewise, by start component 1, clamped to `40 - 1`
    show gd.start (ix3 b p c) idx 1 + gd.batchCoord (ix3 b p c) 1 + gd.offCoord (ix3 b p c) 1
      = min (idx (ix3 b p (1 : Fin 3))).toInt.toNat 39
    rw [GatherDims.batchCoord_eq_zero gd _ _ (by decide), GatherDims.offCoord_eq_zero gd _ _ (by decide),
      Nat.add_zero, start_eq idx b p c 1 1 (by decide) rfl]
    rfl
  | ⟨2, _⟩ =>
    -- axis 2 (column) likewise, by start component 2
    show gd.start (ix3 b p c) idx 2 + gd.batchCoord (ix3 b p c) 2 + gd.offCoord (ix3 b p c) 2
      = min (idx (ix3 b p (2 : Fin 3))).toInt.toNat 39
    rw [GatherDims.batchCoord_eq_zero gd _ _ (by decide), GatherDims.offCoord_eq_zero gd _ _ (by decide),
      Nat.add_zero, start_eq idx b p c 2 2 (by decide) rfl]
    rfl
  | ⟨3, _⟩ =>
    -- axis 3 (channel) is not named by the start index, so the start is 0; it is the one kept axis, so the offset
    -- coordinate is the result's coordinate on its offset axis 2, which is `c`
    show gd.start (ix3 b p c) idx 3 + gd.batchCoord (ix3 b p c) 3 + gd.offCoord (ix3 b p c) 3 = c.val
    rw [GatherDims.batchCoord_eq_zero gd _ _ (by decide), Nat.add_zero]
    unfold GatherDims.start GatherDims.offCoord
    rw [dif_neg (by decide), dif_pos (by decide), Nat.zero_add]
    rfl

end Cert.ReferenceIdeal.Sample

end
-- ==== Proof.RefCorners.lean ====
import proofs.«137562_j58282706206954_1_alg».proof.Proof.RefReadP
import proofs.«137562_j58282706206954_1_alg».proof.Proof.RefGather
import proofs.«137562_j58282706206954_1_alg».proof.Proof.SampleMath

/-!
# The reference's eight gathers are the four corner pixels of each image

For batch element `b`, sample point `p` and channel `ch`, the reference reads four pixels of the channel's
`40 × 40` image `a[b, ch, ·]` (stored as a row of `1600` numbers, pixel `(row, column)` at position
`40 · row + column`): the corners `(⌊y⌋, ⌊x⌋)`, `(⌊y⌋, x₁)`, `(y₁, ⌊x⌋)`, `(y₁, x₁)` around the sample point
`(x, y)`, where `x₁ = min (⌊x⌋ + 1) 39` and `y₁ = min (⌊y⌋ + 1) 39`. It does so once for each of its two images.

Each read is one gather. Its operand is the image array `[128, 256, 1600]` viewed as `[128, 256, 40, 40]` and with
the channel axis moved last, `[128, 40, 40, 256]`. Its start indices are three integer arrays laid side by side: the
batch number `b` (an iota), the row index and the column index, each first passed through "a negative index counts
from the end" (`v < 0 ? v + extent : v`), then each `[128, 36]` array given a trailing axis of extent one. The gather
reads each component signed and clamps it into the operand.

So the gather at `(b, p, ch)` reads the transposed, reshaped image at (batch `b`, row `clamp (wrap vy)`, column
`clamp (wrap vx)`, channel `ch`), which is the original image at `(b, ch, 40 · row + column)`: the pixel
`Cert.Sample.corner` names. `stage_corner` proves this once, for any three index arrays of that form; the eight
theorems `corner00` … `corner11'` instantiate it with the stages of the program, whose row and column words are by
definition `Cert.Sample.idx0` / `idx1` of the clipped coordinates.
-/

noncomputable section

namespace Cert.ReferenceIdeal.Sample

open Cert.ReferenceIdeal Cert.ReferenceIdeal.Gen Cert.ReferenceIdeal.ReadP Idealize.ShloMosaic
  Idealize.ShloMosaic.ValueIdx

variable (a0 : S128x256.Idx → EReal) (a1 : S128x2.Idx → EReal) (a2 a3 : S128x256x1600.Idx → EReal)
  (a4 : S72x256.Idx → EReal) (a5 : S72.Idx → EReal)

/-! ## Broadcasts read at an index -/

section Broadcasts
variable {α : Type}

/-- A `[128, 36]` array given a trailing axis of extent one reads, at `(b, p, 0)`, its element `(b, p)`. -/
theorem lift_apply (y : S128x36.Idx → α) (b : Fin 128) (p : Fin 36) :
    broadcastInDim S128x36x1 ![0, 1] bcast_S128x36_S128x36x1_0_1 y (ix3 b p (0 : Fin 1)) = y (ix2 b p) :=
  broadcastInDim_apply _ bcast_S128x36_S128x36x1_0_1 y (ix3 b p (0 : Fin 1)) (ix2 b p) (fun a => match a with
    | ⟨0, _⟩ => by show b.val = if (128 : Nat) = 1 then 0 else b.val; rw [if_neg (by decide)]
    | ⟨1, _⟩ => by show p.val = if (36 : Nat) = 1 then 0 else p.val; rw [if_neg (by decide)])

/-- A `[128, 1]` column repeated along a second axis of extent `36` reads, at `(b, p)`, its element `(b, 0)`. -/
theorem column_apply (y : S128x1.Idx → α) (b : Fin 128) (p : Fin 36) :
    broadcastInDim S128x36 ![0, 1] bcast_S128x1_S128x36_0_1 y (ix2 b p) = y (ix2 b (0 : Fin 1)) :=
  broadcastInDim_apply _ bcast_S128x1_S128x36_0_1 y (ix2 b p) (ix2 b (0 : Fin 1)) (fun a => match a with
    | ⟨0, _⟩ => by show b.val = if (128 : Nat) = 1 then 0 else b.val; rw [if_neg (by decide)]
    | ⟨1, _⟩ => by show 0 = if (1 : Nat) = 1 then 0 else p.val; rw [if_pos rfl])

end Broadcasts

/-- The iota `0, 1, …, 127` as a `[128, 1]` column reads, at `(b, 0)`, the word of `b`. -/
theorem iota_apply (b : Fin 128) :
    broadcastInDim S128x1 ![0] bcast_S128_S128x1_0 (iotaInDim S128 32 0) (ix2 b (0 : Fin 1)) = BitVec.ofNat 32 b.val :=
  broadcastInDim_apply _ bcast_S128_S128x1_0 (iotaInDim S128 32 0) (ix2 b (0 : Fin 1)) (ix1 b) (fun a => match a with
    | ⟨0, _⟩ => by show b.val = if (128 : Nat) = 1 then 0 else b.val; rw [if_neg (by decide)])

/-! ## "A negative index counts from the end" -/

/-- On the batch component: where the array `v` holds the word of a number `n < 2 ^ 31`, the correction
    `v < 0 ? v + 128 : v` leaves it, because that word is not negative as a signed number. -/
theorem batch_select (v c0 c128 : S128x1.Idx → BitVec 32) (i : S128x1.Idx) (n : ℕ) (hn : n < 2 ^ 31)
    (hv : v i = BitVec.ofNat 32 n) (h0 : c0 i = 0#32) (h128 : c128 i = 128#32) :
    select (cmpi .slt v c0) (addi v c128) v i = BitVec.ofNat 32 n := by
  -- all four operations act element by element
  show Scalar.select (IntOp.cmpi .slt (v i) (c0 i)) (IntOp.addi (v i) (c128 i)) (v i) = BitVec.ofNat 32 n
  rw [hv, h0, h128]
  exact Cert.PixelCoord.no_wrap n 128 hn

/-- On a row or column component: the correction `v < 0 ? v + 40 : v`, element by element, is `Cert.Sample.wrap`. -/
theorem wrap_select (v c0 c40 : S128x36.Idx → BitVec 32) (i : S128x36.Idx) (h0 : c0 i = 0#32) (h40 : c40 i = 40#32) :
    select (cmpi .slt v c0) (addi v c40) v i = Cert.Sample.wrap (v i) := by
  show Scalar.select (IntOp.cmpi .slt (v i) (c0 i)) (IntOp.addi (v i) (c40 i)) (v i) = Cert.Sample.wrap (v i)
  rw [h0, h40]
  rfl

/-! ## The image as the gather sees it -/

/-- Element `(B, R, C, ch)` of the transposed array is element `(B, ch, R, C)` of the `[128, 256, 40, 40]` view,
    whose row-major position `((B · 256 + ch) · 40 + R) · 40 + C` is that of element `(B, ch, 40 R + C)` of the
    `[128, 256, 1600]` array: dividing by `256 · 1600` gives `B`, dividing by `1600` and reducing mod `256` gives
    `ch`, and reducing mod `1600` gives `40 R + C`. -/
theorem image_idx (B : Fin 128) (R C : Fin 40) (ch : Fin 256) :
    idx_main_v9 (idx_main_v53 (ix4 B R C ch))
      = ix3 B ch (⟨40 * R.val + C.val, by have := R.isLt; have := C.isLt; omega⟩ : Fin 1600) := by
  have hB := B.isLt
  have hR := R.isLt
  have hC := C.isLt
  have hch := ch.isLt
  funext a
  refine Fin.ext ?_
  match a with
  | ⟨0, _⟩ =>
    show (((B.val * 256 + ch.val) * 40 + R.val) * 40 + C.val) / 409600 = B.val
    omega
  | ⟨1, _⟩ =>
    show (((B.val * 256 + ch.val) * 40 + R.val) * 40 + C.val) / 1600 % 256 = ch.val
    omega
  | ⟨2, _⟩ =>
    show (((B.val * 256 + ch.val) * 40 + R.val) * 40 + C.val) % 1600 = 40 * R.val + C.val
    omega

/-- The image array `x : [128, 256, 1600]` as the gathers' operand: viewed as `[128, 256, 40, 40]`, then with the
    channel axis moved last. (Both images go through these same two operations.) -/
abbrev pixels (x : S128x256x1600.Idx → EReal) : S128x40x40x256.Idx → EReal :=
  transpose S128x40x40x256 [0, 2, 3, 1] (shapeCast S128x256x40x40 x shapeCasts_S128x256x1600_S128x256x40x40)
    transposes_S128x256x40x40_S128x40x40x256_0_2_3_1

/-- The operand at (batch `B`, row `R`, column `C`, channel `ch`) is the image at `(B, ch, 40 R + C)`. -/
theorem pixels_apply (x : S128x256x1600.Idx → EReal) (B : Fin 128) (R C : Fin 40) (ch : Fin 256) :
    pixels x (ix4 B R C ch)
      = x (ix3 B ch (⟨40 * R.val + C.val, by have := R.isLt; have := C.isLt; omega⟩ : Fin 1600)) := by
  -- `pixels x` is, by definition, the stage `%53` of the program applied to `x`
  show val_main_v53 (F := Ideal) x (ix4 B R C ch) = _
  rw [val_main_v53_apply, val_main_v9_apply, image_idx]

/-! ## One gather -/

/-- A gather of the operand `pixels x` whose start index at `(b, p)` is (the word of `b`, `wrap vy`, `wrap vx`) reads, at
    `(b, p, ch)`, the pixel `Cert.Sample.corner` names: the batch word reads back as `b ≤ 127`, the row and column
    words are clamped as `Cert.Sample.clampIdx` clamps them, and the operand there is the image at position
    `40 · row + column`. -/
theorem gather_corner (x : S128x256x1600.Idx → EReal) (idx : IVec S128x36x3 32) (b : Fin 128) (p : Fin 36)
    (ch : Fin 256) (vy vx : BitVec 32)
    (h0 : idx (ix3 b p (0 : Fin 3)) = BitVec.ofNat 32 b.val)
    (h1 : idx (ix3 b p (1 : Fin 3)) = Cert.Sample.wrap vy)
    (h2 : idx (ix3 b p (2 : Fin 3)) = Cert.Sample.wrap vx) :
    Host.gather gd (pixels x) idx (ix3 b p ch) = Cert.Sample.corner (fun k => x (ix3 b ch k)) vy vx := by
  rw [gather_apply, pixels_apply]
  -- both sides are `x` at an index of the `[128, 256, 1600]` array; compare the indices axis by axis
  show x _ = x _
  refine congrArg x (funext fun a => Fin.ext ?_)
  match a with
  | ⟨0, _⟩ =>
    -- the batch word is the word of `b < 2 ^ 31`: it reads back as `b`, and `min b 127 = b`
    show min (idx (ix3 b p (0 : Fin 3))).toInt.toNat 127 = b.val
    have hb := b.isLt
    rw [h0, Cert.PixelCoord.toInt_toNat b.val (by omega)]
    omega
  | ⟨1, _⟩ => rfl
  | ⟨2, _⟩ =>
    show 40 * min (idx (ix3 b p (1 : Fin 3))).toInt.toNat 39 + min (idx (ix3 b p (2 : Fin 3))).toInt.toNat 39
      = 40 * Cert.Sample.clampIdx vy + Cert.Sample.clampIdx vx
    rw [h1, h2]
    rfl

/-- THE GENERIC GATHER OF THE PROGRAM: the start indices are the concatenation of a batch column `wb` (repeated along
    the points, then given a trailing axis) and of a row array `wy` and a column array `wx` (each given a trailing
    axis). If at `(b, p)` these hold the word of `b`, `wrap vy` and `wrap vx`, the gather reads the corner `(vy, vx)`
    of the image `x[b, ch, ·]`. -/
theorem stage_corner (x : S128x256x1600.Idx → EReal) (wb : S128x1.Idx → BitVec 32) (wy wx : S128x36.Idx → BitVec 32)
    (b : Fin 128) (p : Fin 36) (ch : Fin 256) (vy vx : BitVec 32)
    (hb : wb (ix2 b (0 : Fin 1)) = BitVec.ofNat 32 b.val)
    (hy : wy (ix2 b p) = Cert.Sample.wrap vy) (hx : wx (ix2 b p) = Cert.Sample.wrap vx) :
    Host.gather gd (pixels x)
      (concatenate S128x36x3 2
        [⟨S128x36x1, broadcastInDim S128x36x1 ![0, 1] bcast_S128x36_S128x36x1_0_1
            (broadcastInDim S128x36 ![0, 1] bcast_S128x1_S128x36_0_1 wb)⟩,
          ⟨S128x36x1, broadcastInDim S128x36x1 ![0, 1] bcast_S128x36_S128x36x1_0_1 wy⟩,
          ⟨S128x36x1, broadcastInDim S128x36x1 ![0, 1] bcast_S128x36_S128x36x1_0_1 wx⟩]
        concatenates_S128x36x1_S128x36x1_S128x36x1_S128x36x3_d2) (ix3 b p ch)
      = Cert.Sample.corner (fun k => x (ix3 b ch k)) vy vx := by
  refine gather_corner x _ b p ch vy vx ?_ ?_ ?_
  · -- component 0 is the first piece at `(b, p, 0)`: the batch column at `(b, 0)`
    rw [triple_apply_0, lift_apply, column_apply, hb]
  · -- component 1 is the second piece at `(b, p, 0)`: the row array at `(b, p)`
    rw [triple_apply_1, lift_apply, hy]
  · -- component 2 is the third piece at `(b, p, 0)`: the column array at `(b, p)`
    rw [triple_apply_2, lift_apply, hx]

/-! ## The eight gathers of the program

In each, the batch column is the iota `%55` (second output: `%208`) passed through `v < 0 ? v + 128 : v`; the row and
column arrays are `v < 0 ? v + 40 : v` of the integer stages `%44 = idx0 y`, `%43 = idx0 x`, `%52 = idx1 y`,
`%48 = idx1 x` (second output: `%197`, `%196`, `%205`, `%201`), where `x = %35`, `y = %36` are the clipped coordinates
(second output: `%188`, `%189`). Every constant array reads its constant by definition, and each integer stage is by
definition `Cert.Sample.idx0` or `idx1` of the coordinate at the same index. -/

/-- The first output's gather `%76` reads, for channel `ch`, the pixel of the image `a2[b, ch, ·]` at row `⌊y⌋`,
    column `⌊x⌋`. -/
theorem corner00 (b : Fin 128) (p : Fin 36) (ch : Fin 256) :
    val_main_v76 (F := Ideal) a0 a1 a2 a4 a5 (ix3 b p ch)
      = Cert.Sample.corner (fun k => a2 (ix3 b ch k))
          (Cert.Sample.idx0 (val_main_v36 (F := Ideal) a0 a1 a4 a5 (ix2 b p)))
          (Cert.Sample.idx0 (val_main_v35 (F := Ideal) a0 a1 a4 a5 (ix2 b p))) := by
  -- the start index of `%76` is (batch `%60`, row `%65` = wrap of `%44`, column `%70` = wrap of `%43`)
  refine stage_corner a2 (val_main_v60 (F := Ideal)) (val_main_v65 (F := Ideal) a0 a1 a4 a5)
    (val_main_v70 (F := Ideal) a0 a1 a4 a5) b p ch _ _ ?_ ?_ ?_
  · exact batch_select (val_main_v55 (F := Ideal)) (val_main_v56 (F := Ideal)) (val_main_v58 (F := Ideal))
      (ix2 b (0 : Fin 1)) b.val (by have := b.isLt; omega) (iota_apply b) rfl rfl
  · exact wrap_select (val_main_v44 (F := Ideal) a0 a1 a4 a5) (val_main_v61 (F := Ideal)) (val_main_v63 (F := Ideal))
      (ix2 b p) rfl rfl
  · exact wrap_select (val_main_v43 (F := Ideal) a0 a1 a4 a5) (val_main_v66 (F := Ideal)) (val_main_v68 (F := Ideal))
      (ix2 b p) rfl rfl

/-- The gather `%97` reads the pixel at row `⌊y⌋`, column `min (⌊x⌋ + 1) 39`. -/
theorem corner01 (b : Fin 128) (p : Fin 36) (ch : Fin 256) :
    val_main_v97 (F := Ideal) a0 a1 a2 a4 a5 (ix3 b p ch)
      = Cert.Sample.corner (fun k => a2 (ix3 b ch k))
          (Cert.Sample.idx0 (val_main_v36 (F := Ideal) a0 a1 a4 a5 (ix2 b p)))
          (Cert.Sample.idx1 (val_main_v35 (F := Ideal) a0 a1 a4 a5 (ix2 b p))) := by
  -- the start index of `%97` is (batch `%81`, row `%86` = wrap of `%44`, column `%91` = wrap of `%48`)
  refine stage_corner a2 (val_main_v81 (F := Ideal)) (val_main_v86 (F := Ideal) a0 a1 a4 a5)
    (val_main_v91 (F := Ideal) a0 a1 a4 a5) b p ch _ _ ?_ ?_ ?_
  · exact batch_select (val_main_v55 (F := Ideal)) (val_main_v77 (F := Ideal)) (val_main_v79 (F := Ideal))
      (ix2 b (0 : Fin 1)) b.val (by have := b.isLt; omega) (iota_apply b) rfl rfl
  · exact wrap_select (val_main_v44 (F := Ideal) a0 a1 a4 a5) (val_main_v82 (F := Ideal)) (val_main_v84 (F := Ideal))
      (ix2 b p) rfl rfl
  · exact wrap_select (val_main_v48 (F := Ideal) a0 a1 a4 a5) (val_main_v87 (F := Ideal)) (val_main_v89 (F := Ideal))
      (ix2 b p) rfl rfl

/-- The gather `%118` reads the pixel at row `min (⌊y⌋ + 1) 39`, column `⌊x⌋`. -/
theorem corner10 (b : Fin 128) (p : Fin 36) (ch : Fin 256) :
    val_main_v118 (F := Ideal) a0 a1 a2 a4 a5 (ix3 b p ch)
      = Cert.Sample.corner (fun k => a2 (ix3 b ch k))
          (Cert.Sample.idx1 (val_main_v36 (F := Ideal) a0 a1 a4 a5 (ix2 b p)))
          (Cert.Sample.idx0 (val_main_v35 (F := Ideal) a0 a1 a4 a5 (ix2 b p))) := by
  -- the start index of `%118` is (batch `%102`, row `%107` = wrap of `%52`, column `%112` = wrap of `%43`)
  refine stage_corner a2 (val_main_v102 (F := Ideal)) (val_main_v107 (F := Ideal) a0 a1 a4 a5)
    (val_main_v112 (F := Ideal) a0 a1 a4 a5) b p ch _ _ ?_ ?_ ?_
  · exact batch_select (val_main_v55 (F := Ideal)) (val_main_v98 (F := Ideal)) (val_main_v100 (F := Ideal))
      (ix2 b (0 : Fin 1)) b.val (by have := b.isLt; omega) (iota_apply b) rfl rfl
  · exact wrap_select (val_main_v52 (F := Ideal) a0 a1 a4 a5) (val_main_v103 (F := Ideal)) (val_main_v105 (F := Ideal))
      (ix2 b p) rfl rfl
  · exact wrap_select (val_main_v43 (F := Ideal) a0 a1 a4 a5) (val_main_v108 (F := Ideal)) (val_main_v110 (F := Ideal))
      (ix2 b p) rfl rfl

/-- The gather `%139` reads the pixel at row `min (⌊y⌋ + 1) 39`, column `min (⌊x⌋ + 1) 39`. -/
theorem corner11 (b : Fin 128) (p : Fin 36) (ch : Fin 256) :
    val_main_v139 (F := Ideal) a0 a1 a2 a4 a5 (ix3 b p ch)
      = Cert.Sample.corner (fun k => a2 (ix3 b ch k))
          (Cert.Sample.idx1 (val_main_v36 (F := Ideal) a0 a1 a4 a5 (ix2 b p)))
          (Cert.Sample.idx1 (val_main_v35 (F := Ideal) a0 a1 a4 a5 (ix2 b p))) := by
  -- the start index of `%139` is (batch `%123`, row `%128` = wrap of `%52`, column `%133` = wrap of `%48`)
  refine stage_corner a2 (val_main_v123 (F := Ideal)) (val_main_v128 (F := Ideal) a0 a1 a4 a5)
    (val_main_v133 (F := Ideal) a0 a1 a4 a5) b p ch _ _ ?_ ?_ ?_
  · exact batch_select (val_main_v55 (F := Ideal)) (val_main_v119 (F := Ideal)) (val_main_v121 (F := Ideal))
      (ix2 b (0 : Fin 1)) b.val (by have := b.isLt; omega) (iota_apply b) rfl rfl
  · exact wrap_select (val_main_v52 (F := Ideal) a0 a1 a4 a5) (val_main_v124 (F := Ideal)) (val_main_v126 (F := Ideal))
      (ix2 b p) rfl rfl
  · exact wrap_select (val_main_v48 (F := Ideal) a0 a1 a4 a5) (val_main_v129 (F := Ideal)) (val_main_v131 (F := Ideal))
      (ix2 b p) rfl rfl

/-- The second output's gather `%229` reads, for channel `ch`, the pixel of the image `a3[b, ch, ·]` at row `⌊y⌋`,
    column `⌊x⌋`. -/
theorem corner00' (b : Fin 128) (p : Fin 36) (ch : Fin 256) :
    val_main_v229 (F := Ideal) a0 a1 a3 a4 a5 (ix3 b p ch)
      = Cert.Sample.corner (fun k => a3 (ix3 b ch k))
          (Cert.Sample.idx0 (val_main_v189 (F := Ideal) a0 a1 a4 a5 (ix2 b p)))
          (Cert.Sample.idx0 (val_main_v188 (F := Ideal) a0 a1 a4 a5 (ix2 b p))) := by
  -- the start index of `%229` is (batch `%213`, row `%218` = wrap of `%197`, column `%223` = wrap of `%196`)
  refine stage_corner a3 (val_main_v213 (F := Ideal)) (val_main_v218 (F := Ideal) a0 a1 a4 a5)
    (val_main_v223 (F := Ideal) a0 a1 a4 a5) b p ch _ _ ?_ ?_ ?_
  · exact batch_select (val_main_v208 (F := Ideal)) (val_main_v209 (F := Ideal)) (val_main_v211 (F := Ideal))
      (ix2 b (0 : Fin 1)) b.val (by have := b.isLt; omega) (iota_apply b) rfl rfl
  · exact wrap_select (val_main_v197 (F := Ideal) a0 a1 a4 a5) (val_main_v214 (F := Ideal)) (val_main_v216 (F := Ideal))
      (ix2 b p) rfl rfl
  · exact wrap_select (val_main_v196 (F := Ideal) a0 a1 a4 a5) (val_main_v219 (F := Ideal)) (val_main_v221 (F := Ideal))
      (ix2 b p) rfl rfl

/-- The gather `%250` reads the pixel at row `⌊y⌋`, column `min (⌊x⌋ + 1) 39`. -/
theorem corner01' (b : Fin 128) (p : Fin 36) (ch : Fin 256) :
    val_main_v250 (F := Ideal) a0 a1 a3 a4 a5 (ix3 b p ch)
      = Cert.Sample.corner (fun k => a3 (ix3 b ch k))
          (Cert.Sample.idx0 (val_main_v189 (F := Ideal) a0 a1 a4 a5 (ix2 b p)))
          (Cert.Sample.idx1 (val_main_v188 (F := Ideal) a0 a1 a4 a5 (ix2 b p))) := by
  -- the start index of `%250` is (batch `%234`, row `%239` = wrap of `%197`, column `%244` = wrap of `%201`)
  refine stage_corner a3 (val_main_v234 (F := Ideal)) (val_main_v239 (F := Ideal) a0 a1 a4 a5)
    (val_main_v244 (F := Ideal) a0 a1 a4 a5) b p ch _ _ ?_ ?_ ?_
  · exact batch_select (val_main_v208 (F := Ideal)) (val_main_v230 (F := Ideal)) (val_main_v232 (F := Ideal))
      (ix2 b (0 : Fin 1)) b.val (by have := b.isLt; omega) (iota_apply b) rfl rfl
  · exact wrap_select (val_main_v197 (F := Ideal) a0 a1 a4 a5) (val_main_v235 (F := Ideal)) (val_main_v237 (F := Ideal))
      (ix2 b p) rfl rfl
  · exact wrap_select (val_main_v201 (F := Ideal) a0 a1 a4 a5) (val_main_v240 (F := Ideal)) (val_main_v242 (F := Ideal))
      (ix2 b p) rfl rfl

/-- The gather `%271` reads the pixel at row `min (⌊y⌋ + 1) 39`, column `⌊x⌋`. -/
theorem corner10' (b : Fin 128) (p : Fin 36) (ch : Fin 256) :
    val_main_v271 (F := Ideal) a0 a1 a3 a4 a5 (ix3 b p ch)
      = Cert.Sample.corner (fun k => a3 (ix3 b ch k))
          (Cert.Sample.idx1 (val_main_v189 (F := Ideal) a0 a1 a4 a5 (ix2 b p)))
          (Cert.Sample.idx0 (val_main_v188 (F := Ideal) a0 a1 a4 a5 (ix2 b p))) := by
  -- the start index of `%271` is (batch `%255`, row `%260` = wrap of `%205`, column `%265` = wrap of `%196`)
  refine stage_corner a3 (val_main_v255 (F := Ideal)) (val_main_v260 (F := Ideal) a0 a1 a4 a5)
    (val_main_v265 (F := Ideal) a0 a1 a4 a5) b p ch _ _ ?_ ?_ ?_
  · exact batch_select (val_main_v208 (F := Ideal)) (val_main_v251 (F := Ideal)) (val_main_v253 (F := Ideal))
      (ix2 b (0 : Fin 1)) b.val (by have := b.isLt; omega) (iota_apply b) rfl rfl
  · exact wrap_select (val_main_v205 (F := Ideal) a0 a1 a4 a5) (val_main_v256 (F := Ideal)) (val_main_v258 (F := Ideal))
      (ix2 b p) rfl rfl
  · exact wrap_select (val_main_v196 (F := Ideal) a0 a1 a4 a5) (val_main_v261 (F := Ideal)) (val_main_v263 (F := Ideal))
      (ix2 b p) rfl rfl

/-- The gather `%292` reads the pixel at row `min (⌊y⌋ + 1) 39`, column `min (⌊x⌋ + 1) 39`. -/
theorem corner11' (b : Fin 128) (p : Fin 36) (ch : Fin 256) :
    val_main_v292 (F := Ideal) a0 a1 a3 a4 a5 (ix3 b p ch)
      = Cert.Sample.corner (fun k => a3 (ix3 b ch k))
          (Cert.Sample.idx1 (val_main_v189 (F := Ideal) a0 a1 a4 a5 (ix2 b p)))
          (Cert.Sample.idx1 (val_main_v188 (F := Ideal) a0 a1 a4 a5 (ix2 b p))) := by
  -- the start index of `%292` is (batch `%276`, row `%281` = wrap of `%205`, column `%286` = wrap of `%201`)
  refine stage_corner a3 (val_main_v276 (F := Ideal)) (val_main_v281 (F := Ideal) a0 a1 a4 a5)
    (val_main_v286 (F := Ideal) a0 a1 a4 a5) b p ch _ _ ?_ ?_ ?_
  · exact batch_select (val_main_v208 (F := Ideal)) (val_main_v272 (F := Ideal)) (val_main_v274 (F := Ideal))
      (ix2 b (0 : Fin 1)) b.val (by have := b.isLt; omega) (iota_apply b) rfl rfl
  · exact wrap_select (val_main_v205 (F := Ideal) a0 a1 a4 a5) (val_main_v277 (F := Ideal)) (val_main_v279 (F := Ideal))
      (ix2 b p) rfl rfl
  · exact wrap_select (val_main_v201 (F := Ideal) a0 a1 a4 a5) (val_main_v282 (F := Ideal)) (val_main_v284 (F := Ideal))
      (ix2 b p) rfl rfl

end Cert.ReferenceIdeal.Sample

end
-- ==== Proof.RefBlend.lean ====
import proofs.«137562_j58282706206954_1_alg».proof.Proof.RefReadP
import proofs.«137562_j58282706206954_1_alg».proof.Proof.SampleMath

/-!
# The interpolation weights the reference multiplies its corners by

For each batch element `b` and sample point `p` the reference has a clipped pixel coordinate on each axis,
`xc` and `yc`, held in arrays of shape `[128, 36]`. From a coordinate `t` it forms the fractional weight
`t - ⌊t⌋` once, as a `[128, 36]` array; gives that array a last axis of length one (`[128, 36, 1]`); where the
complementary weight is wanted, subtracts it from the literal one broadcast to `[128, 36, 1]`; and finally
broadcasts along the 256 channels (`[128, 36, 256]`). Each of the four gathered corners is multiplied by two such
broadcast arrays.

None of these steps computes anything but the one subtraction: a broadcast reads its operand at the position
with the new axis dropped (or, along an axis of length one, at coordinate `0`). So each broadcast weight array,
read at `(b, p, ch)`, is the fractional weight `frac t` of the coordinate `t` at `(b, p)`, or `one - frac t`,
whatever the channel `ch`. This file proves that for the eight weight arrays of each of the program's two
outputs (the second output recomputes the coordinates and the weights from scratch, as separate arrays).

The steps, in order: the two facts about positions (`unit_idx`, `chan_idx`); the `[128, 36, 1]` weight arrays
read at `(b, p, c)` (`frac40` …); their complements (`comp141` …); and the sixteen broadcast arrays (`w142` …).
-/

noncomputable section

namespace Cert.ReferenceIdeal.Sample

open Cert.ReferenceIdeal Cert.ReferenceIdeal.Gen Cert.ReferenceIdeal.ReadP Idealize.ShloMosaic Idealize.ShloMosaic.ValueIdx

variable (a0 : S128x256.Idx → EReal) (a1 : S128x2.Idx → EReal) (a2 a3 : S128x256x1600.Idx → EReal) (a4 : S72x256.Idx → EReal) (a5 : S72.Idx → EReal)

/-! ## Positions -/

/-- Giving a `[128, 36]` array a last axis of length one: position `(b, p, c)` of the result reads position
    `(b, p)` of the operand. -/
theorem unit_idx (b : Fin 128) (p : Fin 36) (c : Fin 1) : idx_main_v40 (ix3 b p c) = ix2 b p :=
  funext fun a => match a with
    | ⟨0, _⟩ => rfl
    | ⟨1, _⟩ => rfl

/-- Broadcasting a `[128, 36, 1]` array along the 256 channels: position `(b, p, ch)` of the result reads
    position `(b, p, 0)` of the operand, whatever `ch`. -/
theorem chan_idx (b : Fin 128) (p : Fin 36) (ch : Fin 256) : idx_main_v142 (ix3 b p ch) = ix3 b p (0 : Fin 1) :=
  funext fun a => match a with
    | ⟨0, _⟩ => rfl
    | ⟨1, _⟩ => rfl
    | ⟨2, _⟩ => rfl

/-! ## The fractional weights with their unit axis

One array per axis and per output: the coordinate minus its floor, given a last axis of length one. -/

/-- The first output's x weight with its unit axis, read at `(b, p, c)`: the unit axis is dropped, and the
    entry at `(b, p)` is the x coordinate minus its floor, which is its fractional weight. -/
theorem frac40 (b : Fin 128) (p : Fin 36) (c : Fin 1) :
    val_main_v40 (F := Ideal) a0 a1 a4 a5 (ix3 b p c)
      = Cert.Sample.frac (val_main_v35 (F := Ideal) a0 a1 a4 a5 (ix2 b p)) := by
  rw [val_main_v40_apply, unit_idx,
    val_main_v39_apply, val_main_v37_apply]
  rfl

/-- The first output's y weight with its unit axis, read at `(b, p, c)`: the unit axis is dropped, and the
    entry at `(b, p)` is the y coordinate minus its floor, which is its fractional weight. -/
theorem frac42 (b : Fin 128) (p : Fin 36) (c : Fin 1) :
    val_main_v42 (F := Ideal) a0 a1 a4 a5 (ix3 b p c)
      = Cert.Sample.frac (val_main_v36 (F := Ideal) a0 a1 a4 a5 (ix2 b p)) := by
  rw [val_main_v42_apply, show idx_main_v42 (ix3 b p c) = ix2 b p from unit_idx b p c,
    val_main_v41_apply, val_main_v38_apply]
  rfl

/-- The second output's x weight with its unit axis, read at `(b, p, c)`: the unit axis is dropped, and the
    entry at `(b, p)` is the x coordinate minus its floor, which is its fractional weight. -/
theorem frac193 (b : Fin 128) (p : Fin 36) (c : Fin 1) :
    val_main_v193 (F := Ideal) a0 a1 a4 a5 (ix3 b p c)
      = Cert.Sample.frac (val_main_v188 (F := Ideal) a0 a1 a4 a5 (ix2 b p)) := by
  rw [val_main_v193_apply, show idx_main_v193 (ix3 b p c) = ix2 b p from unit_idx b p c,
    val_main_v192_apply, val_main_v190_apply]
  rfl

/-- The second output's y weight with its unit axis, read at `(b, p, c)`: the unit axis is dropped, and the
    entry at `(b, p)` is the y coordinate minus its floor, which is its fractional weight. -/
theorem frac195 (b : Fin 128) (p : Fin 36) (c : Fin 1) :
    val_main_v195 (F := Ideal) a0 a1 a4 a5 (ix3 b p c)
      = Cert.Sample.frac (val_main_v189 (F := Ideal) a0 a1 a4 a5 (ix2 b p)) := by
  rw [val_main_v195_apply, show idx_main_v195 (ix3 b p c) = ix2 b p from unit_idx b p c,
    val_main_v194_apply, val_main_v191_apply]
  rfl

/-! ## The complementary weights

The literal one, broadcast from a scalar, reads one at every position; the subtraction is entrywise. -/

/-- One minus the first output's x weight, read at `(b, p, c)`: the broadcast literal is one there, and the
    entry subtracted from it is the fractional weight of the x coordinate at `(b, p)`. -/
theorem comp141 (b : Fin 128) (p : Fin 36) (c : Fin 1) :
    val_main_v141 (F := Ideal) a0 a1 a4 a5 (ix3 b p c)
      = Cert.Sample.one - Cert.Sample.frac (val_main_v35 (F := Ideal) a0 a1 a4 a5 (ix2 b p)) := by
  rw [val_main_v141_apply, val_main_v140_apply, val_main_cst_40_apply, frac40]
  rfl

/-- One minus the first output's y weight, read at `(b, p, c)`: the broadcast literal is one there, and the
    entry subtracted from it is the fractional weight of the y coordinate at `(b, p)`. -/
theorem comp145 (b : Fin 128) (p : Fin 36) (c : Fin 1) :
    val_main_v145 (F := Ideal) a0 a1 a4 a5 (ix3 b p c)
      = Cert.Sample.one - Cert.Sample.frac (val_main_v36 (F := Ideal) a0 a1 a4 a5 (ix2 b p)) := by
  rw [val_main_v145_apply, val_main_v144_apply, val_main_cst_41_apply, frac42]
  rfl

/-- One minus the first output's y weight, read at `(b, p, c)`: the broadcast literal is one there, and the
    entry subtracted from it is the fractional weight of the y coordinate at `(b, p)`. -/
theorem comp151 (b : Fin 128) (p : Fin 36) (c : Fin 1) :
    val_main_v151 (F := Ideal) a0 a1 a4 a5 (ix3 b p c)
      = Cert.Sample.one - Cert.Sample.frac (val_main_v36 (F := Ideal) a0 a1 a4 a5 (ix2 b p)) := by
  rw [val_main_v151_apply, val_main_v150_apply, val_main_cst_42_apply, frac42]
  rfl

/-- One minus the first output's x weight, read at `(b, p, c)`: the broadcast literal is one there, and the
    entry subtracted from it is the fractional weight of the x coordinate at `(b, p)`. -/
theorem comp156 (b : Fin 128) (p : Fin 36) (c : Fin 1) :
    val_main_v156 (F := Ideal) a0 a1 a4 a5 (ix3 b p c)
      = Cert.Sample.one - Cert.Sample.frac (val_main_v35 (F := Ideal) a0 a1 a4 a5 (ix2 b p)) := by
  rw [val_main_v156_apply, val_main_v155_apply, val_main_cst_43_apply, frac40]
  rfl

/-- One minus the second output's x weight, read at `(b, p, c)`: the broadcast literal is one there, and the
    entry subtracted from it is the fractional weight of the x coordinate at `(b, p)`. -/
theorem comp294 (b : Fin 128) (p : Fin 36) (c : Fin 1) :
    val_main_v294 (F := Ideal) a0 a1 a4 a5 (ix3 b p c)
      = Cert.Sample.one - Cert.Sample.frac (val_main_v188 (F := Ideal) a0 a1 a4 a5 (ix2 b p)) := by
  rw [val_main_v294_apply, val_main_v293_apply, val_main_cst_84_apply, frac193]
  rfl

/-- One minus the second output's y weight, read at `(b, p, c)`: the broadcast literal is one there, and the
    entry subtracted from it is the fractional weight of the y coordinate at `(b, p)`. -/
theorem comp298 (b : Fin 128) (p : Fin 36) (c : Fin 1) :
    val_main_v298 (F := Ideal) a0 a1 a4 a5 (ix3 b p c)
      = Cert.Sample.one - Cert.Sample.frac (val_main_v189 (F := Ideal) a0 a1 a4 a5 (ix2 b p)) := by
  rw [val_main_v298_apply, val_main_v297_apply, val_main_cst_85_apply, frac195]
  rfl

/-- One minus the second output's y weight, read at `(b, p, c)`: the broadcast literal is one there, and the
    entry subtracted from it is the fractional weight of the y coordinate at `(b, p)`. -/
theorem comp304 (b : Fin 128) (p : Fin 36) (c : Fin 1) :
    val_main_v304 (F := Ideal) a0 a1 a4 a5 (ix3 b p c)
      = Cert.Sample.one - Cert.Sample.frac (val_main_v189 (F := Ideal) a0 a1 a4 a5 (ix2 b p)) := by
  rw [val_main_v304_apply, val_main_v303_apply, val_main_cst_86_apply, frac195]
  rfl

/-- One minus the second output's x weight, read at `(b, p, c)`: the broadcast literal is one there, and the
    entry subtracted from it is the fractional weight of the x coordinate at `(b, p)`. -/
theorem comp309 (b : Fin 128) (p : Fin 36) (c : Fin 1) :
    val_main_v309 (F := Ideal) a0 a1 a4 a5 (ix3 b p c)
      = Cert.Sample.one - Cert.Sample.frac (val_main_v188 (F := Ideal) a0 a1 a4 a5 (ix2 b p)) := by
  rw [val_main_v309_apply, val_main_v308_apply, val_main_cst_87_apply, frac193]
  rfl

/-! ## The sixteen broadcast weight arrays

Each reads its `[128, 36, 1]` operand at `(b, p, 0)`, so the channel drops out. -/

/-- The x weight that multiplies the first gathered corner of the first output, at `(b, p, ch)`: it is
    one minus the fractional weight of the x coordinate at `(b, p)`, for every channel. -/
theorem w142 (b : Fin 128) (p : Fin 36) (ch : Fin 256) :
    val_main_v142 (F := Ideal) a0 a1 a4 a5 (ix3 b p ch)
      = Cert.Sample.one - Cert.Sample.frac (val_main_v35 (F := Ideal) a0 a1 a4 a5 (ix2 b p)) := by
  rw [val_main_v142_apply, chan_idx,
    comp141]

/-- The y weight that multiplies the first gathered corner of the first output, at `(b, p, ch)`: it is
    one minus the fractional weight of the y coordinate at `(b, p)`, for every channel. -/
theorem w146 (b : Fin 128) (p : Fin 36) (ch : Fin 256) :
    val_main_v146 (F := Ideal) a0 a1 a4 a5 (ix3 b p ch)
      = Cert.Sample.one - Cert.Sample.frac (val_main_v36 (F := Ideal) a0 a1 a4 a5 (ix2 b p)) := by
  rw [val_main_v146_apply, show idx_main_v146 (ix3 b p ch) = ix3 b p (0 : Fin 1) from chan_idx b p ch,
    comp145]

/-- The x weight that multiplies the second gathered corner of the first output, at `(b, p, ch)`: it is
    the fractional weight of the x coordinate at `(b, p)`, for every channel. -/
theorem w148 (b : Fin 128) (p : Fin 36) (ch : Fin 256) :
    val_main_v148 (F := Ideal) a0 a1 a4 a5 (ix3 b p ch)
      = Cert.Sample.frac (val_main_v35 (F := Ideal) a0 a1 a4 a5 (ix2 b p)) := by
  rw [val_main_v148_apply, show idx_main_v148 (ix3 b p ch) = ix3 b p (0 : Fin 1) from chan_idx b p ch,
    frac40]

/-- The y weight that multiplies the second gathered corner of the first output, at `(b, p, ch)`: it is
    one minus the fractional weight of the y coordinate at `(b, p)`, for every channel. -/
theorem w152 (b : Fin 128) (p : Fin 36) (ch : Fin 256) :
    val_main_v152 (F := Ideal) a0 a1 a4 a5 (ix3 b p ch)
      = Cert.Sample.one - Cert.Sample.frac (val_main_v36 (F := Ideal) a0 a1 a4 a5 (ix2 b p)) := by
  rw [val_main_v152_apply, show idx_main_v152 (ix3 b p ch) = ix3 b p (0 : Fin 1) from chan_idx b p ch,
    comp151]

/-- The x weight that multiplies the third gathered corner of the first output, at `(b, p, ch)`: it is
    one minus the fractional weight of the x coordinate at `(b, p)`, for every channel. -/
theorem w157 (b : Fin 128) (p : Fin 36) (ch : Fin 256) :
    val_main_v157 (F := Ideal) a0 a1 a4 a5 (ix3 b p ch)
      = Cert.Sample.one - Cert.Sample.frac (val_main_v35 (F := Ideal) a0 a1 a4 a5 (ix2 b p)) := by
  rw [val_main_v157_apply, show idx_main_v157 (ix3 b p ch) = ix3 b p (0 : Fin 1) from chan_idx b p ch,
    comp156]

/-- The y weight that multiplies the third gathered corner of the first output, at `(b, p, ch)`: it is
    the fractional weight of the y coordinate at `(b, p)`, for every channel. -/
theorem w159 (b : Fin 128) (p : Fin 36) (ch : Fin 256) :
    val_main_v159 (F := Ideal) a0 a1 a4 a5 (ix3 b p ch)
      = Cert.Sample.frac (val_main_v36 (F := Ideal) a0 a1 a4 a5 (ix2 b p)) := by
  rw [val_main_v159_apply, show idx_main_v159 (ix3 b p ch) = ix3 b p (0 : Fin 1) from chan_idx b p ch,
    frac42]

/-- The x weight that multiplies the fourth gathered corner of the first output, at `(b, p, ch)`: it is
    the fractional weight of the x coordinate at `(b, p)`, for every channel. -/
theorem w162 (b : Fin 128) (p : Fin 36) (ch : Fin 256) :
    val_main_v162 (F := Ideal) a0 a1 a4 a5 (ix3 b p ch)
      = Cert.Sample.frac (val_main_v35 (F := Ideal) a0 a1 a4 a5 (ix2 b p)) := by
  rw [val_main_v162_apply, show idx_main_v162 (ix3 b p ch) = ix3 b p (0 : Fin 1) from chan_idx b p ch,
    frac40]

/-- The y weight that multiplies the fourth gathered corner of the first output, at `(b, p, ch)`: it is
    the fractional weight of the y coordinate at `(b, p)`, for every channel. -/
theorem w164 (b : Fin 128) (p : Fin 36) (ch : Fin 256) :
    val_main_v164 (F := Ideal) a0 a1 a4 a5 (ix3 b p ch)
      = Cert.Sample.frac (val_main_v36 (F := Ideal) a0 a1 a4 a5 (ix2 b p)) := by
  rw [val_main_v164_apply, show idx_main_v164 (ix3 b p ch) = ix3 b p (0 : Fin 1) from chan_idx b p ch,
    frac42]

/-- The x weight that multiplies the first gathered corner of the second output, at `(b, p, ch)`: it is
    one minus the fractional weight of the x coordinate at `(b, p)`, for every channel. -/
theorem w295 (b : Fin 128) (p : Fin 36) (ch : Fin 256) :
    val_main_v295 (F := Ideal) a0 a1 a4 a5 (ix3 b p ch)
      = Cert.Sample.one - Cert.Sample.frac (val_main_v188 (F := Ideal) a0 a1 a4 a5 (ix2 b p)) := by
  rw [val_main_v295_apply, show idx_main_v295 (ix3 b p ch) = ix3 b p (0 : Fin 1) from chan_idx b p ch,
    comp294]

/-- The y weight that multiplies the first gathered corner of the second output, at `(b, p, ch)`: it is
    one minus the fractional weight of the y coordinate at `(b, p)`, for every channel. -/
theorem w299 (b : Fin 128) (p : Fin 36) (ch : Fin 256) :
    val_main_v299 (F := Ideal) a0 a1 a4 a5 (ix3 b p ch)
      = Cert.Sample.one - Cert.Sample.frac (val_main_v189 (F := Ideal) a0 a1 a4 a5 (ix2 b p)) := by
  rw [val_main_v299_apply, show idx_main_v299 (ix3 b p ch) = ix3 b p (0 : Fin 1) from chan_idx b p ch,
    comp298]

/-- The x weight that multiplies the second gathered corner of the second output, at `(b, p, ch)`: it is
    the fractional weight of the x coordinate at `(b, p)`, for every channel. -/
theorem w301 (b : Fin 128) (p : Fin 36) (ch : Fin 256) :
    val_main_v301 (F := Ideal) a0 a1 a4 a5 (ix3 b p ch)
      = Cert.Sample.frac (val_main_v188 (F := Ideal) a0 a1 a4 a5 (ix2 b p)) := by
  rw [val_main_v301_apply, show idx_main_v301 (ix3 b p ch) = ix3 b p (0 : Fin 1) from chan_idx b p ch,
    frac193]

/-- The y weight that multiplies the second gathered corner of the second output, at `(b, p, ch)`: it is
    one minus the fractional weight of the y coordinate at `(b, p)`, for every channel. -/
theorem w305 (b : Fin 128) (p : Fin 36) (ch : Fin 256) :
    val_main_v305 (F := Ideal) a0 a1 a4 a5 (ix3 b p ch)
      = Cert.Sample.one - Cert.Sample.frac (val_main_v189 (F := Ideal) a0 a1 a4 a5 (ix2 b p)) := by
  rw [val_main_v305_apply, show idx_main_v305 (ix3 b p ch) = ix3 b p (0 : Fin 1) from chan_idx b p ch,
    comp304]

/-- The x weight that multiplies the third gathered corner of the second output, at `(b, p, ch)`: it is
    one minus the fractional weight of the x coordinate at `(b, p)`, for every channel. -/
theorem w310 (b : Fin 128) (p : Fin 36) (ch : Fin 256) :
    val_main_v310 (F := Ideal) a0 a1 a4 a5 (ix3 b p ch)
      = Cert.Sample.one - Cert.Sample.frac (val_main_v188 (F := Ideal) a0 a1 a4 a5 (ix2 b p)) := by
  rw [val_main_v310_apply, show idx_main_v310 (ix3 b p ch) = ix3 b p (0 : Fin 1) from chan_idx b p ch,
    comp309]

/-- The y weight that multiplies the third gathered corner of the second output, at `(b, p, ch)`: it is
    the fractional weight of the y coordinate at `(b, p)`, for every channel. -/
theorem w312 (b : Fin 128) (p : Fin 36) (ch : Fin 256) :
    val_main_v312 (F := Ideal) a0 a1 a4 a5 (ix3 b p ch)
      = Cert.Sample.frac (val_main_v189 (F := Ideal) a0 a1 a4 a5 (ix2 b p)) := by
  rw [val_main_v312_apply, show idx_main_v312 (ix3 b p ch) = ix3 b p (0 : Fin 1) from chan_idx b p ch,
    frac195]

/-- The x weight that multiplies the fourth gathered corner of the second output, at `(b, p, ch)`: it is
    the fractional weight of the x coordinate at `(b, p)`, for every channel. -/
theorem w315 (b : Fin 128) (p : Fin 36) (ch : Fin 256) :
    val_main_v315 (F := Ideal) a0 a1 a4 a5 (ix3 b p ch)
      = Cert.Sample.frac (val_main_v188 (F := Ideal) a0 a1 a4 a5 (ix2 b p)) := by
  rw [val_main_v315_apply, show idx_main_v315 (ix3 b p ch) = ix3 b p (0 : Fin 1) from chan_idx b p ch,
    frac193]

/-- The y weight that multiplies the fourth gathered corner of the second output, at `(b, p, ch)`: it is
    the fractional weight of the y coordinate at `(b, p)`, for every channel. -/
theorem w317 (b : Fin 128) (p : Fin 36) (ch : Fin 256) :
    val_main_v317 (F := Ideal) a0 a1 a4 a5 (ix3 b p ch)
      = Cert.Sample.frac (val_main_v189 (F := Ideal) a0 a1 a4 a5 (ix2 b p)) := by
  rw [val_main_v317_apply, show idx_main_v317 (ix3 b p ch) = ix3 b p (0 : Fin 1) from chan_idx b p ch,
    frac195]

end Cert.ReferenceIdeal.Sample

end
-- ==== Proof.RefValue.lean ====
import proofs.«137562_j58282706206954_1_alg».proof.Proof.RefReadP
import proofs.«137562_j58282706206954_1_alg».proof.Proof.RefCorners
import proofs.«137562_j58282706206954_1_alg».proof.Proof.RefBlend
import proofs.«137562_j58282706206954_1_alg».proof.Proof.SampleMath

/-!
# The reference's results, entry by entry

Entry `(b, c, p)` of each result is, after the last transpose, the blend of the four gathered corner pixels of channel
`c` of batch element `b` with the weights `(1 - wx)(1 - wy)`, `wx (1 - wy)`, `(1 - wx) wy`, `wx wy` of sample point
`p`: `Cert.Sample.refSample` of the point's clipped coordinates and the channel's 1600 pixels. The second result
recomputes the same coordinates from the same arguments and reads the second image.
-/

noncomputable section

namespace Cert.ReferenceIdeal.Sample

open Cert.ReferenceIdeal Cert.ReferenceIdeal.Gen Cert.ReferenceIdeal.ReadP Idealize.ShloMosaic Idealize.ShloMosaic.ValueIdx

variable (a0 : S128x256.Idx → EReal) (a1 : S128x2.Idx → EReal) (a2 a3 : S128x256x1600.Idx → EReal)
  (a4 : S72x256.Idx → EReal) (a5 : S72.Idx → EReal)

/-- The first result at `(b, c, p)`. -/
theorem out0_apply (b : Fin 128) (ch : Fin 256) (p : Fin 36) :
    val_main_v167 (F := Ideal) a0 a1 a2 a4 a5 (ix3 b ch p)
      = Cert.Sample.refSample (val_main_v35 (F := Ideal) a0 a1 a4 a5 (ix2 b p)) (val_main_v36 (F := Ideal) a0 a1 a4 a5 (ix2 b p))
          (fun k => a2 (ix3 b ch k)) := by
  have hi : idx_main_v167 (ix3 b ch p) = ix3 b p ch :=
    funext fun a => Fin.ext (by match a with | ⟨0, _⟩ => rfl | ⟨1, _⟩ => rfl | ⟨2, _⟩ => rfl)
  rw [val_main_v167_apply, hi]
  show ((val_main_v76 (F := Ideal) a0 a1 a2 a4 a5 (ix3 b p ch) * val_main_v142 (F := Ideal) a0 a1 a4 a5 (ix3 b p ch)
            * val_main_v146 (F := Ideal) a0 a1 a4 a5 (ix3 b p ch)
          + val_main_v97 (F := Ideal) a0 a1 a2 a4 a5 (ix3 b p ch) * val_main_v148 (F := Ideal) a0 a1 a4 a5 (ix3 b p ch)
            * val_main_v152 (F := Ideal) a0 a1 a4 a5 (ix3 b p ch))
        + val_main_v118 (F := Ideal) a0 a1 a2 a4 a5 (ix3 b p ch) * val_main_v157 (F := Ideal) a0 a1 a4 a5 (ix3 b p ch)
            * val_main_v159 (F := Ideal) a0 a1 a4 a5 (ix3 b p ch))
      + val_main_v139 (F := Ideal) a0 a1 a2 a4 a5 (ix3 b p ch) * val_main_v162 (F := Ideal) a0 a1 a4 a5 (ix3 b p ch)
            * val_main_v164 (F := Ideal) a0 a1 a4 a5 (ix3 b p ch) = _
  rw [corner00, corner01, corner10, corner11, w142, w146, w148, w152, w157, w159, w162, w164]
  rfl

/-- The second result at `(b, c, p)`, in terms of the coordinates it recomputes (`%188`, `%189`). -/
theorem out1_apply (b : Fin 128) (ch : Fin 256) (p : Fin 36) :
    val_main_v320 (F := Ideal) a0 a1 a3 a4 a5 (ix3 b ch p)
      = Cert.Sample.refSample (val_main_v188 (F := Ideal) a0 a1 a4 a5 (ix2 b p)) (val_main_v189 (F := Ideal) a0 a1 a4 a5 (ix2 b p))
          (fun k => a3 (ix3 b ch k)) := by
  have hi : idx_main_v320 (ix3 b ch p) = ix3 b p ch :=
    funext fun a => Fin.ext (by match a with | ⟨0, _⟩ => rfl | ⟨1, _⟩ => rfl | ⟨2, _⟩ => rfl)
  rw [val_main_v320_apply, hi]
  show ((val_main_v229 (F := Ideal) a0 a1 a3 a4 a5 (ix3 b p ch) * val_main_v295 (F := Ideal) a0 a1 a4 a5 (ix3 b p ch)
            * val_main_v299 (F := Ideal) a0 a1 a4 a5 (ix3 b p ch)
          + val_main_v250 (F := Ideal) a0 a1 a3 a4 a5 (ix3 b p ch) * val_main_v301 (F := Ideal) a0 a1 a4 a5 (ix3 b p ch)
            * val_main_v305 (F := Ideal) a0 a1 a4 a5 (ix3 b p ch))
        + val_main_v271 (F := Ideal) a0 a1 a3 a4 a5 (ix3 b p ch) * val_main_v310 (F := Ideal) a0 a1 a4 a5 (ix3 b p ch)
            * val_main_v312 (F := Ideal) a0 a1 a4 a5 (ix3 b p ch))
      + val_main_v292 (F := Ideal) a0 a1 a3 a4 a5 (ix3 b p ch) * val_main_v315 (F := Ideal) a0 a1 a4 a5 (ix3 b p ch)
            * val_main_v317 (F := Ideal) a0 a1 a4 a5 (ix3 b p ch) = _
  rw [corner00', corner01', corner10', corner11', w295, w299, w301, w305, w310, w312, w315, w317]
  rfl

/-- The coordinates the second result recomputes are the first's: the same operations of the same arguments. -/
theorem xc'_eq : val_main_v188 (F := Ideal) a0 a1 a4 a5 = val_main_v35 (F := Ideal) a0 a1 a4 a5 := rfl
theorem yc'_eq : val_main_v189 (F := Ideal) a0 a1 a4 a5 = val_main_v36 (F := Ideal) a0 a1 a4 a5 := rfl

/-- A clipped coordinate is `min 39 (max 0 z)` of the unclipped one, hence a real number in `[0, 39]`. -/
theorem xc_range (b : Fin 128) (p : Fin 36) :
    ∃ r : ℝ, 0 ≤ r ∧ r ≤ 39 ∧ val_main_v35 (F := Ideal) a0 a1 a4 a5 (ix2 b p) = (r : EReal) :=
  Cert.PixelCoord.clip_real (val_main_v24 (F := Ideal) a0 a1 a4 a5 (ix2 b p))
theorem yc_range (b : Fin 128) (p : Fin 36) :
    ∃ r : ℝ, 0 ≤ r ∧ r ≤ 39 ∧ val_main_v36 (F := Ideal) a0 a1 a4 a5 (ix2 b p) = (r : EReal) :=
  Cert.PixelCoord.clip_real (val_main_v34 (F := Ideal) a0 a1 a4 a5 (ix2 b p))

end Cert.ReferenceIdeal.Sample

end
-- ==== Proof.Bridge.lean ====
import proofs.«137562_j58282706206954_1_alg».proof.Proof.KernelValue
import proofs.«137562_j58282706206954_1_alg».proof.Proof.KernelPrefix
import proofs.«137562_j58282706206954_1_alg».proof.Proof.RefValue
import proofs.«137562_j58282706206954_1_alg».proof.Proof.SampleMath

/-!
# The two programs return the same arrays

Entry `(b, c, p)` of the kernel's first result is `∑ k, weight (b, p, k) · image (b, c, k)` with
`weight (b, p, k) = row yc (k / 40) · row xc (k % 40)` at the clipped coordinates `xc, yc` of sample point `p` of batch
element `b`: that is `Cert.Sample.kernelSample xc yc (image (b, c, ·))`. The same entry of the reference's first result is
`Cert.Sample.refSample` of the same coordinates — the two programs compute them by the same operations — and the same
pixels. For real pixel values the two agree (`Cert.Sample.kernel_eq_ref`); the coordinates, being clipped, are real
whatever the arguments. The second result is the same statement about the second image.
-/

noncomputable section

namespace Cert.KernelIdeal.Sample

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The weighted sums at `(b, p, c)` are the kernel's sample of channel `c` at the point's clipped coordinates. -/
theorem sampled_apply (c : Dev nD) (A : S128x256x1600.Idx → EReal) (b : Fin 128) (p : Fin 36) (ch : Fin 256) :
    sampled (weightsOf (xcK m c) (ycK m c)) A (ix3 b p ch)
      = Cert.Sample.kernelSample (xcK m c (ix2 b p)) (ycK m c (ix2 b p)) (fun k => A (ix3 b ch k)) := by
  show ∑ k : Fin 1600, weightsOf (xcK m c) (ycK m c) (ix3 b p k) * A (ix3 b ch k) = _
  unfold Cert.Sample.kernelSample
  refine Finset.sum_congr rfl fun k _ => ?_
  rw [weightsOf_apply]

/-- THE FIRST RESULT of the kernel is the reference's, when the first image's entries are real. -/
theorem result0_eq (c : Dev nD)
    (hfin : ∀ i, ∃ r : ℝ, (m ((c.tc : Thread nD τ).loc main_arg2) : S128x256x1600.Idx → EReal) i = (r : EReal)) :
    transpose S128x256x36 [0, 2, 1] (sampled (weightsOf (xcK m c) (ycK m c)) (m ((c.tc : Thread nD τ).loc main_arg2)))
        transposes_S128x36x256_S128x256x36_0_2_1
      = Cert.ReferenceIdeal.ReadP.val_main_v167 (F := Ideal) (m ((c.tc : Thread nD τ).loc main_arg0))
          (m ((c.tc : Thread nD τ).loc main_arg1)) (m ((c.tc : Thread nD τ).loc main_arg2))
          (m ((c.tc : Thread nD τ).loc main_arg4)) (m ((c.tc : Thread nD τ).loc main_arg5)) := by
  funext i
  obtain ⟨b, ch, p, rfl⟩ : ∃ (b : Fin 128) (ch : Fin 256) (p : Fin 36), i = ix3 b ch p := ⟨i 0, i 1, i 2, eq_ix3 i⟩
  have hx := Cert.ReferenceIdeal.Sample.xc_range (m ((c.tc : Thread nD τ).loc main_arg0)) (m ((c.tc : Thread nD τ).loc main_arg1))
    (m ((c.tc : Thread nD τ).loc main_arg4)) (m ((c.tc : Thread nD τ).loc main_arg5)) b p
  have hy := Cert.ReferenceIdeal.Sample.yc_range (m ((c.tc : Thread nD τ).loc main_arg0)) (m ((c.tc : Thread nD τ).loc main_arg1))
    (m ((c.tc : Thread nD τ).loc main_arg4)) (m ((c.tc : Thread nD τ).loc main_arg5)) b p
  have himg : ∀ k : Fin 1600, ∃ r : ℝ,
      (fun k : Fin 1600 => (m ((c.tc : Thread nD τ).loc main_arg2) : S128x256x1600.Idx → EReal) (ix3 b ch k)) k = (r : EReal) :=
    fun k => hfin _
  rw [Cert.ReferenceIdeal.Sample.out0_apply, ← Cert.Sample.kernel_eq_ref _ _ hx hy _ himg]
  refine (transpose_apply [0, 2, 1] _ transposes_S128x36x256_S128x256x36_0_2_1 (ix3 b ch p) (ix3 b p ch) (fun a => match a with
    | ⟨0, _⟩ => rfl
    | ⟨1, _⟩ => rfl
    | ⟨2, _⟩ => rfl)).trans ?_
  rw [sampled_apply, xcK_eq, ycK_eq]

/-- THE SECOND RESULT likewise, of the second image. -/
theorem result1_eq (c : Dev nD)
    (hfin : ∀ i, ∃ r : ℝ, (m ((c.tc : Thread nD τ).loc main_arg3) : S128x256x1600.Idx → EReal) i = (r : EReal)) :
    transpose S128x256x36 [0, 2, 1] (sampled (weightsOf (xcK m c) (ycK m c)) (m ((c.tc : Thread nD τ).loc main_arg3)))
        transposes_S128x36x256_S128x256x36_0_2_1
      = Cert.ReferenceIdeal.ReadP.val_main_v320 (F := Ideal) (m ((c.tc : Thread nD τ).loc main_arg0))
          (m ((c.tc : Thread nD τ).loc main_arg1)) (m ((c.tc : Thread nD τ).loc main_arg3))
          (m ((c.tc : Thread nD τ).loc main_arg4)) (m ((c.tc : Thread nD τ).loc main_arg5)) := by
  funext i
  obtain ⟨b, ch, p, rfl⟩ : ∃ (b : Fin 128) (ch : Fin 256) (p : Fin 36), i = ix3 b ch p := ⟨i 0, i 1, i 2, eq_ix3 i⟩
  have hx := Cert.ReferenceIdeal.Sample.xc_range (m ((c.tc : Thread nD τ).loc main_arg0)) (m ((c.tc : Thread nD τ).loc main_arg1))
    (m ((c.tc : Thread nD τ).loc main_arg4)) (m ((c.tc : Thread nD τ).loc main_arg5)) b p
  have hy := Cert.ReferenceIdeal.Sample.yc_range (m ((c.tc : Thread nD τ).loc main_arg0)) (m ((c.tc : Thread nD τ).loc main_arg1))
    (m ((c.tc : Thread nD τ).loc main_arg4)) (m ((c.tc : Thread nD τ).loc main_arg5)) b p
  have himg : ∀ k : Fin 1600, ∃ r : ℝ,
      (fun k : Fin 1600 => (m ((c.tc : Thread nD τ).loc main_arg3) : S128x256x1600.Idx → EReal) (ix3 b ch k)) k = (r : EReal) :=
    fun k => hfin _
  rw [Cert.ReferenceIdeal.Sample.out1_apply, Cert.ReferenceIdeal.Sample.xc'_eq, Cert.ReferenceIdeal.Sample.yc'_eq,
    ← Cert.Sample.kernel_eq_ref _ _ hx hy _ himg]
  refine (transpose_apply [0, 2, 1] _ transposes_S128x36x256_S128x256x36_0_2_1 (ix3 b ch p) (ix3 b p ch) (fun a => match a with
    | ⟨0, _⟩ => rfl
    | ⟨1, _⟩ => rfl
    | ⟨2, _⟩ => rfl)).trans ?_
  rw [sampled_apply, xcK_eq, ycK_eq]

end Cert.KernelIdeal.Sample

end
-- ==== Proof.lean ====
/- The proof of `Cert.Claim`: a bilinear image sample written as a dense product against its gather form.

   The kernel samples a 40 × 40 image at 36 points per batch element by multiplying the image, as a 256 × 1600 matrix of
   channels by pixels, with a 36 × 1600 matrix of interpolation weights that the host builds from one-hot rows: row `p`
   is the outer product of `(1 - wy) [h = y₀] + wy [h = y₁]` and `(1 - wx) [w = x₀] + wx [w = x₁]`. The reference gathers
   the four corner pixels `(y₀, x₀) … (y₁, x₁)` and blends them with the weights `(1 - wx)(1 - wy) … wx wy`. Both compute the
   clipped pixel coordinates, their floors and fractions by the same operations. Among the extended reals, where every float
   operation is exact, the one-hot rows select the four corners out of the sum over the 1600 pixels, and what is left is the
   distributive law — valid because the pixels are finite (the precondition) and the coordinates are clipped to `[0, 39]`.

   The modules: `SampleMath` (the identity for one sample, over `LibBilinear` and `LibPixelCoord`), `KernelPayload`,
   `KernelWeights`, `KernelBlocks`, `KernelValue` (what the kernel's program returns), `KernelPrefix` (the shared
   coordinates), `RefGather`, `RefCorners`, `RefBlend`, `RefValue` (what the reference returns), `FiniteImages` (the
   precondition read), `Bridge` (the two results are equal), and this file (the five claims). -/
import proofs.«137562_j58282706206954_1_alg».proof.Defs
import proofs.«137562_j58282706206954_1_alg».proof.Proof.Gen.Kernel
import proofs.«137562_j58282706206954_1_alg».proof.Proof.Gen.Kernel.Skeleton
import proofs.«137562_j58282706206954_1_alg».proof.Proof.Gen.Kernel.Launch
import proofs.«137562_j58282706206954_1_alg».proof.Proof.Gen.Kernel.Points
import proofs.«137562_j58282706206954_1_alg».proof.Proof.Gen.Kernel.Frame
import proofs.«137562_j58282706206954_1_alg».proof.Proof.Gen.KernelIdeal
import proofs.«137562_j58282706206954_1_alg».proof.Proof.Gen.KernelIdeal.Skeleton
import proofs.«137562_j58282706206954_1_alg».proof.Proof.Gen.KernelIdeal.Launch
import proofs.«137562_j58282706206954_1_alg».proof.Proof.Gen.KernelIdeal.Points
import proofs.«137562_j58282706206954_1_alg».proof.Proof.Gen.KernelIdeal.Frame
import proofs.«137562_j58282706206954_1_alg».proof.Proof.Gen.ReferenceIdeal
import proofs.«137562_j58282706206954_1_alg».proof.Proof.Gen.Pre_finite_inputs
import proofs.«137562_j58282706206954_1_alg».proof.Proof.RefRunP
import proofs.«137562_j58282706206954_1_alg».proof.Proof.RefReadP
import proofs.«137562_j58282706206954_1_alg».proof.Proof.RefRes
import proofs.«137562_j58282706206954_1_alg».proof.Proof.FiniteImages
import proofs.«137562_j58282706206954_1_alg».proof.Proof.Bridge
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference is a straight line of host operations: its run, with the two results forgotten. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments, both programs end with the same two arrays: the kernel's weighted sums
    (`Cert.KernelIdeal.Sample.run`) are the reference's blended corners (`Cert.KernelIdeal.Sample.result0_eq`,
    `result1_eq`), the two images being finite by the precondition (`Cert.Sample.images_real`). -/
theorem algebraic : Cert.algebraic_KernelIdeal_ReferenceIdeal := by
  intro m ρ m' ρ' hpre hagree
  refine ⟨_, _, Cert.KernelIdeal.Sample.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨e0, e1, e2, e3, e4, e5⟩ := hagree c
    rw [Cert.ReferenceIdeal.Sample.res0_eq, e0, e1, e2, e4, e5]
    exact (Cert.KernelIdeal.Sample.result0_eq m c (Cert.Sample.images_real _ _ _ _ _ _ (hpre c)).1).symm
  · obtain ⟨e0, e1, e2, e3, e4, e5⟩ := hagree c
    rw [Cert.ReferenceIdeal.Sample.res1_eq, e0, e1, e3, e4, e5]
    exact (Cert.KernelIdeal.Sample.result1_eq m c (Cert.Sample.images_real _ _ _ _ _ _ (hpre c)).2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
